-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg8 : FVec F S256x256 .f32) (main_arg9 : FVec F S256 .f32) (main_arg10 : FVec F S256x256 .f32) (main_arg11 : FVec F S256 .f32) (main_arg12 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_v48 main_v49 main_v50

def fn_part1 {F : FTy → Type} [FloatOps F] (main_arg5 : FVec F S256 .f32) (main_arg6 : FVec F S256 .f32) (main_arg7 : FVec F S256 .f32) (main_arg8 : FVec F S256x256 .f32) (main_arg9 : FVec F S256 .f32) (main_arg10 : FVec F S256x256 .f32) (main_arg11 : FVec F S256 .f32) (main_arg12 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x128 .f32) (main_arg1 : IVec S2x320000 32) (main_arg2 : FVec F S128 .f32) (main_arg3 : FVec F S128 .f32) (main_arg4 : FVec F S128x256 .f32) (main_arg5 : FVec F S256 .f32) (main_arg6 : FVec F S256 .f32) (main_arg7 : FVec F S256 .f32) (main_arg8 : FVec F S256x256 .f32) (main_arg9 : FVec F S256 .f32) (main_arg10 : FVec F S256x256 .f32) (main_arg11 : FVec F S256 .f32) (main_arg12 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_v13 main_v16
-- ==== Kernel.lean ====
abbrev S10000x128 : Shape := ⟨2, ![10000, 128]⟩
abbrev S2x320000 : Shape := ⟨2, ![2, 320000]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩
abbrev S1x128 : Shape := ⟨2, ![1, 128]⟩
abbrev S1000x128 : Shape := ⟨2, ![1000, 128]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S330000x1 : Shape := ⟨2, ![330000, 1]⟩
abbrev S10000x256 : Shape := ⟨2, ![10000, 256]⟩
abbrev S1000x256 : Shape := ⟨2, ![1000, 256]⟩
abbrev S330000x256 : Shape := ⟨2, ![330000, 256]⟩
abbrev S1x256 : Shape := ⟨2, ![1, 256]⟩
abbrev S320000x1 : Shape := ⟨2, ![320000, 1]⟩
abbrev S320000x256 : Shape := ⟨2, ![320000, 256]⟩

abbrev nBuf : Space → Nat
  | .hbm => 131
  | .vmem => 53
  | .smem => 0
  | _ => 0

abbrev hbmTy0_0 (i : Nat) : BufTy := match i % 128 with
  | 0 => ⟨S10000x128, .f32⟩
  | 1 => ⟨S2x320000, .i32⟩
  | 2 => ⟨S128, .f32⟩
  | 3 => ⟨S128, .f32⟩
  | 4 => ⟨S128x256, .f32⟩
  | 5 => ⟨S256, .f32⟩
  | 6 => ⟨S256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256, .f32⟩
  | 13 => ⟨S_, .f32⟩
  | 14 => ⟨S128, .f32⟩
  | 15 => ⟨S_, .f32⟩
  | 16 => ⟨S256, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S1x128, .f32⟩
  | 30 => ⟨S10000x128, .f32⟩
  | 31 => ⟨S1x320000, .i32⟩
  | 32 => ⟨S320000, .i32⟩
  | 33 => ⟨S1x320000, .i32⟩
  | 34 => ⟨S320000, .i32⟩
  | 35 => ⟨S10000, .i32⟩
  | 36 => ⟨S330000, .i32⟩
  | 37 => ⟨S330000, .i32⟩
  | 38 => ⟨S_, .f32⟩
  | 39 => ⟨S330000, .f32⟩
  | 40 => ⟨S_, .f32⟩
  | 41 => ⟨S10000, .f32⟩
  | 42 => ⟨S330000x1, .i32⟩
  | 43 => ⟨S10000, .f32⟩
  | 44 => ⟨S_, .f32⟩
  | 45 => ⟨S10000, .f32⟩
  | 46 => ⟨S10000, .i1⟩
  | 47 => ⟨S10000, .f32⟩
  | 48 => ⟨S_, .f32⟩
  | 49 => ⟨S_, .f32⟩
  | 50 => ⟨S10000, .f32⟩
  | 51 => ⟨S10000, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000, .f32⟩
  | 61 => ⟨S_, .i32⟩
  | 62 => ⟨S330000, .i32⟩
  | 63 => ⟨S330000, .i1⟩
  | 64 => ⟨S_, .i32⟩
  | 65 => ⟨S330000, .i32⟩
  | 66 => ⟨S330000, .i32⟩
  | 67 => ⟨S330000, .i32⟩
  | 68 => ⟨S330000x1, .i32⟩
  | 69 => ⟨S330000, .f32⟩
  | 70 => ⟨S330000, .f32⟩
  | 71 => ⟨S10000x256, .f32⟩
  | 72 => ⟨S330000x1, .f32⟩
  | 73 => ⟨S_, .i32⟩
  | 74 => ⟨S330000, .i32⟩
  | 75 => ⟨S330000, .i1⟩
  | 76 => ⟨S_, .i32⟩
  | 77 => ⟨S330000, .i32⟩
  | 78 => ⟨S330000, .i32⟩
  | 79 => ⟨S330000, .i32⟩
  | 80 => ⟨S330000x1, .i32⟩
  | 81 => ⟨S330000x256, .f32⟩
  | 82 => ⟨S330000x256, .f32⟩
  | 83 => ⟨S330000x256, .f32⟩
  | 84 => ⟨S_, .f32⟩
  | 85 => ⟨S10000x256, .f32⟩
  | 86 => ⟨S330000x1, .i32⟩
  | 87 => ⟨S10000x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S_, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S1x256, .f32⟩
  | 100 => ⟨S1x256, .f32⟩
  | 101 => ⟨S10000x256, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000x256, .f32⟩
  | 111 => ⟨S_, .f32⟩
  | 112 => ⟨S10000x256, .f32⟩
  | 113 => ⟨S320000x1, .i32⟩
  | 114 => ⟨S10000x256, .f32⟩
  | 115 => ⟨S1x256, .f32⟩
  | 116 => ⟨S10000x256, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S10000x128, .f32⟩

abbrev hbmTy0_1 (i : Nat) : BufTy := match i % 128 with
  | 0 => ⟨S1x256, .f32⟩
  | 1 => ⟨S1x256, .f32⟩
  | 2 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S128x256, .f32⟩
  | .local _ .vmem, ⟨16, _⟩ => ⟨S1000x256, .f32⟩
  | .local _ .vmem, ⟨17, _⟩ => ⟨S1000x256, .f32⟩
  | .local _ .vmem, ⟨18, _⟩ => ⟨S10000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1000x256, .f32⟩
  | .local _ .vmem, ⟨23, _⟩ => ⟨S1000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S256x256, .f32⟩
  | .local _ .vmem, ⟨34, _⟩ => ⟨S1000x256, .f32⟩
  | .local _ .vmem, ⟨35, _⟩ => ⟨S1000x256, .f32⟩
  | .local _ .vmem, ⟨36, _⟩ => ⟨S256x256, .f32⟩
  | .local _ .vmem, ⟨37, _⟩ => ⟨S1x256, .f32⟩
  | .local _ .vmem, ⟨38, _⟩ => ⟨S1000x256, .f32⟩
  | .local _ .vmem, ⟨39, _⟩ => ⟨S1000x256, .f32⟩
  | .local _ .vmem, ⟨40, _⟩ => ⟨S10000x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S1000x256, .f32⟩
  | .local _ .vmem, ⟨45, _⟩ => ⟨S1000x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1000x256, .f32⟩
  | .local _ .vmem, ⟨52, _⟩ => ⟨S1000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60_0 : Ref sig .tc := ⟨.hbm, 91, rfl⟩
abbrev main_v60_1 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83_0 : Ref sig .tc := ⟨.hbm, 120, rfl⟩
abbrev main_v83_1 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg6_0 : Ref sig .tc := ⟨.vmem, 29, rfl⟩
abbrev cc4_stg6_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg6_0 : Ref sig .tc := ⟨.vmem, 51, rfl⟩
abbrev cc7_stg6_1 : Ref sig .tc := ⟨.vmem, 52, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem6_0 : DmaSem sig := 29
abbrev cc4_sem6_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem1_0 : DmaSem sig := 41
abbrev cc6_sem2_0 : DmaSem sig := 42
abbrev cc6_sem3_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem6_0 : DmaSem sig := 51
abbrev cc7_sem6_1 : DmaSem sig := 52

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S10000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S10000x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  bcast_S_S128 : S_.BroadcastsInDim S128 (![] : Fin 0 → Fin S128.rank)
  bcast_S_S256 : S_.BroadcastsInDim S256 (![] : Fin 0 → Fin S256.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  inb_S1000x128_S1000x128_0_0 : ∀ a, (![0, 0] : Fin 2 → Nat) a + S1000x128.size a ≤ S1000x128.size a
  h_S1000x128 : 0 < S1000x128.numel
  broadcasts_S1x128_S1000x128 : S1x128.Broadcasts S1000x128
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  shapeCasts_S1000x128_S1000x128 : S1000x128.ShapeCasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1000x256_S1000x256_0_0 : ∀ a, (![0, 0] : Fin 2 → Nat) a + S1000x256.size a ≤ S1000x256.size a
  h_S1000x256 : 0 < S1000x256.numel
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  reduces_S10000x256_S256 : S10000x256.Reduces [0] S256
  bcast_S_S1x256 : S_.BroadcastsInDim S1x256 (![] : Fin 0 → Fin S1x256.rank)
  shapeCasts_S1000x256_S1000x256 : S1000x256.ShapeCasts S1000x256
  broadcasts_S1x256_S1000x256 : S1x256.Broadcasts S1000x256
  bcast_S_S320000 : S_.BroadcastsInDim S320000 (![] : Fin 0 → Fin S320000.rank)
  bcast_S320000_S320000x1_0 : S320000.BroadcastsInDim S320000x1 (![0] : Fin 1 → Fin S320000x1.rank)
  inb_S256x256_S256x256_0_0 : ∀ a, (![0, 0] : Fin 2 → Nat) a + S256x256.size a ≤ S256x256.size a
  h_S256x256 : 0 < S256x256.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S1000x128_S128x256_S1000x256_1_0_0_1_n_n_wf : DotDims.WF S1000x128 S128x256 S1000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S10000x256.size a
  hwx2_2 : ∀ i : grid2.Coords, EltTy.bits .f32 = 32 ∨ (Rect.block (s := S10000x256) S1000x256.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S10000x256.size a
  hwx3_0 : ∀ i : grid3.Coords, EltTy.bits .f32 = 32 ∨ (Rect.block (s := S10000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S10000x256.size a
  hwx4_0 : ∀ i : grid4.Coords, EltTy.bits .f32 = 32 ∨ (Rect.block (s := S10000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x256.size a ≤ S10000x256.size a
  hwx4_6 : ∀ i : grid4.Coords, EltTy.bits .f32 = 32 ∨ (Rect.block (s := S10000x256) S1000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S10000x256.size a
  hwx5_0 : ∀ i : grid5.Coords, EltTy.bits .f32 = 32 ∨ (Rect.block (s := S10000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x256.size a ≤ S10000x256.size a
  hwx5_2 : ∀ i : grid5.Coords, EltTy.bits .f32 = 32 ∨ (Rect.block (s := S10000x256) S1000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x256.size a ≤ S10000x256.size a
  hwx5_5 : ∀ i : grid5.Coords, EltTy.bits .f32 = 32 ∨ (Rect.block (s := S10000x256) S1000x256.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S10000x256.size a ≤ S10000x256.size a
  hwx6_0 : ∀ i : grid6.Coords, EltTy.bits .f32 = 32 ∨ (Rect.block (s := S10000x256) S10000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S10000x256.size a
  hwx7_0 : ∀ i : grid7.Coords, EltTy.bits .f32 = 32 ∨ (Rect.block (s := S10000x256) S1000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x256.size a ≤ S10000x256.size a
  hwx7_6 : ∀ i : grid7.Coords, EltTy.bits .f32 = 32 ∨ (Rect.block (s := S10000x256) S1000x256.size (cc7_transform_6 i) (hinb7_6 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v12) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60_0) S1x256.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60_1) S1x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v56) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S1000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v77) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S1000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v79) S10000x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v80) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83_0) S1x256.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83_1) S1x256.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v79) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v81) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v82) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v85) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v89) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v90) S1000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩
abbrev S1x128 : Shape := ⟨2, ![1, 128]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S330000x1 : Shape := ⟨2, ![330000, 1]⟩
abbrev S10000x256 : Shape := ⟨2, ![10000, 256]⟩
abbrev S330000x256 : Shape := ⟨2, ![330000, 256]⟩
abbrev S1x256 : Shape := ⟨2, ![1, 256]⟩
abbrev S320000x1 : Shape := ⟨2, ![320000, 1]⟩
abbrev S320000x256 : Shape := ⟨2, ![320000, 256]⟩

abbrev nBuf : Space → Nat
  | .hbm => 234
  | .vmem => 0
  | .smem => 0
  | _ => 0

abbrev hbmTy0_0 (i : Nat) : BufTy := match i % 128 with
  | 0 => ⟨S10000x128, .f32⟩
  | 1 => ⟨S2x320000, .i32⟩
  | 2 => ⟨S128, .f32⟩
  | 3 => ⟨S128, .f32⟩
  | 4 => ⟨S128x256, .f32⟩
  | 5 => ⟨S256, .f32⟩
  | 6 => ⟨S256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S10000x128, .f32⟩
  | 26 => ⟨S10000x128, .f32⟩
  | 27 => ⟨S10000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S10000x128, .f32⟩
  | 43 => ⟨S10000x128, .f32⟩
  | 44 => ⟨S_, .f32⟩
  | 45 => ⟨S128, .f32⟩
  | 46 => ⟨S128, .f32⟩
  | 47 => ⟨S128, .f32⟩
  | 48 => ⟨S1x128, .f32⟩
  | 49 => ⟨S10000x128, .f32⟩
  | 50 => ⟨S10000x128, .f32⟩
  | 51 => ⟨S1x128, .f32⟩
  | 52 => ⟨S10000x128, .f32⟩
  | 53 => ⟨S10000x128, .f32⟩
  | 54 => ⟨S1x128, .f32⟩
  | 55 => ⟨S10000x128, .f32⟩
  | 56 => ⟨S10000x128, .f32⟩
  | 57 => ⟨S1x320000, .i32⟩
  | 58 => ⟨S320000, .i32⟩
  | 59 => ⟨S1x320000, .i32⟩
  | 60 => ⟨S320000, .i32⟩
  | 61 => ⟨S10000, .i32⟩
  | 62 => ⟨S330000, .i32⟩
  | 63 => ⟨S330000, .i32⟩
  | 64 => ⟨S_, .f32⟩
  | 65 => ⟨S330000, .f32⟩
  | 66 => ⟨S_, .f32⟩
  | 67 => ⟨S10000, .f32⟩
  | 68 => ⟨S330000x1, .i32⟩
  | 69 => ⟨S10000, .f32⟩
  | 70 => ⟨S_, .f32⟩
  | 71 => ⟨S10000, .f32⟩
  | 72 => ⟨S10000, .i1⟩
  | 73 => ⟨S10000, .f32⟩
  | 74 => ⟨S_, .f32⟩
  | 75 => ⟨S_, .f32⟩
  | 76 => ⟨S10000, .f32⟩
  | 77 => ⟨S10000, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000, .f32⟩
  | 87 => ⟨S_, .i32⟩
  | 88 => ⟨S330000, .i32⟩
  | 89 => ⟨S330000, .i1⟩
  | 90 => ⟨S_, .i32⟩
  | 91 => ⟨S330000, .i32⟩
  | 92 => ⟨S330000, .i32⟩
  | 93 => ⟨S330000, .i32⟩
  | 94 => ⟨S330000x1, .i32⟩
  | 95 => ⟨S330000, .f32⟩
  | 96 => ⟨S330000, .f32⟩
  | 97 => ⟨S10000x256, .f32⟩
  | 98 => ⟨S330000x1, .f32⟩
  | 99 => ⟨S_, .i32⟩
  | 100 => ⟨S330000, .i32⟩
  | 101 => ⟨S330000, .i1⟩
  | 102 => ⟨S_, .i32⟩
  | 103 => ⟨S330000, .i32⟩
  | 104 => ⟨S330000, .i32⟩
  | 105 => ⟨S330000, .i32⟩
  | 106 => ⟨S330000x1, .i32⟩
  | 107 => ⟨S330000x256, .f32⟩
  | 108 => ⟨S330000x256, .f32⟩
  | 109 => ⟨S330000x256, .f32⟩
  | 110 => ⟨S_, .f32⟩
  | 111 => ⟨S10000x256, .f32⟩
  | 112 => ⟨S330000x1, .i32⟩
  | 113 => ⟨S10000x256, .f32⟩
  | 114 => ⟨S1x256, .f32⟩
  | 115 => ⟨S10000x256, .f32⟩
  | 116 => ⟨S10000x256, .f32⟩
  | 117 => ⟨S_, .f32⟩
  | 118 => ⟨S10000x256, .f32⟩
  | 119 => ⟨S10000x256, .f32⟩
  | 120 => ⟨S_, .f32⟩
  | 121 => ⟨S256, .f32⟩
  | 122 => ⟨S_, .f32⟩
  | 123 => ⟨S256, .f32⟩
  | 124 => ⟨S256, .f32⟩
  | 125 => ⟨S_, .i32⟩
  | 126 => ⟨S_, .f32⟩
  | 127 => ⟨S256, .f32⟩
  | _ => ⟨S10000x128, .f32⟩

abbrev hbmTy0_1 (i : Nat) : BufTy := match i % 128 with
  | 0 => ⟨S1x256, .f32⟩
  | 1 => ⟨S_, .f32⟩
  | 2 => ⟨S1x256, .f32⟩
  | 3 => ⟨S1x256, .f32⟩
  | 4 => ⟨S10000x256, .f32⟩
  | 5 => ⟨S10000x256, .f32⟩
  | 6 => ⟨S10000x256, .f32⟩
  | 7 => ⟨S_, .f32⟩
  | 8 => ⟨S_, .f32⟩
  | 9 => ⟨S_, .f32⟩
  | 10 => ⟨S_, .f32⟩
  | 11 => ⟨S256, .f32⟩
  | 12 => ⟨S256, .f32⟩
  | 13 => ⟨S256, .f32⟩
  | 14 => ⟨S_, .f32⟩
  | 15 => ⟨S_, .i1⟩
  | 16 => ⟨S_, .f32⟩
  | 17 => ⟨S_, .f32⟩
  | 18 => ⟨S256, .f32⟩
  | 19 => ⟨S256, .f32⟩
  | 20 => ⟨S1x256, .f32⟩
  | 21 => ⟨S10000x256, .f32⟩
  | 22 => ⟨S10000x256, .f32⟩
  | 23 => ⟨S_, .f32⟩
  | 24 => ⟨S256, .f32⟩
  | 25 => ⟨S256, .f32⟩
  | 26 => ⟨S256, .f32⟩
  | 27 => ⟨S1x256, .f32⟩
  | 28 => ⟨S10000x256, .f32⟩
  | 29 => ⟨S10000x256, .f32⟩
  | 30 => ⟨S1x256, .f32⟩
  | 31 => ⟨S10000x256, .f32⟩
  | 32 => ⟨S10000x256, .f32⟩
  | 33 => ⟨S1x256, .f32⟩
  | 34 => ⟨S10000x256, .f32⟩
  | 35 => ⟨S10000x256, .f32⟩
  | 36 => ⟨S1x320000, .i32⟩
  | 37 => ⟨S320000, .i32⟩
  | 38 => ⟨S1x320000, .i32⟩
  | 39 => ⟨S320000, .i32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x256, .f32⟩
  | 49 => ⟨S_, .f32⟩
  | 50 => ⟨S10000x256, .f32⟩
  | 51 => ⟨S320000x1, .i32⟩
  | 52 => ⟨S10000x256, .f32⟩
  | 53 => ⟨S10000x256, .f32⟩
  | 54 => ⟨S1x256, .f32⟩
  | 55 => ⟨S10000x256, .f32⟩
  | 56 => ⟨S10000x256, .f32⟩
  | 57 => ⟨S10000x256, .f32⟩
  | 58 => ⟨S10000x256, .f32⟩
  | 59 => ⟨S_, .f32⟩
  | 60 => ⟨S10000x256, .f32⟩
  | 61 => ⟨S10000x256, .f32⟩
  | 62 => ⟨S_, .f32⟩
  | 63 => ⟨S256, .f32⟩
  | 64 => ⟨S_, .f32⟩
  | 65 => ⟨S256, .f32⟩
  | 66 => ⟨S256, .f32⟩
  | 67 => ⟨S_, .i32⟩
  | 68 => ⟨S_, .f32⟩
  | 69 => ⟨S256, .f32⟩
  | 70 => ⟨S1x256, .f32⟩
  | 71 => ⟨S_, .f32⟩
  | 72 => ⟨S1x256, .f32⟩
  | 73 => ⟨S1x256, .f32⟩
  | 74 => ⟨S10000x256, .f32⟩
  | 75 => ⟨S10000x256, .f32⟩
  | 76 => ⟨S10000x256, .f32⟩
  | 77 => ⟨S_, .f32⟩
  | 78 => ⟨S_, .f32⟩
  | 79 => ⟨S_, .f32⟩
  | 80 => ⟨S_, .f32⟩
  | 81 => ⟨S256, .f32⟩
  | 82 => ⟨S256, .f32⟩
  | 83 => ⟨S256, .f32⟩
  | 84 => ⟨S_, .f32⟩
  | 85 => ⟨S_, .i1⟩
  | 86 => ⟨S_, .f32⟩
  | 87 => ⟨S_, .f32⟩
  | 88 => ⟨S256, .f32⟩
  | 89 => ⟨S256, .f32⟩
  | 90 => ⟨S1x256, .f32⟩
  | 91 => ⟨S10000x256, .f32⟩
  | 92 => ⟨S10000x256, .f32⟩
  | 93 => ⟨S_, .f32⟩
  | 94 => ⟨S256, .f32⟩
  | 95 => ⟨S256, .f32⟩
  | 96 => ⟨S256, .f32⟩
  | 97 => ⟨S1x256, .f32⟩
  | 98 => ⟨S10000x256, .f32⟩
  | 99 => ⟨S10000x256, .f32⟩
  | 100 => ⟨S1x256, .f32⟩
  | 101 => ⟨S10000x256, .f32⟩
  | 102 => ⟨S10000x256, .f32⟩
  | 103 => ⟨S1x256, .f32⟩
  | 104 => ⟨S10000x256, .f32⟩
  | 105 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst_1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_2 : Ref sig .tc := ⟨.hbm, 64, rfl⟩
abbrev main_v26 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_4 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_5 : Ref sig .tc := ⟨.hbm, 74, rfl⟩
abbrev main_call1_v0 : Ref sig .tc := ⟨.hbm, 75, rfl⟩
abbrev main_call1_v1 : Ref sig .tc := ⟨.hbm, 76, rfl⟩
abbrev main_v33 : Ref sig .tc := ⟨.hbm, 77, rfl⟩
abbrev main_c_6 : Ref sig .tc := ⟨.hbm, 78, rfl⟩
abbrev main_v34 : Ref sig .tc := ⟨.hbm, 79, rfl⟩
abbrev main_v35 : Ref sig .tc := ⟨.hbm, 80, rfl⟩
abbrev main_c_7 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_8 : Ref sig .tc := ⟨.hbm, 87, rfl⟩
abbrev main_v41 : Ref sig .tc := ⟨.hbm, 88, rfl⟩
abbrev main_v42 : Ref sig .tc := ⟨.hbm, 89, rfl⟩
abbrev main_c_9 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_10 : Ref sig .tc := ⟨.hbm, 99, rfl⟩
abbrev main_v51 : Ref sig .tc := ⟨.hbm, 100, rfl⟩
abbrev main_v52 : Ref sig .tc := ⟨.hbm, 101, rfl⟩
abbrev main_c_11 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_12 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_call2_cst : Ref sig .tc := ⟨.hbm, 117, rfl⟩
abbrev main_call2_v0 : Ref sig .tc := ⟨.hbm, 118, rfl⟩
abbrev main_v66 : Ref sig .tc := ⟨.hbm, 119, rfl⟩
abbrev main_cst_13 : Ref sig .tc := ⟨.hbm, 120, rfl⟩
abbrev main_v67 : Ref sig .tc := ⟨.hbm, 121, rfl⟩
abbrev main_cst_14 : Ref sig .tc := ⟨.hbm, 122, rfl⟩
abbrev main_v68 : Ref sig .tc := ⟨.hbm, 123, rfl⟩
abbrev main_v69 : Ref sig .tc := ⟨.hbm, 124, rfl⟩
abbrev main_c_15 : Ref sig .tc := ⟨.hbm, 125, rfl⟩
abbrev main_call3_cst : Ref sig .tc := ⟨.hbm, 126, rfl⟩
abbrev main_call3_v0 : Ref sig .tc := ⟨.hbm, 127, rfl⟩
abbrev main_call3_v1 : Ref sig .tc := ⟨.hbm, 128, rfl⟩
abbrev main_call3_cst_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_v7 : Ref sig .tc := ⟨.hbm, 135, rfl⟩
abbrev main_call3_cst_1 : Ref sig .tc := ⟨.hbm, 136, rfl⟩
abbrev main_call3_v8 : Ref sig .tc := ⟨.hbm, 137, rfl⟩
abbrev main_call3_cst_2 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_cst_3 : Ref sig .tc := ⟨.hbm, 142, rfl⟩
abbrev main_call3_v12 : Ref sig .tc := ⟨.hbm, 143, rfl⟩
abbrev main_call3_cst_4 : Ref sig .tc := ⟨.hbm, 144, rfl⟩
abbrev main_call3_call0_v0 : Ref sig .tc := ⟨.hbm, 145, rfl⟩
abbrev main_call3_call0_v1 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_16 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_c_17 : Ref sig .tc := ⟨.hbm, 168, rfl⟩
abbrev main_v90 : Ref sig .tc := ⟨.hbm, 169, rfl⟩
abbrev main_v91 : Ref sig .tc := ⟨.hbm, 170, rfl⟩
abbrev main_c_18 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_cst_19 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_call4_cst : Ref sig .tc := ⟨.hbm, 187, rfl⟩
abbrev main_call4_v0 : Ref sig .tc := ⟨.hbm, 188, rfl⟩
abbrev main_v106 : Ref sig .tc := ⟨.hbm, 189, rfl⟩
abbrev main_cst_20 : Ref sig .tc := ⟨.hbm, 190, rfl⟩
abbrev main_v107 : Ref sig .tc := ⟨.hbm, 191, rfl⟩
abbrev main_cst_21 : Ref sig .tc := ⟨.hbm, 192, rfl⟩
abbrev main_v108 : Ref sig .tc := ⟨.hbm, 193, rfl⟩
abbrev main_v109 : Ref sig .tc := ⟨.hbm, 194, rfl⟩
abbrev main_c_22 : Ref sig .tc := ⟨.hbm, 195, rfl⟩
abbrev main_call5_cst : Ref sig .tc := ⟨.hbm, 196, rfl⟩
abbrev main_call5_v0 : Ref sig .tc := ⟨.hbm, 197, rfl⟩
abbrev main_call5_v1 : Ref sig .tc := ⟨.hbm, 198, rfl⟩
abbrev main_call5_cst_0 : Ref sig .tc := ⟨.hbm, 199, rfl⟩
abbrev main_call5_v2 : Ref sig .tc := ⟨.hbm, 200, rfl⟩
abbrev main_call5_v3 : Ref sig .tc := ⟨.hbm, 201, rfl⟩
abbrev main_call5_v4 : Ref sig .tc := ⟨.hbm, 202, rfl⟩
abbrev main_call5_v5 : Ref sig .tc := ⟨.hbm, 203, rfl⟩
abbrev main_call5_v6 : Ref sig .tc := ⟨.hbm, 204, rfl⟩
abbrev main_call5_v7 : Ref sig .tc := ⟨.hbm, 205, rfl⟩
abbrev main_call5_cst_1 : Ref sig .tc := ⟨.hbm, 206, rfl⟩
abbrev main_call5_v8 : Ref sig .tc := ⟨.hbm, 207, rfl⟩
abbrev main_call5_cst_2 : Ref sig .tc := ⟨.hbm, 208, rfl⟩
abbrev main_call5_v9 : Ref sig .tc := ⟨.hbm, 209, rfl⟩
abbrev main_call5_v10 : Ref sig .tc := ⟨.hbm, 210, rfl⟩
abbrev main_call5_v11 : Ref sig .tc := ⟨.hbm, 211, rfl⟩
abbrev main_call5_cst_3 : Ref sig .tc := ⟨.hbm, 212, rfl⟩
abbrev main_call5_v12 : Ref sig .tc := ⟨.hbm, 213, rfl⟩
abbrev main_call5_cst_4 : Ref sig .tc := ⟨.hbm, 214, rfl⟩
abbrev main_call5_call0_v0 : Ref sig .tc := ⟨.hbm, 215, rfl⟩
abbrev main_call5_call0_v1 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_cst_23 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩

abbrev nD : Nat := 1
abbrev τ : Topo := Topo.v7x

variable {F : FTy → Type} [FloatOps F]

class Facts₀ : Prop where
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  bcast_S_S256 : S_.BroadcastsInDim S256 (![] : Fin 0 → Fin S256.rank)
  bcast_S_S1x256 : S_.BroadcastsInDim S1x256 (![] : Fin 0 → Fin S1x256.rank)
  bcast_S_S320000 : S_.BroadcastsInDim S320000 (![] : Fin 0 → Fin S320000.rank)
  bcast_S320000_S320000x1_0 : S320000.BroadcastsInDim S320000x1 (![0] : Fin 1 → Fin S320000x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x256_S10000x256_1_0_0_1_n_n_wf : DotDims.WF S10000x128 S128x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KRun.lean ====
/-
  The idealized kernel's run with its result named. Every weakly fair execution of the eight-region program ends with
  the result array at the contents the last region's write-backs leave (the fold of the host stretches and the
  regions' final arrays over the launch memory) and with the thirteen argument arrays as launched: the launch over
  the program's segments, the last thread state read against the final state, one more buffer read than the frame
  claim needs.
-/
import proofs.«135245_j16080357556243_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v90) = W18 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v90 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.KRun

end
-- ==== Proof.KSpec.lean ====
/-
  The host stages the kernel's program runs between its regions that are not per-column arithmetic: the edge list
  with one self loop per node, the in-degrees, the inverse square roots of the positive degrees, the edge weights, and
  the two neighbourhood sums (rows gathered at the edges' sources, weighted or not, and summed into their targets). Each
  definition is one layer over the printed operations.
-/
import proofs.«135245_j16080357556243_1_alg».proof.KernelIdeal

noncomputable section

namespace Cert.KernelIdeal.KSpec

open Idealize.ShloMosaic Cert.KernelIdeal
open Facts₀

variable {F : FTy → Type} [FloatOps F] [Facts]

/-- The scalar `0`. -/
def zero : Vec F S_ .f32 := constant S_ .f32 0x00000000#32

/-- The scalar `1`. -/
def one : Vec F S_ .f32 := constant S_ .f32 0x3F800000#32

/-- The sources of the 320000 edges: row 0 of the edge table. -/
def srcIdx (e : Vec F S2x320000 .i32) : Vec F S320000 .i32 :=
  shapeCast S320000 (extractStridedSlice S1x320000 ![0, 0] e slices_S2x320000_S1x320000_0_0) shapeCasts_S1x320000_S320000

/-- The targets of the 320000 edges: row 1 of the edge table. -/
def dstIdx (e : Vec F S2x320000 .i32) : Vec F S320000 .i32 :=
  shapeCast S320000 (extractStridedSlice S1x320000 ![1, 0] e slices_S2x320000_S1x320000_1_0) shapeCasts_S1x320000_S320000

/-- The node numbers `0 … 9999`: the ends of the self loops. -/
def nodes : Vec F S10000 .i32 := iotaInDim S10000 32 0

/-- 320000 edge ends followed by the 10000 self-loop ends. -/
def withLoops (v : Vec F S320000 .i32) : Vec F S330000 .i32 :=
  concatenate S330000 0 [⟨S320000, v⟩, ⟨S10000, (nodes : Vec F S10000 .i32)⟩] concatenates_S320000_S10000_S330000_d0

/-- An index list of length 330000 with its negative entries moved up by 10000 (indexing from the end). -/
def wrap330 (i : Vec F S330000 .i32) : Vec F S330000 .i32 :=
  select (cmpi .slt i (broadcastInDim S330000 ![] bcast_S_S330000 (constantI S_ 32 0#32)))
    (addi i (broadcastInDim S330000 ![] bcast_S_S330000 (constantI S_ 32 10000#32))) i

/-- An index list of length 330000 as a 330000 × 1 table of index vectors. -/
def col330 (i : Vec F S330000 .i32) : Vec F S330000x1 .i32 :=
  broadcastInDim S330000x1 ![0] bcast_S330000_S330000x1_0 i

/-- An index list of length 320000 with its negative entries moved up by 10000. -/
def wrap320 (i : Vec F S320000 .i32) : Vec F S320000 .i32 :=
  select (cmpi .slt i (broadcastInDim S320000 ![] bcast_S_S320000 (constantI S_ 32 0#32)))
    (addi i (broadcastInDim S320000 ![] bcast_S_S320000 (constantI S_ 32 10000#32))) i

/-- An index list of length 320000 as a 320000 × 1 table of index vectors. -/
def col320 (i : Vec F S320000 .i32) : Vec F S320000x1 .i32 :=
  broadcastInDim S320000x1 ![0] bcast_S320000_S320000x1_0 i

/-- The in-degree of each node, self loop included: a one added at the target of every edge and loop. -/
def degree (e : Vec F S2x320000 .i32) : Vec F S10000 .f32 :=
  Host.scatterAdd scatter_S10000_S330000x1_S330000_n_0_0_1
    (broadcastInDim S10000 ![] bcast_S_S10000 (zero : Vec F S_ .f32))
    (col330 (withLoops (dstIdx e)))
    (broadcastInDim S330000 ![] bcast_S_S330000 (one : Vec F S_ .f32))

/-- `1 / sqrt (degree)` where the degree is positive, `0` elsewhere. -/
def invSqrtDeg (e : Vec F S2x320000 .i32) : Vec F S10000 .f32 :=
  select (cmpf .ogt (degree e) (broadcastInDim S10000 ![] bcast_S_S10000 (zero : Vec F S_ .f32)))
    (Host.rsqrt (degree e))
    (broadcastInDim S10000 ![] bcast_S_S10000 (zero : Vec F S_ .f32))

/-- `invSqrtDeg` read at a list of 330000 node numbers. -/
def atNodes (d : Vec F S10000 .f32) (i : Vec F S330000 .i32) : Vec F S330000 .f32 :=
  Host.gather gather_S10000_S330000x1_S330000_n_0_n_n_0_1_1 d (col330 (wrap330 i))

/-- The weight of each edge and loop: the product of `invSqrtDeg` at its source and at its target. -/
def edgeWeight (e : Vec F S2x320000 .i32) : Vec F S330000 .f32 :=
  mulf (atNodes (invSqrtDeg e) (withLoops (srcIdx e))) (atNodes (invSqrtDeg e) (withLoops (dstIdx e)))

/-- The weights as a 330000 × 256 table: row `k` is the weight of edge `k`, 256 times. -/
def weightRows (e : Vec F S2x320000 .i32) : Vec F S330000x256 .f32 :=
  broadcastInDim S330000x256 ![0, 1] bcast_S330000x1_S330000x256_0_1
    (broadcastInDim S330000x1 ![0] bcast_S330000_S330000x1_0 (edgeWeight e))

/-- The rows of a 10000 × 256 matrix at the sources of the edges and loops. -/
def srcRows330 (y : Vec F S10000x256 .f32) (e : Vec F S2x320000 .i32) : Vec F S330000x256 .f32 :=
  Host.gather gather_S10000x256_S330000x1_S330000x256_1_0_n_n_0_1_1256 y (col330 (wrap330 (withLoops (srcIdx e))))

/-- The weighted source rows summed into the targets: row `i` is the sum over the edges and loops into
    node `i` of the weight times the source's row. -/
def aggregate1 (y : Vec F S10000x256 .f32) (e : Vec F S2x320000 .i32) : Vec F S10000x256 .f32 :=
  Host.scatterAdd scatter_S10000x256_S330000x1_S330000x256_1_0_0_1
    (broadcastInDim S10000x256 ![] bcast_S_S10000x256 (zero : Vec F S_ .f32))
    (col330 (withLoops (dstIdx e)))
    (mulf (weightRows e) (srcRows330 y e))

/-- The rows of a 10000 × 256 matrix at the sources of the 320000 edges. -/
def srcRows320 (h : Vec F S10000x256 .f32) (e : Vec F S2x320000 .i32) : Vec F S320000x256 .f32 :=
  Host.gather gather_S10000x256_S320000x1_S320000x256_1_0_n_n_0_1_1256 h (col320 (wrap320 (srcIdx e)))

/-- The source rows summed into the targets: row `i` is the sum of `h`'s rows over the edges into node `i`. -/
def aggregate2 (h : Vec F S10000x256 .f32) (e : Vec F S2x320000 .i32) : Vec F S10000x256 .f32 :=
  Host.scatterAdd scatter_S10000x256_S320000x1_S320000x256_1_0_0_1
    (broadcastInDim S10000x256 ![] bcast_S_S10000x256 (zero : Vec F S_ .f32))
    (col320 (dstIdx e))
    (srcRows320 h e)

end Cert.KernelIdeal.KSpec

end
-- ==== Proof.LibNormStage.lean ====
/-
  General lemmas: a per-column normalisation stage on the vector unit, read at an index, over Nat extents.

  An [a, n] block z is shifted by a bias row, optionally clipped below at zero, multiplied by the per-column scale
  g · (v + ε)^(-1/2) and shifted by be − mu · (g · (v + ε)^(-1/2)), where the bias b, gain g, shift be, mean mu and
  variance v are one-row arrays [1, n] laid along the rows. At entry (p, q) the result depends on z (p, q) and on
  entry q of each row only. Also: the column sums of such a shifted (and clipped) block, and of its squares, held as a
  one-row array, read at (0, q) as the sum over the rows.
  Nothing here mentions a program.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibNormStage

open Idealize.ShloMosaic Idealize.ShloMosaic.ValueIdx

variable {a n : ℕ}

/-- A row [1, n] laid along the rows of an [a, n] array reads, at (p, q), the row's entry q. -/
theorem rowTo_apply {α : Type} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- A vector of length n cast to a row [1, n] reads, at (u, q), the vector's entry q. -/
theorem rowCast_apply {α : Type} (x : (⟨1, ![n]⟩ : Shape).Idx → α) (h : (⟨1, ![n]⟩ : Shape).ShapeCasts ⟨2, ![1, n]⟩)
    (u : Fin 1) (q : Fin n) : shapeCast ⟨2, ![1, n]⟩ x h (ix2 u q) = x (ix1 q) :=
  shapeCast_apply x h _ _ (by
    have hu : u.val = 0 := by omega
    rw [Shape.rowMajor_val_two, Shape.rowMajor_val_one]
    show q.val = u.val * n + q.val
    rw [hu]; omega)

/-- The normalised entry: shift, scale by g · (v + ε)^(-1/2), shift by be − mu · that scale. -/
def normAt (z b g be mu v eps : EReal) : EReal :=
  (z + b) * (g * Ideal.rsqrt (v + eps)) + (be - mu * (g * Ideal.rsqrt (v + eps)))

/-- The same with the shifted value clipped below at zero first. -/
def reluNormAt (z b g be mu v eps : EReal) : EReal :=
  (max (z + b) 0) * (g * Ideal.rsqrt (v + eps)) + (be - mu * (g * Ideal.rsqrt (v + eps)))

end Cert.LibNormStage

end
-- ==== Proof.LibAxis0Sum.lean ====
/-
  General lemmas: the LEADING axis — sums over it, a product contracting it, and two unit axes put in front — read at an
  index, at the ideal values.

  * the host's sum over axis 0 of an `[a, b]` array is, at `k`, the initial value plus the sum over `p` of the entries
    `(p, k)`; of an `[a, b, c]` array, at `(k, j)`, the initial value plus the sum over `p` of the entries `(p, k, j)`;
  * the vector unit's sum over axis 0 of an `[a, b]` array (from the zero word) is the plain sum over the rows;
  * a matrix product `[k, a] × [k, b]` contracting both FIRST axes into a zero accumulator is the sum over `q` of
    `L (q, p) · R (q, j)`;
  * a `[b]` array cast to `[1, 1, b]` reads the operand at the trailing coordinate.
  Nothing here mentions a program: the extents are variables and the shape facts and dimension records are hypotheses.
-/
import Idealize.ShloMosaic.Lib.ValueLayout
import Idealize.ShloMosaic.Lib.ValueIdx
import Idealize.ShloMosaic.PureOps.Ideal.Laws

noncomputable section

namespace Cert.LibAxis0Sum

open Idealize.ShloMosaic Idealize.ShloMosaic.ValueIdx

/-- The reduced index `k` of an `[a, b]` array with row `p` put back on axis 0 is `(p, k)`. -/
theorem lift_first2 {a b : ℕ} (h : (⟨2, ![a, b]⟩ : Shape).Reduces [0] (⟨1, ![b]⟩ : Shape)) (k : Fin b)
    (p : Fin ((⟨2, ![a, b]⟩ : Shape).size 0)) : h.lift (ix1 k) p = ix2 (⟨p.val, p.isLt⟩ : Fin a) k := by
  funext ax; apply Fin.ext
  fin_cases ax <;> rfl

/-- The host's sum over axis 0 of an `[a, b]` array, read at `k`: the initial value plus the column's sum. -/
theorem hostFirstSum2_apply {a b : ℕ} (x : FVec Ideal ⟨2, ![a, b]⟩ .f32) (init : (⟨0, ![]⟩ : Shape).Idx → Ideal .f32)
    (h' : (⟨2, ![a, b]⟩ : Shape).ReducesTo [0] (⟨1, ![b]⟩ : Shape)) (hu : 0 < (⟨0, ![]⟩ : Shape).numel) (k : Fin b) :
    Host.reduceAdd x init h' hu (ix1 k) = init ix0 + ∑ p : Fin a, x (ix2 p k) := by
  have h : (⟨2, ![a, b]⟩ : Shape).Reduces [0] (⟨1, ![b]⟩ : Shape) := ⟨h'.1, Nat.one_pos, h'.2⟩
  show Ideal.hostReduceAdd h' x (init (Shape.Idx.first hu)) (ix1 k) = _
  rw [Ideal.hostReduceAdd_single h' h, show Shape.Idx.first hu = ix0 from eq_ix0 _]
  exact congrArg (init ix0 + ·) (Finset.sum_congr rfl fun p _ => congrArg x (lift_first2 h k p))

/-- The reduced index `(k, j)` of an `[a, b, c]` array with `p` put back on axis 0 is `(p, k, j)`. -/
theorem lift_first3 {a b c : ℕ} (h : (⟨3, ![a, b, c]⟩ : Shape).Reduces [0] (⟨2, ![b, c]⟩ : Shape)) (k : Fin b) (j : Fin c)
    (p : Fin ((⟨3, ![a, b, c]⟩ : Shape).size 0)) : h.lift (ix2 k j) p = ix3 (⟨p.val, p.isLt⟩ : Fin a) k j := by
  funext ax; apply Fin.ext
  fin_cases ax <;> rfl

/-- The host's sum over axis 0 of an `[a, b, c]` array, read at `(k, j)`: the initial value plus the sum over `p`. -/
theorem hostFirstSum3_apply {a b c : ℕ} (x : FVec Ideal ⟨3, ![a, b, c]⟩ .f32) (init : (⟨0, ![]⟩ : Shape).Idx → Ideal .f32)
    (h' : (⟨3, ![a, b, c]⟩ : Shape).ReducesTo [0] (⟨2, ![b, c]⟩ : Shape)) (hu : 0 < (⟨0, ![]⟩ : Shape).numel)
    (k : Fin b) (j : Fin c) :
    Host.reduceAdd x init h' hu (ix2 k j) = init ix0 + ∑ p : Fin a, x (ix3 p k j) := by
  have h : (⟨3, ![a, b, c]⟩ : Shape).Reduces [0] (⟨2, ![b, c]⟩ : Shape) := ⟨h'.1, Nat.succ_pos 1, h'.2⟩
  show Ideal.hostReduceAdd h' x (init (Shape.Idx.first hu)) (ix2 k j) = _
  rw [Ideal.hostReduceAdd_single h' h, show Shape.Idx.first hu = ix0 from eq_ix0 _]
  exact congrArg (init ix0 + ·) (Finset.sum_congr rfl fun p _ => congrArg x (lift_first3 h k j p))

/-- A matrix product of a `[k, a]` by a `[k, b]` array into the zero accumulator, whose dimension record contracts the
    FIRST axis of each operand (the four coordinate facts), is at `(p, j)` the sum over `q` of `L (q, p) · R (q, j)`. -/
theorem matmul_zero_tn_ix2 {a k b : ℕ} {φ₁ φ₂ : FTy} (D : DotDims ⟨2, ![k, a]⟩ ⟨2, ![k, b]⟩ ⟨2, ![a, b]⟩)
    (hr : D.contr.rank = 1) (hs : D.contr.size ⟨0, by omega⟩ = k)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val)
    (prec : Option ContractPrecision) (L : FVec Ideal ⟨2, ![k, a]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 q p) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 q p := funext fun ax => Fin.ext (by
    match ax with
    | ⟨0, _⟩ => exact (hl0 _ _).trans hq
    | ⟨1, _⟩ => exact hl1 _ _)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The sum over the rows of an `[a, b]` array, read at column `k`: the sum over `r` of the entries `(r, k)`. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32) (hacc : acc = FKind.add.neutral .f32 hφ) (k : Fin b) :
    multiReduction .add [0] ⟨1, ![b]⟩ src acc h hφ hacc (ix1 k) = ∑ r : Fin a, src (ix2 r k) := by
  refine (Ideal.multiReduction_add_single src acc h hφ hacc (ix1 k)).trans ?_
  exact Finset.sum_congr rfl fun r _ => congrArg src (lift_first2 h k r)

/-- A `[b]` array cast to `[1, 1, b]` reads, at `(u, v, k)`, the operand at `k`. -/
theorem shapeCast_b_11b_apply {α : Type} {b : ℕ} (x : (⟨1, ![b]⟩ : Shape).Idx → α) (h : (⟨1, ![b]⟩ : Shape).ShapeCasts ⟨3, ![1, 1, b]⟩)
    (u v : Fin 1) (k : Fin b) : shapeCast ⟨3, ![1, 1, b]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * b + k.val
    rw [hu, hv]; omega)

end Cert.LibAxis0Sum

end
-- ==== Proof.KReg0.lean ====
/-
  Region 0 of the idealized kernel: the column sums of an [10000, 128] array shifted by a bias row, and of
  its squares, in ONE grid point whose blocks are the whole arrays. The point reads both arrays whole and writes both
  one-row results whole, so after the region each result array holds the body's result on the arrays the region found;
  at (0, q) that is the sum over the 10000 rows r of the shifted entry (r, q), respectively of its square.
-/
import proofs.«135245_j16080357556243_1_alg».proof.Proof.Gen.KernelIdeal.Frame
import proofs.«135245_j16080357556243_1_alg».proof.Proof.LibNormStage
import proofs.«135245_j16080357556243_1_alg».proof.Proof.LibAxis0Sum

set_option maxRecDepth 16384

noncomputable section

namespace Cert.KernelIdeal.KReg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The shifted block at an entry. -/
theorem shifted_apply (z : Vec Ideal S10000x128 .f32) (b : Vec Ideal S1x128 .f32) (r : Fin 10000) (q : Fin 128) :
    k0_pay1 z b (ix2 r q) = (z (ix2 r q) + b (ix2 0 q)) := by
  unfold k0_pay1
  simp only [addf_apply, rowTo_apply, shapeCast_self]

/-- The column sums at (0, q): the sum over the rows. -/
theorem sum_apply (z : Vec Ideal S10000x128 .f32) (b : Vec Ideal S1x128 .f32) (u : Fin 1) (q : Fin 128) :
    k0_pay2 z b (ix2 u q) = ∑ r : Fin 10000, (z (ix2 r q) + b (ix2 0 q)) := by
  unfold k0_pay2
  refine (rowCast_apply _ _ u q).trans ?_
  refine (Cert.LibAxis0Sum.colSum_apply _ _ _ _ _ q).trans ?_
  exact Finset.sum_congr rfl fun r _ => shifted_apply z b r q

/-- The column sums of the squares at (0, q). -/
theorem sumsq_apply (z : Vec Ideal S10000x128 .f32) (b : Vec Ideal S1x128 .f32) (u : Fin 1) (q : Fin 128) :
    k0_pay3 z b (ix2 u q) = ∑ r : Fin 10000, (z (ix2 r q) + b (ix2 0 q)) * (z (ix2 r q) + b (ix2 0 q)) := by
  unfold k0_pay3
  refine (rowCast_apply _ _ u q).trans ?_
  refine (Cert.LibAxis0Sum.colSum_apply _ _ _ _ _ q).trans ?_
  refine Finset.sum_congr rfl fun r _ => ?_
  rw [mulf_apply, shifted_apply]

/-- The index maps at the one grid point: every window sits at block (0, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem emb0 (t : Fin cfg0.N) (y : S10000x128.Idx) : ((cfg0.win 0).blk t).view.emb y = y := by
  obtain ⟨e00, e01, e10, e11, e20, e21, e30, e31⟩ := idx_facts t
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega
theorem emb1 (t : Fin cfg0.N) (y : S1x128.Idx) : ((cfg0.win 1).blk t).view.emb y = y := by
  obtain ⟨e00, e01, e10, e11, e20, e21, e30, e31⟩ := idx_facts t
  funext a; apply Fin.ext
  match a with
  | ⟨0, _⟩ => show win0_1.index t (0 : Fin 2) * 1 + 1 * (y 0).val = (y 0).val; omega
  | ⟨1, _⟩ => show win0_1.index t (1 : Fin 2) * 128 + 1 * (y 1).val = (y 1).val; omega
theorem emb2 (t : Fin cfg0.N) (y : S1x128.Idx) : ((cfg0.win 2).blk t).view.emb y = y := by
  obtain ⟨e00, e01, e10, e11, e20, e21, e30, e31⟩ := idx_facts t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem emb3 (t : Fin cfg0.N) (y : S1x128.Idx) : ((cfg0.win 3).blk t).view.emb y = y := by
  obtain ⟨e00, e01, e10, e11, e20, e21, e30, e31⟩ := idx_facts t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The one point's block of the input array is the whole array. -/
theorem iblk_z (c : Dev nD) (t : Fin cfg0.N) : iblk0 V c 0 t = V c main_arg0 := by
  funext y
  show V c main_arg0 (((cfg0.win 0).blk t).view.emb y) = V c main_arg0 y
  rw [emb0]

theorem iblk_b (c : Dev nD) (t : Fin cfg0.N) : iblk0 V c 1 t = V c main_v2 := by
  funext y
  show V c main_v2 (((cfg0.win 1).blk t).view.emb y) = V c main_v2 y
  rw [emb1]

/-- What the one point writes back through output window 2 is the whole of the column sums. -/
theorem flushed2_eq (c : Dev nD) (t : Fin cfg0.N) :
    (dat0 V c).flushed 2 t = ((cfg0.win 2).blk t).view.read (Elt Ideal) (k0_pay2 (V c main_arg0) (V c main_v2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S1x128) hz2]
  rw [iblk_z V c t, iblk_b V c t]
  funext j
  show k0_pay2 (V c main_arg0) (V c main_v2) j = k0_pay2 (V c main_arg0) (V c main_v2) (((cfg0.win 2).blk t).view.emb j)
  rw [emb2]

theorem mem_blk2 (t : Fin cfg0.N) (i : S1x128.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v5_0).slice (win0_2.rect t)).set ↔ _
  rw [View.set_slice_whole, Rect.mem_set_unit]
  exact Iff.rfl

theorem cover2 (i : S1x128.Idx) :
    ∃ t : Fin cfg0.N, (cfg0.win 2).flush t = true ∧ i ∈ ((cfg0.win 2).blk t).view.set := by
  have hi0 : (i 0).val < 1 := (i 0).isLt
  have hi1 : (i 1).val < 128 := (i 1).isLt
  let t : Fin cfg0.N := ⟨0, by decide⟩
  obtain ⟨e00, e01, e10, e11, e20, e21, e30, e31⟩ := idx_facts t
  refine ⟨t, flush0_2 t, ?_⟩
  rw [mem_blk2]
  intro a
  match a with
  | ⟨0, _⟩ =>
    show win0_2.index t (0 : Fin 2) * 1 ≤ (i 0).val ∧ (i 0).val < win0_2.index t (0 : Fin 2) * 1 + 1
    omega
  | ⟨1, _⟩ =>
    show win0_2.index t (1 : Fin 2) * 128 ≤ (i 1).val ∧ (i 1).val < win0_2.index t (1 : Fin 2) * 128 + 128
    omega

/-- After the region output array 2 holds the body's result on the whole arrays the region found. -/
theorem final2 (c : Dev nD) : (dat0 V c).arrAt 2 cfg0.N = k0_pay2 (V c main_arg0) (V c main_v2) :=
  (dat0 V c).arrAt_eq_of_cover 2 _ (fun t _ => flushed2_eq V c t) (cover2)

/-- What the one point writes back through output window 3 is the whole of the column sums. -/
theorem flushed3_eq (c : Dev nD) (t : Fin cfg0.N) :
    (dat0 V c).flushed 3 t = ((cfg0.win 3).blk t).view.read (Elt Ideal) (k0_pay3 (V c main_arg0) (V c main_v2)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S1x128) hz2]
  rw [iblk_z V c t, iblk_b V c t]
  funext j
  show k0_pay3 (V c main_arg0) (V c main_v2) j = k0_pay3 (V c main_arg0) (V c main_v2) (((cfg0.win 3).blk t).view.emb j)
  rw [emb3]

theorem mem_blk3 (t : Fin cfg0.N) (i : S1x128.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v5_1).slice (win0_3.rect t)).set ↔ _
  rw [View.set_slice_whole, Rect.mem_set_unit]
  exact Iff.rfl

theorem cover3 (i : S1x128.Idx) :
    ∃ t : Fin cfg0.N, (cfg0.win 3).flush t = true ∧ i ∈ ((cfg0.win 3).blk t).view.set := by
  have hi0 : (i 0).val < 1 := (i 0).isLt
  have hi1 : (i 1).val < 128 := (i 1).isLt
  let t : Fin cfg0.N := ⟨0, by decide⟩
  obtain ⟨e00, e01, e10, e11, e20, e21, e30, e31⟩ := idx_facts t
  refine ⟨t, flush0_3 t, ?_⟩
  rw [mem_blk3]
  intro a
  match a with
  | ⟨0, _⟩ =>
    show win0_3.index t (0 : Fin 2) * 1 ≤ (i 0).val ∧ (i 0).val < win0_3.index t (0 : Fin 2) * 1 + 1
    omega
  | ⟨1, _⟩ =>
    show win0_3.index t (1 : Fin 2) * 128 ≤ (i 1).val ∧ (i 1).val < win0_3.index t (1 : Fin 2) * 128 + 128
    omega

/-- After the region output array 3 holds the body's result on the whole arrays the region found. -/
theorem final3 (c : Dev nD) : (dat0 V c).arrAt 3 cfg0.N = k0_pay3 (V c main_arg0) (V c main_v2) :=
  (dat0 V c).arrAt_eq_of_cover 3 _ (fun t _ => flushed3_eq V c t) (cover3)

end Cert.KernelIdeal.KReg0

end
-- ==== Proof.KReg1.lean ====
/-
  Region 1 of the idealized kernel: the per-column normalisation of an [10000, 128] array in ten row blocks of 1000.
  Each grid point reads its block of rows and the five one-row arrays (bias, gain, shift, mean, variance) whole, and
  writes back the block of the result; entry (r, q) of the result array is the normalised entry of z (r, q) with entry
  q of each row. The ten blocks tile the array, so after the region the array holds that function of the arrays the
  region found.
-/
import proofs.«135245_j16080357556243_1_alg».proof.Proof.Gen.KernelIdeal.Frame
import proofs.«135245_j16080357556243_1_alg».proof.Proof.LibNormStage

set_option maxRecDepth 16384

noncomputable section

namespace Cert.KernelIdeal.KReg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The body's result at entry (p, q) of a block: the normalised entry. -/
theorem pay_apply (z : Vec Ideal S1000x128 .f32) (b g va be mu : Vec Ideal S1x128 .f32) (p : Fin 1000) (q : Fin 128) :
    k1_pay1 z b g va be mu (ix2 p q)
      = normAt (z (ix2 p q)) (b (ix2 0 q)) (g (ix2 0 q)) (be (ix2 0 q)) (mu (ix2 0 q)) (va (ix2 0 q))
          (Ideal.ofBits .f32 0x3727C5AC#32) := by
  unfold k1_pay1 normAt
  simp only [addf_apply, mulf_apply, subf_apply, maximumf_apply, rowTo_apply, shapeCast_self, broadcast_apply]
  rfl

/-- The whole result array as a function of the arrays the region reads. -/
def normArr (z : S10000x128.Idx → EReal) (b g be mu va : S1x128.Idx → EReal) : S10000x128.Idx → EReal := fun i =>
  normAt (z i) (b (ix2 0 (i 1))) (g (ix2 0 (i 1))) (be (ix2 0 (i 1))) (mu (ix2 0 (i 1))) (va (ix2 0 (i 1)))
    (Ideal.ofBits .f32 0x3727C5AC#32)

/-- The index maps over the grid: the row-block windows sit at block (t, 0), the one-row windows at block (0, 0). -/
theorem idx_facts : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What point t writes back is block t of the normalised array of the arrays the region found. -/
theorem flushed_eq (c : Dev nD) (t : Fin cfg1.N) :
    (dat1 V c).flushed 6 t = ((cfg1.win 6).blk t).view.read (Elt Ideal)
      (normArr (V c main_arg0) (V c main_v2) (V c main_v3) (V c main_v4) (V c main_v7) (V c main_v11)) := by
  show (cfg1.win 6).cut (grid1.coords t) ((dat1 V c).after 6 t) = _
  rw [after1_6]
  unfold out1_6
  rw [View.canon_unit_zero hz2]
  simp only [View.ld_unit_zero (S := S1000x128) hz2, View.ld_unit_zero (S := S1x128) hz2]
  obtain ⟨e00, e01, e60, e61, e10, e11, e20, e21, e30, e31, e40, e41, e50, e51⟩ := idx_facts t
  funext j
  obtain ⟨p, q, rfl⟩ : ∃ (p : Fin 1000) (q : Fin 128), j = ix2 p q := ⟨j 0, j 1, eq_ix2 j⟩
  show k1_pay1 (iblk1 V c 0 t) (iblk1 V c 1 t) (iblk1 V c 2 t) (iblk1 V c 5 t) (iblk1 V c 3 t) (iblk1 V c 4 t) (ix2 p q)
    = normArr (V c main_arg0) (V c main_v2) (V c main_v3) (V c main_v4) (V c main_v7) (V c main_v11) (((cfg1.win 6).blk t).view.emb (ix2 p q))
  refine (pay_apply _ _ _ _ _ _ p q).trans ?_
  have h0 : iblk1 V c 0 t (ix2 p q) = V c main_arg0 (((cfg1.win 6).blk t).view.emb (ix2 p q)) := by
    show V c main_arg0 (((cfg1.win 0).blk t).view.emb (ix2 p q)) = _
    refine congrArg (V c main_arg0) (funext fun a => Fin.ext ?_)
    match a with
    | ⟨0, _⟩ => show win1_0.index t (0 : Fin 2) * 1000 + 1 * p.val = win1_6.index t (0 : Fin 2) * 1000 + 1 * p.val; omega
    | ⟨1, _⟩ => show win1_0.index t (1 : Fin 2) * 128 + 1 * q.val = win1_6.index t (1 : Fin 2) * 128 + 1 * q.val; omega
  have h1 : iblk1 V c 1 t (ix2 0 q) = V c main_v2 (ix2 0 ((((cfg1.win 6).blk t).view.emb (ix2 p q)) 1)) := by
    show V c main_v2 (((cfg1.win 1).blk t).view.emb (ix2 0 q)) = _
    refine congrArg (V c main_v2) (funext fun a => Fin.ext ?_)
    match a with
    | ⟨0, _⟩ => show win1_1.index t (0 : Fin 2) * 1 + 1 * 0 = 0; omega
    | ⟨1, _⟩ => show win1_1.index t (1 : Fin 2) * 128 + 1 * q.val = win1_6.index t (1 : Fin 2) * 128 + 1 * q.val; omega
  have h2 : iblk1 V c 2 t (ix2 0 q) = V c main_v3 (ix2 0 ((((cfg1.win 6).blk t).view.emb (ix2 p q)) 1)) := by
    show V c main_v3 (((cfg1.win 2).blk t).view.emb (ix2 0 q)) = _
    refine congrArg (V c main_v3) (funext fun a => Fin.ext ?_)
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  have h3 : iblk1 V c 3 t (ix2 0 q) = V c main_v4 (ix2 0 ((((cfg1.win 6).blk t).view.emb (ix2 p q)) 1)) := by
    show V c main_v4 (((cfg1.win 3).blk t).view.emb (ix2 0 q)) = _
    refine congrArg (V c main_v4) (funext fun a => Fin.ext ?_)
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have h4 : iblk1 V c 4 t (ix2 0 q) = V c main_v7 (ix2 0 ((((cfg1.win 6).blk t).view.emb (ix2 p q)) 1)) := by
    show V c main_v7 (((cfg1.win 4).blk t).view.emb (ix2 0 q)) = _
    refine congrArg (V c main_v7) (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have h5 : iblk1 V c 5 t (ix2 0 q) = V c main_v11 (ix2 0 ((((cfg1.win 6).blk t).view.emb (ix2 p q)) 1)) := by
    show V c main_v11 (((cfg1.win 5).blk t).view.emb (ix2 0 q)) = _
    refine congrArg (V c main_v11) (funext fun a => Fin.ext ?_)
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  rw [h0, h1, h2, h3, h4, h5]
  rfl

/-- An index of the array is in point t's block iff each coordinate is in the block's range on its axis. -/
theorem mem_blk (t : Fin cfg1.N) (i : S10000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v12).slice (win1_6.rect t)).set ↔ _
  rw [View.set_slice_whole, Rect.mem_set_unit]
  exact Iff.rfl

/-- Every entry of the array lies in the block of the point numbered by its row divided by 1000. -/
theorem cover (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  let t : Fin cfg1.N := ⟨(i 0).val / 1000, by show (i 0).val / 1000 < 10; omega⟩
  obtain ⟨e00, e01, e60, e61, -⟩ := idx_facts t
  refine ⟨t, flush1_6 t, ?_⟩
  rw [mem_blk]
  intro a
  match a with
  | ⟨0, _⟩ =>
    show win1_6.index t (0 : Fin 2) * 1000 ≤ (i 0).val ∧ (i 0).val < win1_6.index t (0 : Fin 2) * 1000 + 1000
    have : (t : Fin cfg1.N).val = (i 0).val / 1000 := rfl
    omega
  | ⟨1, _⟩ =>
    show win1_6.index t (1 : Fin 2) * 128 ≤ (i 1).val ∧ (i 1).val < win1_6.index t (1 : Fin 2) * 128 + 128
    omega

/-- After the region the result array holds the normalised array of the arrays the region found. -/
theorem final (c : Dev nD) : (dat1 V c).arrAt 6 cfg1.N
    = normArr (V c main_arg0) (V c main_v2) (V c main_v3) (V c main_v4) (V c main_v7) (V c main_v11) :=
  (dat1 V c).arrAt_eq_of_cover 6 _ (fun t _ => flushed_eq V c t) (cover)

end Cert.KernelIdeal.KReg1

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.KReg2.lean ====
/-
  Region 2 of the idealized kernel: a matrix product on [10000, 128] rows against [128, 256] weights, in ten row
  blocks of 1000. The matrix unit's product into a zero accumulator is, on the extended reals, the plain sum over the
  contracted axis of the products of entries (the change of float format before it is the identity), so entry (r, j)
  of the result is the sum over q of x (r, q) · w (q, j). The ten blocks tile the array.
-/
import proofs.«135245_j16080357556243_1_alg».proof.Proof.Gen.KernelIdeal.Frame
import proofs.«135245_j16080357556243_1_alg».proof.Proof.LibNormStage
import proofs.«135245_j16080357556243_1_alg».proof.Proof.LibAffine
import proofs.«135245_j16080357556243_1_alg».proof.Proof.LibPlainDot

set_option maxRecDepth 16384

noncomputable section

namespace Cert.KernelIdeal.KReg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The body's result at entry (p, j) of a block. -/
theorem pay_apply (x : Vec Ideal S1000x128 .f32) (w : Vec Ideal S128x256 .f32) (p : Fin 1000) (j : Fin 256) :
    k2_pay1 x w (ix2 p j) = ∑ q : Fin 128, x (ix2 p q) * w (ix2 q j) := by
  unfold k2_pay1
  refine (Cert.LibAffine.coreDot_ix2 dot_S1000x128_S128x256_S1000x256_1_0_0_1_n_n (Cert.LibPlainDot.contr_rank dot_S1000x128_S128x256_S1000x256_1_0_0_1_n_n rfl) (Cert.LibPlainDot.contr_size dot_S1000x128_S128x256_S1000x256_1_0_0_1_n_n rfl)
      (Cert.LibPlainDot.lhs_row dot_S1000x128_S128x256_S1000x256_1_0_0_1_n_n rfl rfl) (Cert.LibPlainDot.lhs_col dot_S1000x128_S128x256_S1000x256_1_0_0_1_n_n rfl)
      (Cert.LibPlainDot.rhs_row dot_S1000x128_S128x256_S1000x256_1_0_0_1_n_n rfl rfl) (Cert.LibPlainDot.rhs_col dot_S1000x128_S128x256_S1000x256_1_0_0_1_n_n rfl rfl rfl rfl) none _ _ p j).trans ?_
  refine Finset.sum_congr rfl fun q _ => ?_
  simp only [truncf_apply, shapeCast_self]

/-- The whole result array as a function of the arrays the region reads. -/
def prodArr (x : S10000x128.Idx → EReal) (w : S128x256.Idx → EReal) : S10000x256.Idx → EReal := fun i =>
  ∑ q : Fin 128, x (ix2 (i 0) q) * w (ix2 q (i 1))

/-- The index maps over the grid: the row-block windows sit at block (t, 0), the whole-array windows at block (0, 0). -/
theorem idx_facts : ∀ t : Fin cfg2.N,
    win2_0.index t (0 : Fin 2) = t.val ∧ win2_0.index t (1 : Fin 2) = 0
    ∧ win2_2.index t (0 : Fin 2) = t.val ∧ win2_2.index t (1 : Fin 2) = 0
    ∧ win2_1.index t (0 : Fin 2) = 0 ∧ win2_1.index t (1 : Fin 2) = 0 :=
  (by decide +kernel : ∀ t : Fin grid2.N, _)

/-- What point t writes back is block t of that array of the arrays the region found. -/
theorem flushed_eq (c : Dev nD) (t : Fin cfg2.N) :
    (dat2 V c).flushed 2 t = ((cfg2.win 2).blk t).view.read (Elt Ideal) (prodArr (V c main_v12) (V c main_arg4)) := by
  show (cfg2.win 2).cut (grid2.coords t) ((dat2 V c).after 2 t) = _
  rw [after2_2]
  unfold out2_2
  rw [View.canon_unit_zero hz2]
  simp only [View.ld_unit_zero (S := S1000x128) hz2, View.ld_unit_zero (S := S128x256) hz2]
  obtain ⟨e00, e01, eo0, eo1, e10, e11⟩ := idx_facts t
  funext y
  obtain ⟨p, j, rfl⟩ : ∃ (p : Fin 1000) (j : Fin 256), y = ix2 p j := ⟨y 0, y 1, eq_ix2 y⟩
  show k2_pay1 (iblk2 V c 0 t) (iblk2 V c 1 t) (ix2 p j)
    = prodArr (V c main_v12) (V c main_arg4) (((cfg2.win 2).blk t).view.emb (ix2 p j))
  refine (pay_apply _ _ p j).trans ?_
  have hx : ∀ q : Fin 128, iblk2 V c 0 t (ix2 p q) = V c main_v12 (ix2 ((((cfg2.win 2).blk t).view.emb (ix2 p j)) 0) q) := fun q => by
    show V c main_v12 (((cfg2.win 0).blk t).view.emb (ix2 p q)) = _
    refine congrArg (V c main_v12) (funext fun a => Fin.ext ?_)
    match a with
    | ⟨0, _⟩ => show win2_0.index t (0 : Fin 2) * 1000 + 1 * p.val = win2_2.index t (0 : Fin 2) * 1000 + 1 * p.val; omega
    | ⟨1, _⟩ => show win2_0.index t (1 : Fin 2) * 128 + 1 * q.val = q.val; omega
  have hw : ∀ q : Fin 128, iblk2 V c 1 t (ix2 q j) = V c main_arg4 (ix2 q ((((cfg2.win 2).blk t).view.emb (ix2 p j)) 1)) := fun q => by
    show V c main_arg4 (((cfg2.win 1).blk t).view.emb (ix2 q j)) = _
    refine congrArg (V c main_arg4) (funext fun a => Fin.ext ?_)
    match a with
    | ⟨0, _⟩ => show win2_1.index t (0 : Fin 2) * 128 + 1 * q.val = q.val; omega
    | ⟨1, _⟩ => show win2_1.index t (1 : Fin 2) * 256 + 1 * j.val = win2_2.index t (1 : Fin 2) * 256 + 1 * j.val; omega
  unfold prodArr
  exact Finset.sum_congr rfl fun q _ => by rw [hx q, hw q]

theorem mem_blk (t : Fin cfg2.N) (i : S10000x256.Idx) :
    i ∈ ((cfg2.win 2).blk t).view.set ↔ ∀ a : Fin 2, win2_2.index t a * S1000x256.size a ≤ (i a).val ∧ (i a).val < win2_2.index t a * S1000x256.size a + S1000x256.size a := by
  show i ∈ ((View.whole main_v43).slice (win2_2.rect t)).set ↔ _
  rw [View.set_slice_whole, Rect.mem_set_unit]
  exact Iff.rfl

theorem cover (i : S10000x256.Idx) :
    ∃ t : Fin cfg2.N, (cfg2.win 2).flush t = true ∧ i ∈ ((cfg2.win 2).blk t).view.set := by
  have hi0 : (i 0).val < 10000 := (i 0).isLt
  have hi1 : (i 1).val < 256 := (i 1).isLt
  let t : Fin cfg2.N := ⟨(i 0).val / 1000, by show (i 0).val / 1000 < 10; omega⟩
  have ht : (t : Fin cfg2.N).val = (i 0).val / 1000 := rfl
  have hf := idx_facts t
  refine ⟨t, flush2_2 t, ?_⟩
  rw [mem_blk]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 256 ≤ (i 1).val ∧ (i 1).val < win2_2.index t (1 : Fin 2) * 256 + 256
    omega

/-- After the region the result array holds that function of the arrays the region found. -/
theorem final (c : Dev nD) : (dat2 V c).arrAt 2 cfg2.N = prodArr (V c main_v12) (V c main_arg4) :=
  (dat2 V c).arrAt_eq_of_cover 2 _ (fun t _ => flushed_eq V c t) (cover)

end Cert.KernelIdeal.KReg2

end
-- ==== Proof.KReg3.lean ====
/-
  Region 3 of the idealized kernel: the column sums of an [10000, 256] array shifted by a bias row and clipped below at zero, and of
  its squares, in ONE grid point whose blocks are the whole arrays. The point reads both arrays whole and writes both
  one-row results whole, so after the region each result array holds the body's result on the arrays the region found;
  at (0, q) that is the sum over the 10000 rows r of the shifted, clipped entry (r, q), respectively of its square.
-/
import proofs.«135245_j16080357556243_1_alg».proof.Proof.Gen.KernelIdeal.Frame
import proofs.«135245_j16080357556243_1_alg».proof.Proof.LibNormStage
import proofs.«135245_j16080357556243_1_alg».proof.Proof.LibAxis0Sum

set_option maxRecDepth 16384

noncomputable section

namespace Cert.KernelIdeal.KReg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The shifted, clipped block at an entry. -/
theorem shifted_apply (z : Vec Ideal S10000x256 .f32) (b : Vec Ideal S1x256 .f32) (r : Fin 10000) (q : Fin 256) :
    k3_pay1 z b (ix2 r q) = max (z (ix2 r q) + b (ix2 0 q)) 0 := by
  unfold k3_pay1
  simp only [addf_apply, maximumf_apply, rowTo_apply, shapeCast_self, broadcast_apply]
  have h0 : (FloatOps.ofBits (F := Ideal) FTy.f32 0#32 : EReal) = 0 := Ideal.ofBits_zero_f32
  rw [h0]

/-- The column sums at (0, q): the sum over the rows. -/
theorem sum_apply (z : Vec Ideal S10000x256 .f32) (b : Vec Ideal S1x256 .f32) (u : Fin 1) (q : Fin 256) :
    k3_pay2 z b (ix2 u q) = ∑ r : Fin 10000, max (z (ix2 r q) + b (ix2 0 q)) 0 := by
  unfold k3_pay2
  refine (rowCast_apply _ _ u q).trans ?_
  refine (Cert.LibAxis0Sum.colSum_apply _ _ _ _ _ q).trans ?_
  exact Finset.sum_congr rfl fun r _ => shifted_apply z b r q

/-- The column sums of the squares at (0, q). -/
theorem sumsq_apply (z : Vec Ideal S10000x256 .f32) (b : Vec Ideal S1x256 .f32) (u : Fin 1) (q : Fin 256) :
    k3_pay3 z b (ix2 u q) = ∑ r : Fin 10000, max (z (ix2 r q) + b (ix2 0 q)) 0 * max (z (ix2 r q) + b (ix2 0 q)) 0 := by
  unfold k3_pay3
  refine (rowCast_apply _ _ u q).trans ?_
  refine (Cert.LibAxis0Sum.colSum_apply _ _ _ _ _ q).trans ?_
  refine Finset.sum_congr rfl fun r _ => ?_
  rw [mulf_apply, shifted_apply]

/-- The index maps at the one grid point: every window sits at block (0, 0). -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem emb0 (t : Fin cfg3.N) (y : S10000x256.Idx) : ((cfg3.win 0).blk t).view.emb y = y := by
  obtain ⟨e00, e01, e10, e11, e20, e21, e30, e31⟩ := idx_facts t
  funext a; apply Fin.ext
  match a with
  | ⟨0, _⟩ => show win3_0.index t (0 : Fin 2) * 10000 + 1 * (y 0).val = (y 0).val; omega
  | ⟨1, _⟩ => show win3_0.index t (1 : Fin 2) * 256 + 1 * (y 1).val = (y 1).val; omega
theorem emb1 (t : Fin cfg3.N) (y : S1x256.Idx) : ((cfg3.win 1).blk t).view.emb y = y := by
  obtain ⟨e00, e01, e10, e11, e20, e21, e30, e31⟩ := idx_facts t
  funext a; apply Fin.ext
  match a with
  | ⟨0, _⟩ => show win3_1.index t (0 : Fin 2) * 1 + 1 * (y 0).val = (y 0).val; omega
  | ⟨1, _⟩ => show win3_1.index t (1 : Fin 2) * 256 + 1 * (y 1).val = (y 1).val; omega
theorem emb2 (t : Fin cfg3.N) (y : S1x256.Idx) : ((cfg3.win 2).blk t).view.emb y = y := by
  obtain ⟨e00, e01, e10, e11, e20, e21, e30, e31⟩ := idx_facts t
  funext a; apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega
theorem emb3 (t : Fin cfg3.N) (y : S1x256.Idx) : ((cfg3.win 3).blk t).view.emb y = y := by
  obtain ⟨e00, e01, e10, e11, e20, e21, e30, e31⟩ := idx_facts t
  funext a; apply Fin.ext
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- The one point's block of the input array is the whole array. -/
theorem iblk_z (c : Dev nD) (t : Fin cfg3.N) : iblk3 V c 0 t = V c main_v56 := by
  funext y
  show V c main_v56 (((cfg3.win 0).blk t).view.emb y) = V c main_v56 y
  rw [emb0]

theorem iblk_b (c : Dev nD) (t : Fin cfg3.N) : iblk3 V c 1 t = V c main_v57 := by
  funext y
  show V c main_v57 (((cfg3.win 1).blk t).view.emb y) = V c main_v57 y
  rw [emb1]

/-- What the one point writes back through output window 2 is the whole of the column sums. -/
theorem flushed2_eq (c : Dev nD) (t : Fin cfg3.N) :
    (dat3 V c).flushed 2 t = ((cfg3.win 2).blk t).view.read (Elt Ideal) (k3_pay2 (V c main_v56) (V c main_v57)) := by
  show (cfg3.win 2).cut (grid3.coords t) ((dat3 V c).after 2 t) = _
  rw [after3_2]
  unfold out3_2
  rw [View.canon_unit_zero hz2]
  simp only [View.ld_unit_zero (S := S10000x256) hz2, View.ld_unit_zero (S := S1x256) hz2]
  rw [iblk_z V c t, iblk_b V c t]
  funext j
  show k3_pay2 (V c main_v56) (V c main_v57) j = k3_pay2 (V c main_v56) (V c main_v57) (((cfg3.win 2).blk t).view.emb j)
  rw [emb2]

theorem mem_blk2 (t : Fin cfg3.N) (i : S1x256.Idx) :
    i ∈ ((cfg3.win 2).blk t).view.set ↔ ∀ a : Fin 2, win3_2.index t a * S1x256.size a ≤ (i a).val ∧ (i a).val < win3_2.index t a * S1x256.size a + S1x256.size a := by
  show i ∈ ((View.whole main_v60_0).slice (win3_2.rect t)).set ↔ _
  rw [View.set_slice_whole, Rect.mem_set_unit]
  exact Iff.rfl

theorem cover2 (i : S1x256.Idx) :
    ∃ t : Fin cfg3.N, (cfg3.win 2).flush t = true ∧ i ∈ ((cfg3.win 2).blk t).view.set := by
  have hi0 : (i 0).val < 1 := (i 0).isLt
  have hi1 : (i 1).val < 256 := (i 1).isLt
  let t : Fin cfg3.N := ⟨0, by decide⟩
  obtain ⟨e00, e01, e10, e11, e20, e21, e30, e31⟩ := idx_facts t
  refine ⟨t, flush3_2 t, ?_⟩
  rw [mem_blk2]
  intro a
  match a with
  | ⟨0, _⟩ =>
    show win3_2.index t (0 : Fin 2) * 1 ≤ (i 0).val ∧ (i 0).val < win3_2.index t (0 : Fin 2) * 1 + 1
    omega
  | ⟨1, _⟩ =>
    show win3_2.index t (1 : Fin 2) * 256 ≤ (i 1).val ∧ (i 1).val < win3_2.index t (1 : Fin 2) * 256 + 256
    omega

/-- After the region output array 2 holds the body's result on the whole arrays the region found. -/
theorem final2 (c : Dev nD) : (dat3 V c).arrAt 2 cfg3.N = k3_pay2 (V c main_v56) (V c main_v57) :=
  (dat3 V c).arrAt_eq_of_cover 2 _ (fun t _ => flushed2_eq V c t) (cover2)

/-- What the one point writes back through output window 3 is the whole of the column sums. -/
theorem flushed3_eq (c : Dev nD) (t : Fin cfg3.N) :
    (dat3 V c).flushed 3 t = ((cfg3.win 3).blk t).view.read (Elt Ideal) (k3_pay3 (V c main_v56) (V c main_v57)) := by
  show (cfg3.win 3).cut (grid3.coords t) ((dat3 V c).after 3 t) = _
  rw [after3_3]
  unfold out3_3
  rw [View.canon_unit_zero hz2]
  simp only [View.ld_unit_zero (S := S10000x256) hz2, View.ld_unit_zero (S := S1x256) hz2]
  rw [iblk_z V c t, iblk_b V c t]
  funext j
  show k3_pay3 (V c main_v56) (V c main_v57) j = k3_pay3 (V c main_v56) (V c main_v57) (((cfg3.win 3).blk t).view.emb j)
  rw [emb3]

theorem mem_blk3 (t : Fin cfg3.N) (i : S1x256.Idx) :
    i ∈ ((cfg3.win 3).blk t).view.set ↔ ∀ a : Fin 2, win3_3.index t a * S1x256.size a ≤ (i a).val ∧ (i a).val < win3_3.index t a * S1x256.size a + S1x256.size a := by
  show i ∈ ((View.whole main_v60_1).slice (win3_3.rect t)).set ↔ _
  rw [View.set_slice_whole, Rect.mem_set_unit]
  exact Iff.rfl

theorem cover3 (i : S1x256.Idx) :
    ∃ t : Fin cfg3.N, (cfg3.win 3).flush t = true ∧ i ∈ ((cfg3.win 3).blk t).view.set := by
  have hi0 : (i 0).val < 1 := (i 0).isLt
  have hi1 : (i 1).val < 256 := (i 1).isLt
  let t : Fin cfg3.N := ⟨0, by decide⟩
  obtain ⟨e00, e01, e10, e11, e20, e21, e30, e31⟩ := idx_facts t
  refine ⟨t, flush3_3 t, ?_⟩
  rw [mem_blk3]
  intro a
  match a with
  | ⟨0, _⟩ =>
    show win3_3.index t (0 : Fin 2) * 1 ≤ (i 0).val ∧ (i 0).val < win3_3.index t (0 : Fin 2) * 1 + 1
    omega
  | ⟨1, _⟩ =>
    show win3_3.index t (1 : Fin 2) * 256 ≤ (i 1).val ∧ (i 1).val < win3_3.index t (1 : Fin 2) * 256 + 256
    omega

/-- After the region output array 3 holds the body's result on the whole arrays the region found. -/
theorem final3 (c : Dev nD) : (dat3 V c).arrAt 3 cfg3.N = k3_pay3 (V c main_v56) (V c main_v57) :=
  (dat3 V c).arrAt_eq_of_cover 3 _ (fun t _ => flushed3_eq V c t) (cover3)

end Cert.KernelIdeal.KReg3

end
-- ==== Proof.KReg4.lean ====
/-
  Region 4 of the idealized kernel: the per-column normalisation of an [10000, 256] array in ten row blocks of 1000.
  Each grid point reads its block of rows and the five one-row arrays (bias, gain, shift, mean, variance) whole, and
  writes back the block of the result; entry (r, q) of the result array is the normalised entry of z (r, q) with entry
  q of each row. The ten blocks tile the array, so after the region the array holds that function of the arrays the
  region found.
-/
import proofs.«135245_j16080357556243_1_alg».proof.Proof.Gen.KernelIdeal.Frame
import proofs.«135245_j16080357556243_1_alg».proof.Proof.LibNormStage
import Idealize.ShloMosaic.PureOps.Ideal.Laws

set_option maxRecDepth 16384

noncomputable section

namespace Cert.KernelIdeal.KReg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The body's result at entry (p, q) of a block: the normalised entry. -/
theorem pay_apply (z : Vec Ideal S1000x256 .f32) (b g va be mu : Vec Ideal S1x256 .f32) (p : Fin 1000) (q : Fin 256) :
    k4_pay1 z b g va be mu (ix2 p q)
      = reluNormAt (z (ix2 p q)) (b (ix2 0 q)) (g (ix2 0 q)) (be (ix2 0 q)) (mu (ix2 0 q)) (va (ix2 0 q))
          (Ideal.ofBits .f32 0x3727C5AC#32) := by
  unfold k4_pay1 reluNormAt
  simp only [addf_apply, mulf_apply, subf_apply, maximumf_apply, rowTo_apply, shapeCast_self, broadcast_apply]
  have h0 : (FloatOps.ofBits (F := Ideal) FTy.f32 0#32 : EReal) = 0 := Ideal.ofBits_zero_f32
  rw [h0]
  rfl

/-- The whole result array as a function of the arrays the region reads. -/
def normArr (z : S10000x256.Idx → EReal) (b g be mu va : S1x256.Idx → EReal) : S10000x256.Idx → EReal := fun i =>
  reluNormAt (z i) (b (ix2 0 (i 1))) (g (ix2 0 (i 1))) (be (ix2 0 (i 1))) (mu (ix2 0 (i 1))) (va (ix2 0 (i 1)))
    (Ideal.ofBits .f32 0x3727C5AC#32)

/-- The index maps over the grid: the row-block windows sit at block (t, 0), the one-row windows at block (0, 0). -/
theorem idx_facts : ∀ t : Fin cfg4.N,
    win4_0.index t (0 : Fin 2) = t.val ∧ win4_0.index t (1 : Fin 2) = 0
    ∧ win4_6.index t (0 : Fin 2) = t.val ∧ win4_6.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- What point t writes back is block t of the normalised array of the arrays the region found. -/
theorem flushed_eq (c : Dev nD) (t : Fin cfg4.N) :
    (dat4 V c).flushed 6 t = ((cfg4.win 6).blk t).view.read (Elt Ideal)
      (normArr (V c main_v56) (V c main_v57) (V c main_v58) (V c main_v59) (V c main_v62) (V c main_v66)) := by
  show (cfg4.win 6).cut (grid4.coords t) ((dat4 V c).after 6 t) = _
  rw [after4_6]
  unfold out4_6
  rw [View.canon_unit_zero hz2]
  simp only [View.ld_unit_zero (S := S1000x256) hz2, View.ld_unit_zero (S := S1x256) hz2]
  obtain ⟨e00, e01, e60, e61, e10, e11, e20, e21, e30, e31, e40, e41, e50, e51⟩ := idx_facts t
  funext j
  obtain ⟨p, q, rfl⟩ : ∃ (p : Fin 1000) (q : Fin 256), j = ix2 p q := ⟨j 0, j 1, eq_ix2 j⟩
  show k4_pay1 (iblk4 V c 0 t) (iblk4 V c 1 t) (iblk4 V c 2 t) (iblk4 V c 5 t) (iblk4 V c 3 t) (iblk4 V c 4 t) (ix2 p q)
    = normArr (V c main_v56) (V c main_v57) (V c main_v58) (V c main_v59) (V c main_v62) (V c main_v66) (((cfg4.win 6).blk t).view.emb (ix2 p q))
  refine (pay_apply _ _ _ _ _ _ p q).trans ?_
  have h0 : iblk4 V c 0 t (ix2 p q) = V c main_v56 (((cfg4.win 6).blk t).view.emb (ix2 p q)) := by
    show V c main_v56 (((cfg4.win 0).blk t).view.emb (ix2 p q)) = _
    refine congrArg (V c main_v56) (funext fun a => Fin.ext ?_)
    match a with
    | ⟨0, _⟩ => show win4_0.index t (0 : Fin 2) * 1000 + 1 * p.val = win4_6.index t (0 : Fin 2) * 1000 + 1 * p.val; omega
    | ⟨1, _⟩ => show win4_0.index t (1 : Fin 2) * 256 + 1 * q.val = win4_6.index t (1 : Fin 2) * 256 + 1 * q.val; omega
  have h1 : iblk4 V c 1 t (ix2 0 q) = V c main_v57 (ix2 0 ((((cfg4.win 6).blk t).view.emb (ix2 p q)) 1)) := by
    show V c main_v57 (((cfg4.win 1).blk t).view.emb (ix2 0 q)) = _
    refine congrArg (V c main_v57) (funext fun a => Fin.ext ?_)
    match a with
    | ⟨0, _⟩ => show win4_1.index t (0 : Fin 2) * 1 + 1 * 0 = 0; omega
    | ⟨1, _⟩ => show win4_1.index t (1 : Fin 2) * 256 + 1 * q.val = win4_6.index t (1 : Fin 2) * 256 + 1 * q.val; omega
  have h2 : iblk4 V c 2 t (ix2 0 q) = V c main_v58 (ix2 0 ((((cfg4.win 6).blk t).view.emb (ix2 p q)) 1)) := by
    show V c main_v58 (((cfg4.win 2).blk t).view.emb (ix2 0 q)) = _
    refine congrArg (V c main_v58) (funext fun a => Fin.ext ?_)
    match a with
    | ⟨0, _⟩ => show win4_2.index t (0 : Fin 2) * 1 + 1 * 0 = 0; omega
    | ⟨1, _⟩ => show win4_2.index t (1 : Fin 2) * 256 + 1 * q.val = win4_6.index t (1 : Fin 2) * 256 + 1 * q.val; omega
  have h3 : iblk4 V c 3 t (ix2 0 q) = V c main_v59 (ix2 0 ((((cfg4.win 6).blk t).view.emb (ix2 p q)) 1)) := by
    show V c main_v59 (((cfg4.win 3).blk t).view.emb (ix2 0 q)) = _
    refine congrArg (V c main_v59) (funext fun a => Fin.ext ?_)
    match a with
    | ⟨0, _⟩ => show win4_3.index t (0 : Fin 2) * 1 + 1 * 0 = 0; omega
    | ⟨1, _⟩ => show win4_3.index t (1 : Fin 2) * 256 + 1 * q.val = win4_6.index t (1 : Fin 2) * 256 + 1 * q.val; omega
  have h4 : iblk4 V c 4 t (ix2 0 q) = V c main_v62 (ix2 0 ((((cfg4.win 6).blk t).view.emb (ix2 p q)) 1)) := by
    show V c main_v62 (((cfg4.win 4).blk t).view.emb (ix2 0 q)) = _
    refine congrArg (V c main_v62) (funext fun a => Fin.ext ?_)
    match a with
    | ⟨0, _⟩ => show win4_4.index t (0 : Fin 2) * 1 + 1 * 0 = 0; omega
    | ⟨1, _⟩ => show win4_4.index t (1 : Fin 2) * 256 + 1 * q.val = win4_6.index t (1 : Fin 2) * 256 + 1 * q.val; omega
  have h5 : iblk4 V c 5 t (ix2 0 q) = V c main_v66 (ix2 0 ((((cfg4.win 6).blk t).view.emb (ix2 p q)) 1)) := by
    show V c main_v66 (((cfg4.win 5).blk t).view.emb (ix2 0 q)) = _
    refine congrArg (V c main_v66) (funext fun a => Fin.ext ?_)
    match a with
    | ⟨0, _⟩ => show win4_5.index t (0 : Fin 2) * 1 + 1 * 0 = 0; omega
    | ⟨1, _⟩ => show win4_5.index t (1 : Fin 2) * 256 + 1 * q.val = win4_6.index t (1 : Fin 2) * 256 + 1 * q.val; omega
  rw [h0, h1, h2, h3, h4, h5]
  rfl

/-- An index of the array is in point t's block iff each coordinate is in the block's range on its axis. -/
theorem mem_blk (t : Fin cfg4.N) (i : S10000x256.Idx) :
    i ∈ ((cfg4.win 6).blk t).view.set ↔ ∀ a : Fin 2, win4_6.index t a * S1000x256.size a ≤ (i a).val ∧ (i a).val < win4_6.index t a * S1000x256.size a + S1000x256.size a := by
  show i ∈ ((View.whole main_v67).slice (win4_6.rect t)).set ↔ _
  rw [View.set_slice_whole, Rect.mem_set_unit]
  exact Iff.rfl

/-- Every entry of the array lies in the block of the point numbered by its row divided by 1000. -/
theorem cover (i : S10000x256.Idx) :
    ∃ t : Fin cfg4.N, (cfg4.win 6).flush t = true ∧ i ∈ ((cfg4.win 6).blk t).view.set := by
  have hi0 : (i 0).val < 10000 := (i 0).isLt
  have hi1 : (i 1).val < 256 := (i 1).isLt
  let t : Fin cfg4.N := ⟨(i 0).val / 1000, by show (i 0).val / 1000 < 10; omega⟩
  obtain ⟨e00, e01, e60, e61, -⟩ := idx_facts t
  refine ⟨t, flush4_6 t, ?_⟩
  rw [mem_blk]
  intro a
  match a with
  | ⟨0, _⟩ =>
    show win4_6.index t (0 : Fin 2) * 1000 ≤ (i 0).val ∧ (i 0).val < win4_6.index t (0 : Fin 2) * 1000 + 1000
    have : (t : Fin cfg4.N).val = (i 0).val / 1000 := rfl
    omega
  | ⟨1, _⟩ =>
    show win4_6.index t (1 : Fin 2) * 256 ≤ (i 1).val ∧ (i 1).val < win4_6.index t (1 : Fin 2) * 256 + 256
    omega

/-- After the region the result array holds the normalised array of the arrays the region found. -/
theorem final (c : Dev nD) : (dat4 V c).arrAt 6 cfg4.N
    = normArr (V c main_v56) (V c main_v57) (V c main_v58) (V c main_v59) (V c main_v62) (V c main_v66) :=
  (dat4 V c).arrAt_eq_of_cover 6 _ (fun t _ => flushed_eq V c t) (cover)

end Cert.KernelIdeal.KReg4

end
-- ==== Proof.KReg5.lean ====
/-
  Region 5 of the idealized kernel: two matrix products plus a bias row on [10000, 256] rows against [256, 256] weights, in ten row
  blocks of 1000. The matrix unit's product into a zero accumulator is, on the extended reals, the plain sum over the
  contracted axis of the products of entries (the change of float format before it is the identity), so entry (r, j)
  of the result is the sum of the two such sums of row r and column j, plus entry j of the bias. The ten blocks tile the array.
-/
import proofs.«135245_j16080357556243_1_alg».proof.Proof.Gen.KernelIdeal.Frame
import proofs.«135245_j16080357556243_1_alg».proof.Proof.LibNormStage
import proofs.«135245_j16080357556243_1_alg».proof.Proof.LibAffine
import proofs.«135245_j16080357556243_1_alg».proof.Proof.LibPlainDot

set_option maxRecDepth 16384

noncomputable section

namespace Cert.KernelIdeal.KReg5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The body's result at entry (p, j) of a block. -/
theorem pay_apply (s : Vec Ideal S1000x256 .f32) (wl : Vec Ideal S256x256 .f32) (h : Vec Ideal S1000x256 .f32) (wr : Vec Ideal S256x256 .f32)
    (b : Vec Ideal S1x256 .f32) (p : Fin 1000) (j : Fin 256) :
    k5_pay1 s wl h wr b (ix2 p j)
      = (∑ q : Fin 256, s (ix2 p q) * wl (ix2 q j)) + (∑ q : Fin 256, h (ix2 p q) * wr (ix2 q j)) + b (ix2 0 j) := by
  unfold k5_pay1
  simp only [addf_apply, rowTo_apply, shapeCast_self]
  refine congrArg₂ (· + ·) (congrArg₂ (· + ·) ?_ ?_) rfl
  · refine (Cert.LibAffine.coreDot_ix2 dot_S1000x256_S256x256_S1000x256_1_0_0_1_n_n (Cert.LibPlainDot.contr_rank dot_S1000x256_S256x256_S1000x256_1_0_0_1_n_n rfl) (Cert.LibPlainDot.contr_size dot_S1000x256_S256x256_S1000x256_1_0_0_1_n_n rfl)
      (Cert.LibPlainDot.lhs_row dot_S1000x256_S256x256_S1000x256_1_0_0_1_n_n rfl rfl) (Cert.LibPlainDot.lhs_col dot_S1000x256_S256x256_S1000x256_1_0_0_1_n_n rfl)
      (Cert.LibPlainDot.rhs_row dot_S1000x256_S256x256_S1000x256_1_0_0_1_n_n rfl rfl) (Cert.LibPlainDot.rhs_col dot_S1000x256_S256x256_S1000x256_1_0_0_1_n_n rfl rfl rfl rfl) none _ _ p j).trans ?_
    refine Finset.sum_congr rfl fun q _ => ?_
    simp only [truncf_apply, shapeCast_self]
  · refine (Cert.LibAffine.coreDot_ix2 dot_S1000x256_S256x256_S1000x256_1_0_0_1_n_n (Cert.LibPlainDot.contr_rank dot_S1000x256_S256x256_S1000x256_1_0_0_1_n_n rfl) (Cert.LibPlainDot.contr_size dot_S1000x256_S256x256_S1000x256_1_0_0_1_n_n rfl)
      (Cert.LibPlainDot.lhs_row dot_S1000x256_S256x256_S1000x256_1_0_0_1_n_n rfl rfl) (Cert.LibPlainDot.lhs_col dot_S1000x256_S256x256_S1000x256_1_0_0_1_n_n rfl)
      (Cert.LibPlainDot.rhs_row dot_S1000x256_S256x256_S1000x256_1_0_0_1_n_n rfl rfl) (Cert.LibPlainDot.rhs_col dot_S1000x256_S256x256_S1000x256_1_0_0_1_n_n rfl rfl rfl rfl) none _ _ p j).trans ?_
    refine Finset.sum_congr rfl fun q _ => ?_
    simp only [truncf_apply, shapeCast_self]

/-- The whole result array as a function of the arrays the region reads. -/
def prodArr (s : S10000x256.Idx → EReal) (wl : S256x256.Idx → EReal) (h : S10000x256.Idx → EReal) (wr : S256x256.Idx → EReal)
    (b : S1x256.Idx → EReal) : S10000x256.Idx → EReal := fun i =>
  (∑ q : Fin 256, s (ix2 (i 0) q) * wl (ix2 q (i 1))) + (∑ q : Fin 256, h (ix2 (i 0) q) * wr (ix2 q (i 1))) + b (ix2 0 (i 1))

/-- The index maps over the grid: the row-block windows sit at block (t, 0), the whole-array windows at block (0, 0). -/
theorem idx_facts : ∀ t : Fin cfg5.N,
    win5_0.index t (0 : Fin 2) = t.val ∧ win5_0.index t (1 : Fin 2) = 0
    ∧ win5_2.index t (0 : Fin 2) = t.val ∧ win5_2.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- What point t writes back is block t of that array of the arrays the region found. -/
theorem flushed_eq (c : Dev nD) (t : Fin cfg5.N) :
    (dat5 V c).flushed 5 t = ((cfg5.win 5).blk t).view.read (Elt Ideal) (prodArr (V c main_v77) (V c main_arg8) (V c main_v67) (V c main_arg10) (V c main_v78)) := by
  show (cfg5.win 5).cut (grid5.coords t) ((dat5 V c).after 5 t) = _
  rw [after5_5]
  unfold out5_5
  rw [View.canon_unit_zero hz2]
  simp only [View.ld_unit_zero (S := S1000x256) hz2, View.ld_unit_zero (S := S256x256) hz2, View.ld_unit_zero (S := S1x256) hz2]
  obtain ⟨e00, e01, e20, e21, eo0, eo1, e10, e11, e30, e31, e40, e41⟩ := idx_facts t
  funext y
  obtain ⟨p, j, rfl⟩ : ∃ (p : Fin 1000) (j : Fin 256), y = ix2 p j := ⟨y 0, y 1, eq_ix2 y⟩
  show k5_pay1 (iblk5 V c 0 t) (iblk5 V c 1 t) (iblk5 V c 2 t) (iblk5 V c 3 t) (iblk5 V c 4 t) (ix2 p j)
    = prodArr (V c main_v77) (V c main_arg8) (V c main_v67) (V c main_arg10) (V c main_v78) (((cfg5.win 5).blk t).view.emb (ix2 p j))
  refine (pay_apply _ _ _ _ _ p j).trans ?_
  have hs : ∀ q : Fin 256, iblk5 V c 0 t (ix2 p q) = V c main_v77 (ix2 ((((cfg5.win 5).blk t).view.emb (ix2 p j)) 0) q) := fun q => by
    show V c main_v77 (((cfg5.win 0).blk t).view.emb (ix2 p q)) = _
    refine congrArg (V c main_v77) (funext fun a => Fin.ext ?_)
    match a with
    | ⟨0, _⟩ => show win5_0.index t (0 : Fin 2) * 1000 + 1 * p.val = win5_5.index t (0 : Fin 2) * 1000 + 1 * p.val; omega
    | ⟨1, _⟩ => show win5_0.index t (1 : Fin 2) * 256 + 1 * q.val = q.val; omega
  have hwl : ∀ q : Fin 256, iblk5 V c 1 t (ix2 q j) = V c main_arg8 (ix2 q ((((cfg5.win 5).blk t).view.emb (ix2 p j)) 1)) := fun q => by
    show V c main_arg8 (((cfg5.win 1).blk t).view.emb (ix2 q j)) = _
    refine congrArg (V c main_arg8) (funext fun a => Fin.ext ?_)
    match a with
    | ⟨0, _⟩ => show win5_1.index t (0 : Fin 2) * 256 + 1 * q.val = q.val; omega
    | ⟨1, _⟩ => show win5_1.index t (1 : Fin 2) * 256 + 1 * j.val = win5_5.index t (1 : Fin 2) * 256 + 1 * j.val; omega
  have hh : ∀ q : Fin 256, iblk5 V c 2 t (ix2 p q) = V c main_v67 (ix2 ((((cfg5.win 5).blk t).view.emb (ix2 p j)) 0) q) := fun q => by
    show V c main_v67 (((cfg5.win 2).blk t).view.emb (ix2 p q)) = _
    refine congrArg (V c main_v67) (funext fun a => Fin.ext ?_)
    match a with
    | ⟨0, _⟩ => show win5_2.index t (0 : Fin 2) * 1000 + 1 * p.val = win5_5.index t (0 : Fin 2) * 1000 + 1 * p.val; omega
    | ⟨1, _⟩ => show win5_2.index t (1 : Fin 2) * 256 + 1 * q.val = q.val; omega
  have hwr : ∀ q : Fin 256, iblk5 V c 3 t (ix2 q j) = V c main_arg10 (ix2 q ((((cfg5.win 5).blk t).view.emb (ix2 p j)) 1)) := fun q => by
    show V c main_arg10 (((cfg5.win 3).blk t).view.emb (ix2 q j)) = _
    refine congrArg (V c main_arg10) (funext fun a => Fin.ext ?_)
    match a with
    | ⟨0, _⟩ => show win5_3.index t (0 : Fin 2) * 256 + 1 * q.val = q.val; omega
    | ⟨1, _⟩ => show win5_3.index t (1 : Fin 2) * 256 + 1 * j.val = win5_5.index t (1 : Fin 2) * 256 + 1 * j.val; omega
  have hb : iblk5 V c 4 t (ix2 0 j) = V c main_v78 (ix2 0 ((((cfg5.win 5).blk t).view.emb (ix2 p j)) 1)) := by
    show V c main_v78 (((cfg5.win 4).blk t).view.emb (ix2 0 j)) = _
    refine congrArg (V c main_v78) (funext fun a => Fin.ext ?_)
    match a with
    | ⟨0, _⟩ => show win5_4.index t (0 : Fin 2) * 1 + 1 * 0 = 0; omega
    | ⟨1, _⟩ => show win5_4.index t (1 : Fin 2) * 256 + 1 * j.val = win5_5.index t (1 : Fin 2) * 256 + 1 * j.val; omega
  unfold prodArr
  rw [hb]
  exact congrArg₂ (· + ·) (congrArg₂ (· + ·) (Finset.sum_congr rfl fun q _ => by rw [hs q, hwl q])
    (Finset.sum_congr rfl fun q _ => by rw [hh q, hwr q])) rfl

theorem mem_blk (t : Fin cfg5.N) (i : S10000x256.Idx) :
    i ∈ ((cfg5.win 5).blk t).view.set ↔ ∀ a : Fin 2, win5_5.index t a * S1000x256.size a ≤ (i a).val ∧ (i a).val < win5_5.index t a * S1000x256.size a + S1000x256.size a := by
  show i ∈ ((View.whole main_v79).slice (win5_5.rect t)).set ↔ _
  rw [View.set_slice_whole, Rect.mem_set_unit]
  exact Iff.rfl

theorem cover (i : S10000x256.Idx) :
    ∃ t : Fin cfg5.N, (cfg5.win 5).flush t = true ∧ i ∈ ((cfg5.win 5).blk t).view.set := by
  have hi0 : (i 0).val < 10000 := (i 0).isLt
  have hi1 : (i 1).val < 256 := (i 1).isLt
  let t : Fin cfg5.N := ⟨(i 0).val / 1000, by show (i 0).val / 1000 < 10; omega⟩
  have ht : (t : Fin cfg5.N).val = (i 0).val / 1000 := rfl
  have hf := idx_facts t
  refine ⟨t, flush5_5 t, ?_⟩
  rw [mem_blk]
  intro a
  match a with
  | ⟨0, _⟩ =>
    show win5_5.index t (0 : Fin 2) * 1000 ≤ (i 0).val ∧ (i 0).val < win5_5.index t (0 : Fin 2) * 1000 + 1000
    omega
  | ⟨1, _⟩ =>
    show win5_5.index t (1 : Fin 2) * 256 ≤ (i 1).val ∧ (i 1).val < win5_5.index t (1 : Fin 2) * 256 + 256
    omega

/-- After the region the result array holds that function of the arrays the region found. -/
theorem final (c : Dev nD) : (dat5 V c).arrAt 5 cfg5.N = prodArr (V c main_v77) (V c main_arg8) (V c main_v67) (V c main_arg10) (V c main_v78) :=
  (dat5 V c).arrAt_eq_of_cover 5 _ (fun t _ => flushed_eq V c t) (cover)

end Cert.KernelIdeal.KReg5

end
-- ==== Proof.KReg6.lean ====
/-
  Region 6 of the idealized kernel: the column sums of an [10000, 256] array shifted by a bias row and clipped below at zero, and of
  its squares, in ONE grid point whose blocks are the whole arrays. The point reads both arrays whole and writes both
  one-row results whole, so after the region each result array holds the body's result on the arrays the region found;
  at (0, q) that is the sum over the 10000 rows r of the shifted, clipped entry (r, q), respectively of its square.
-/
import proofs.«135245_j16080357556243_1_alg».proof.Proof.Gen.KernelIdeal.Frame
import proofs.«135245_j16080357556243_1_alg».proof.Proof.LibNormStage
import proofs.«135245_j16080357556243_1_alg».proof.Proof.LibAxis0Sum

set_option maxRecDepth 16384

noncomputable section

namespace Cert.KernelIdeal.KReg6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The shifted, clipped block at an entry. -/
theorem shifted_apply (z : Vec Ideal S10000x256 .f32) (b : Vec Ideal S1x256 .f32) (r : Fin 10000) (q : Fin 256) :
    k6_pay1 z b (ix2 r q) = max (z (ix2 r q) + b (ix2 0 q)) 0 := by
  unfold k6_pay1
  simp only [addf_apply, maximumf_apply, rowTo_apply, shapeCast_self, broadcast_apply]
  have h0 : (FloatOps.ofBits (F := Ideal) FTy.f32 0#32 : EReal) = 0 := Ideal.ofBits_zero_f32
  rw [h0]

/-- The column sums at (0, q): the sum over the rows. -/
theorem sum_apply (z : Vec Ideal S10000x256 .f32) (b : Vec Ideal S1x256 .f32) (u : Fin 1) (q : Fin 256) :
    k6_pay2 z b (ix2 u q) = ∑ r : Fin 10000, max (z (ix2 r q) + b (ix2 0 q)) 0 := by
  unfold k6_pay2
  refine (rowCast_apply _ _ u q).trans ?_
  refine (Cert.LibAxis0Sum.colSum_apply _ _ _ _ _ q).trans ?_
  exact Finset.sum_congr rfl fun r _ => shifted_apply z b r q

/-- The column sums of the squares at (0, q). -/
theorem sumsq_apply (z : Vec Ideal S10000x256 .f32) (b : Vec Ideal S1x256 .f32) (u : Fin 1) (q : Fin 256) :
    k6_pay3 z b (ix2 u q) = ∑ r : Fin 10000, max (z (ix2 r q) + b (ix2 0 q)) 0 * max (z (ix2 r q) + b (ix2 0 q)) 0 := by
  unfold k6_pay3
  refine (rowCast_apply _ _ u q).trans ?_
  refine (Cert.LibAxis0Sum.colSum_apply _ _ _ _ _ q).trans ?_
  refine Finset.sum_congr rfl fun r _ => ?_
  rw [mulf_apply, shifted_apply]

/-- The index maps at the one grid point: every window sits at block (0, 0). -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

theorem emb0 (t : Fin cfg6.N) (y : S10000x256.Idx) : ((cfg6.win 0).blk t).view.emb y = y := by
  obtain ⟨e00, e01, e10, e11, e20, e21, e30, e31⟩ := idx_facts t
  funext a; apply Fin.ext
  match a with
  | ⟨0, _⟩ => show win6_0.index t (0 : Fin 2) * 10000 + 1 * (y 0).val = (y 0).val; omega
  | ⟨1, _⟩ => show win6_0.index t (1 : Fin 2) * 256 + 1 * (y 1).val = (y 1).val; omega
theorem emb1 (t : Fin cfg6.N) (y : S1x256.Idx) : ((cfg6.win 1).blk t).view.emb y = y := by
  obtain ⟨e00, e01, e10, e11, e20, e21, e30, e31⟩ := idx_facts t
  funext a; apply Fin.ext
  match a with
  | ⟨0, _⟩ => show win6_1.index t (0 : Fin 2) * 1 + 1 * (y 0).val = (y 0).val; omega
  | ⟨1, _⟩ => show win6_1.index t (1 : Fin 2) * 256 + 1 * (y 1).val = (y 1).val; omega
theorem emb2 (t : Fin cfg6.N) (y : S1x256.Idx) : ((cfg6.win 2).blk t).view.emb y = y := by
  obtain ⟨e00, e01, e10, e11, e20, e21, e30, e31⟩ := idx_facts t
  funext a; apply Fin.ext
  match a with
  | ⟨0, _⟩ => show win6_2.index t (0 : Fin 2) * 1 + 1 * (y 0).val = (y 0).val; omega
  | ⟨1, _⟩ => show win6_2.index t (1 : Fin 2) * 256 + 1 * (y 1).val = (y 1).val; omega
theorem emb3 (t : Fin cfg6.N) (y : S1x256.Idx) : ((cfg6.win 3).blk t).view.emb y = y := by
  obtain ⟨e00, e01, e10, e11, e20, e21, e30, e31⟩ := idx_facts t
  funext a; apply Fin.ext
  match a with
  | ⟨0, _⟩ => show win6_3.index t (0 : Fin 2) * 1 + 1 * (y 0).val = (y 0).val; omega
  | ⟨1, _⟩ => show win6_3.index t (1 : Fin 2) * 256 + 1 * (y 1).val = (y 1).val; omega

/-- The one point's block of the input array is the whole array. -/
theorem iblk_z (c : Dev nD) (t : Fin cfg6.N) : iblk6 V c 0 t = V c main_v79 := by
  funext y
  show V c main_v79 (((cfg6.win 0).blk t).view.emb y) = V c main_v79 y
  rw [emb0]

theorem iblk_b (c : Dev nD) (t : Fin cfg6.N) : iblk6 V c 1 t = V c main_v80 := by
  funext y
  show V c main_v80 (((cfg6.win 1).blk t).view.emb y) = V c main_v80 y
  rw [emb1]

/-- What the one point writes back through output window 2 is the whole of the column sums. -/
theorem flushed2_eq (c : Dev nD) (t : Fin cfg6.N) :
    (dat6 V c).flushed 2 t = ((cfg6.win 2).blk t).view.read (Elt Ideal) (k6_pay2 (V c main_v79) (V c main_v80)) := by
  show (cfg6.win 2).cut (grid6.coords t) ((dat6 V c).after 2 t) = _
  rw [after6_2]
  unfold out6_2
  rw [View.canon_unit_zero hz2]
  simp only [View.ld_unit_zero (S := S10000x256) hz2, View.ld_unit_zero (S := S1x256) hz2]
  rw [iblk_z V c t, iblk_b V c t]
  funext j
  show k6_pay2 (V c main_v79) (V c main_v80) j = k6_pay2 (V c main_v79) (V c main_v80) (((cfg6.win 2).blk t).view.emb j)
  rw [emb2]

theorem mem_blk2 (t : Fin cfg6.N) (i : S1x256.Idx) :
    i ∈ ((cfg6.win 2).blk t).view.set ↔ ∀ a : Fin 2, win6_2.index t a * S1x256.size a ≤ (i a).val ∧ (i a).val < win6_2.index t a * S1x256.size a + S1x256.size a := by
  show i ∈ ((View.whole main_v83_0).slice (win6_2.rect t)).set ↔ _
  rw [View.set_slice_whole, Rect.mem_set_unit]
  exact Iff.rfl

theorem cover2 (i : S1x256.Idx) :
    ∃ t : Fin cfg6.N, (cfg6.win 2).flush t = true ∧ i ∈ ((cfg6.win 2).blk t).view.set := by
  have hi0 : (i 0).val < 1 := (i 0).isLt
  have hi1 : (i 1).val < 256 := (i 1).isLt
  let t : Fin cfg6.N := ⟨0, by decide⟩
  obtain ⟨e00, e01, e10, e11, e20, e21, e30, e31⟩ := idx_facts t
  refine ⟨t, flush6_2 t, ?_⟩
  rw [mem_blk2]
  intro a
  match a with
  | ⟨0, _⟩ =>
    show win6_2.index t (0 : Fin 2) * 1 ≤ (i 0).val ∧ (i 0).val < win6_2.index t (0 : Fin 2) * 1 + 1
    omega
  | ⟨1, _⟩ =>
    show win6_2.index t (1 : Fin 2) * 256 ≤ (i 1).val ∧ (i 1).val < win6_2.index t (1 : Fin 2) * 256 + 256
    omega

/-- After the region output array 2 holds the body's result on the whole arrays the region found. -/
theorem final2 (c : Dev nD) : (dat6 V c).arrAt 2 cfg6.N = k6_pay2 (V c main_v79) (V c main_v80) :=
  (dat6 V c).arrAt_eq_of_cover 2 _ (fun t _ => flushed2_eq V c t) (cover2)

/-- What the one point writes back through output window 3 is the whole of the column sums. -/
theorem flushed3_eq (c : Dev nD) (t : Fin cfg6.N) :
    (dat6 V c).flushed 3 t = ((cfg6.win 3).blk t).view.read (Elt Ideal) (k6_pay3 (V c main_v79) (V c main_v80)) := by
  show (cfg6.win 3).cut (grid6.coords t) ((dat6 V c).after 3 t) = _
  rw [after6_3]
  unfold out6_3
  rw [View.canon_unit_zero hz2]
  simp only [View.ld_unit_zero (S := S10000x256) hz2, View.ld_unit_zero (S := S1x256) hz2]
  rw [iblk_z V c t, iblk_b V c t]
  funext j
  show k6_pay3 (V c main_v79) (V c main_v80) j = k6_pay3 (V c main_v79) (V c main_v80) (((cfg6.win 3).blk t).view.emb j)
  rw [emb3]

theorem mem_blk3 (t : Fin cfg6.N) (i : S1x256.Idx) :
    i ∈ ((cfg6.win 3).blk t).view.set ↔ ∀ a : Fin 2, win6_3.index t a * S1x256.size a ≤ (i a).val ∧ (i a).val < win6_3.index t a * S1x256.size a + S1x256.size a := by
  show i ∈ ((View.whole main_v83_1).slice (win6_3.rect t)).set ↔ _
  rw [View.set_slice_whole, Rect.mem_set_unit]
  exact Iff.rfl

theorem cover3 (i : S1x256.Idx) :
    ∃ t : Fin cfg6.N, (cfg6.win 3).flush t = true ∧ i ∈ ((cfg6.win 3).blk t).view.set := by
  have hi0 : (i 0).val < 1 := (i 0).isLt
  have hi1 : (i 1).val < 256 := (i 1).isLt
  let t : Fin cfg6.N := ⟨0, by decide⟩
  obtain ⟨e00, e01, e10, e11, e20, e21, e30, e31⟩ := idx_facts t
  refine ⟨t, flush6_3 t, ?_⟩
  rw [mem_blk3]
  intro a
  match a with
  | ⟨0, _⟩ =>
    show win6_3.index t (0 : Fin 2) * 1 ≤ (i 0).val ∧ (i 0).val < win6_3.index t (0 : Fin 2) * 1 + 1
    omega
  | ⟨1, _⟩ =>
    show win6_3.index t (1 : Fin 2) * 256 ≤ (i 1).val ∧ (i 1).val < win6_3.index t (1 : Fin 2) * 256 + 256
    omega

/-- After the region output array 3 holds the body's result on the whole arrays the region found. -/
theorem final3 (c : Dev nD) : (dat6 V c).arrAt 3 cfg6.N = k6_pay3 (V c main_v79) (V c main_v80) :=
  (dat6 V c).arrAt_eq_of_cover 3 _ (fun t _ => flushed3_eq V c t) (cover3)

end Cert.KernelIdeal.KReg6

end
-- ==== Proof.KReg7.lean ====
/-
  Region 7 of the idealized kernel: the per-column normalisation of an [10000, 256] array in ten row blocks of 1000.
  Each grid point reads its block of rows and the five one-row arrays (bias, gain, shift, mean, variance) whole, and
  writes back the block of the result; entry (r, q) of the result array is the normalised entry of z (r, q) with entry
  q of each row. The ten blocks tile the array, so after the region the array holds that function of the arrays the
  region found.
-/
import proofs.«135245_j16080357556243_1_alg».proof.Proof.Gen.KernelIdeal.Frame
import proofs.«135245_j16080357556243_1_alg».proof.Proof.LibNormStage
import Idealize.ShloMosaic.PureOps.Ideal.Laws

set_option maxRecDepth 16384

noncomputable section

namespace Cert.KernelIdeal.KReg7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNormStage

variable (V : (c : Dev nD) → (b : Ref sig .tc) → Buf (Elt Ideal) ((c : Thread nD τ).loc b))

theorem hz2 : (![0, 0] : Fin 2 → Nat) = fun _ => 0 := funext fun a => by fin_cases a <;> rfl

/-- The body's result at entry (p, q) of a block: the normalised entry. -/
theorem pay_apply (z : Vec Ideal S1000x256 .f32) (b g va be mu : Vec Ideal S1x256 .f32) (p : Fin 1000) (q : Fin 256) :
    k7_pay1 z b g va be mu (ix2 p q)
      = reluNormAt (z (ix2 p q)) (b (ix2 0 q)) (g (ix2 0 q)) (be (ix2 0 q)) (mu (ix2 0 q)) (va (ix2 0 q))
          (Ideal.ofBits .f32 0x3727C5AC#32) := by
  unfold k7_pay1 reluNormAt
  simp only [addf_apply, mulf_apply, subf_apply, maximumf_apply, rowTo_apply, shapeCast_self, broadcast_apply]
  have h0 : (FloatOps.ofBits (F := Ideal) FTy.f32 0#32 : EReal) = 0 := Ideal.ofBits_zero_f32
  rw [h0]
  rfl

/-- The whole result array as a function of the arrays the region reads. -/
def normArr (z : S10000x256.Idx → EReal) (b g be mu va : S1x256.Idx → EReal) : S10000x256.Idx → EReal := fun i =>
  reluNormAt (z i) (b (ix2 0 (i 1))) (g (ix2 0 (i 1))) (be (ix2 0 (i 1))) (mu (ix2 0 (i 1))) (va (ix2 0 (i 1)))
    (Ideal.ofBits .f32 0x3727C5AC#32)

/-- The index maps over the grid: the row-block windows sit at block (t, 0), the one-row windows at block (0, 0). -/
theorem idx_facts : ∀ t : Fin cfg7.N,
    win7_0.index t (0 : Fin 2) = t.val ∧ win7_0.index t (1 : Fin 2) = 0
    ∧ win7_6.index t (0 : Fin 2) = t.val ∧ win7_6.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- What point t writes back is block t of the normalised array of the arrays the region found. -/
theorem flushed_eq (c : Dev nD) (t : Fin cfg7.N) :
    (dat7 V c).flushed 6 t = ((cfg7.win 6).blk t).view.read (Elt Ideal)
      (normArr (V c main_v79) (V c main_v80) (V c main_v81) (V c main_v82) (V c main_v85) (V c main_v89)) := by
  show (cfg7.win 6).cut (grid7.coords t) ((dat7 V c).after 6 t) = _
  rw [after7_6]
  unfold out7_6
  rw [View.canon_unit_zero hz2]
  simp only [View.ld_unit_zero (S := S1000x256) hz2, View.ld_unit_zero (S := S1x256) hz2]
  obtain ⟨e00, e01, e60, e61, e10, e11, e20, e21, e30, e31, e40, e41, e50, e51⟩ := idx_facts t
  funext j
  obtain ⟨p, q, rfl⟩ : ∃ (p : Fin 1000) (q : Fin 256), j = ix2 p q := ⟨j 0, j 1, eq_ix2 j⟩
  show k7_pay1 (iblk7 V c 0 t) (iblk7 V c 1 t) (iblk7 V c 2 t) (iblk7 V c 5 t) (iblk7 V c 3 t) (iblk7 V c 4 t) (ix2 p q)
    = normArr (V c main_v79) (V c main_v80) (V c main_v81) (V c main_v82) (V c main_v85) (V c main_v89) (((cfg7.win 6).blk t).view.emb (ix2 p q))
  refine (pay_apply _ _ _ _ _ _ p q).trans ?_
  have h0 : iblk7 V c 0 t (ix2 p q) = V c main_v79 (((cfg7.win 6).blk t).view.emb (ix2 p q)) := by
    show V c main_v79 (((cfg7.win 0).blk t).view.emb (ix2 p q)) = _
    refine congrArg (V c main_v79) (funext fun a => Fin.ext ?_)
    match a with
    | ⟨0, _⟩ => show win7_0.index t (0 : Fin 2) * 1000 + 1 * p.val = win7_6.index t (0 : Fin 2) * 1000 + 1 * p.val; omega
    | ⟨1, _⟩ => show win7_0.index t (1 : Fin 2) * 256 + 1 * q.val = win7_6.index t (1 : Fin 2) * 256 + 1 * q.val; omega
  have h1 : iblk7 V c 1 t (ix2 0 q) = V c main_v80 (ix2 0 ((((cfg7.win 6).blk t).view.emb (ix2 p q)) 1)) := by
    show V c main_v80 (((cfg7.win 1).blk t).view.emb (ix2 0 q)) = _
    refine congrArg (V c main_v80) (funext fun a => Fin.ext ?_)
    match a with
    | ⟨0, _⟩ => show win7_1.index t (0 : Fin 2) * 1 + 1 * 0 = 0; omega
    | ⟨1, _⟩ => show win7_1.index t (1 : Fin 2) * 256 + 1 * q.val = win7_6.index t (1 : Fin 2) * 256 + 1 * q.val; omega
  have h2 : iblk7 V c 2 t (ix2 0 q) = V c main_v81 (ix2 0 ((((cfg7.win 6).blk t).view.emb (ix2 p q)) 1)) := by
    show V c main_v81 (((cfg7.win 2).blk t).view.emb (ix2 0 q)) = _
    refine congrArg (V c main_v81) (funext fun a => Fin.ext ?_)
    match a with
    | ⟨0, _⟩ => show win7_2.index t (0 : Fin 2) * 1 + 1 * 0 = 0; omega
    | ⟨1, _⟩ => show win7_2.index t (1 : Fin 2) * 256 + 1 * q.val = win7_6.index t (1 : Fin 2) * 256 + 1 * q.val; omega
  have h3 : iblk7 V c 3 t (ix2 0 q) = V c main_v82 (ix2 0 ((((cfg7.win 6).blk t).view.emb (ix2 p q)) 1)) := by
    show V c main_v82 (((cfg7.win 3).blk t).view.emb (ix2 0 q)) = _
    refine congrArg (V c main_v82) (funext fun a => Fin.ext ?_)
    match a with
    | ⟨0, _⟩ => show win7_3.index t (0 : Fin 2) * 1 + 1 * 0 = 0; omega
    | ⟨1, _⟩ => show win7_3.index t (1 : Fin 2) * 256 + 1 * q.val = win7_6.index t (1 : Fin 2) * 256 + 1 * q.val; omega
  have h4 : iblk7 V c 4 t (ix2 0 q) = V c main_v85 (ix2 0 ((((cfg7.win 6).blk t).view.emb (ix2 p q)) 1)) := by
    show V c main_v85 (((cfg7.win 4).blk t).view.emb (ix2 0 q)) = _
    refine congrArg (V c main_v85) (funext fun a => Fin.ext ?_)
    match a with
    | ⟨0, _⟩ => show win7_4.index t (0 : Fin 2) * 1 + 1 * 0 = 0; omega
    | ⟨1, _⟩ => show win7_4.index t (1 : Fin 2) * 256 + 1 * q.val = win7_6.index t (1 : Fin 2) * 256 + 1 * q.val; omega
  have h5 : iblk7 V c 5 t (ix2 0 q) = V c main_v89 (ix2 0 ((((cfg7.win 6).blk t).view.emb (ix2 p q)) 1)) := by
    show V c main_v89 (((cfg7.win 5).blk t).view.emb (ix2 0 q)) = _
    refine congrArg (V c main_v89) (funext fun a => Fin.ext ?_)
    match a with
    | ⟨0, _⟩ => show win7_5.index t (0 : Fin 2) * 1 + 1 * 0 = 0; omega
    | ⟨1, _⟩ => show win7_5.index t (1 : Fin 2) * 256 + 1 * q.val = win7_6.index t (1 : Fin 2) * 256 + 1 * q.val; omega
  rw [h0, h1, h2, h3, h4, h5]
  rfl

/-- An index of the array is in point t's block iff each coordinate is in the block's range on its axis. -/
theorem mem_blk (t : Fin cfg7.N) (i : S10000x256.Idx) :
    i ∈ ((cfg7.win 6).blk t).view.set ↔ ∀ a : Fin 2, win7_6.index t a * S1000x256.size a ≤ (i a).val ∧ (i a).val < win7_6.index t a * S1000x256.size a + S1000x256.size a := by
  show i ∈ ((View.whole main_v90).slice (win7_6.rect t)).set ↔ _
  rw [View.set_slice_whole, Rect.mem_set_unit]
  exact Iff.rfl

/-- Every entry of the array lies in the block of the point numbered by its row divided by 1000. -/
theorem cover (i : S10000x256.Idx) :
    ∃ t : Fin cfg7.N, (cfg7.win 6).flush t = true ∧ i ∈ ((cfg7.win 6).blk t).view.set := by
  have hi0 : (i 0).val < 10000 := (i 0).isLt
  have hi1 : (i 1).val < 256 := (i 1).isLt
  let t : Fin cfg7.N := ⟨(i 0).val / 1000, by show (i 0).val / 1000 < 10; omega⟩
  obtain ⟨e00, e01, e60, e61, -⟩ := idx_facts t
  refine ⟨t, flush7_6 t, ?_⟩
  rw [mem_blk]
  intro a
  match a with
  | ⟨0, _⟩ =>
    show win7_6.index t (0 : Fin 2) * 1000 ≤ (i 0).val ∧ (i 0).val < win7_6.index t (0 : Fin 2) * 1000 + 1000
    have : (t : Fin cfg7.N).val = (i 0).val / 1000 := rfl
    omega
  | ⟨1, _⟩ =>
    show win7_6.index t (1 : Fin 2) * 256 ≤ (i 1).val ∧ (i 1).val < win7_6.index t (1 : Fin 2) * 256 + 256
    omega

/-- After the region the result array holds the normalised array of the arrays the region found. -/
theorem final (c : Dev nD) : (dat7 V c).arrAt 6 cfg7.N
    = normArr (V c main_v79) (V c main_v80) (V c main_v81) (V c main_v82) (V c main_v85) (V c main_v89) :=
  (dat7 V c).arrAt_eq_of_cover 6 _ (fun t _ => flushed_eq V c t) (cover)

end Cert.KernelIdeal.KReg7

end
-- ==== Proof.KDefs.lean ====
/-
  What the idealized kernel computes, stage by stage, as functions of arrays on the extended reals: three per-column
  normalisations (each from the raw moments — column sums and column sums of squares over the 10000 rows — of the input
  shifted by a bias row and, in the last two, clipped below at zero), a matrix product, the weighted neighbourhood sums
  over the edge list with self loops, the plain neighbourhood sums, and a two-product layer; and their composition on
  the thirteen arguments.
-/
import proofs.«135245_j16080357556243_1_alg».proof.Proof.KSpec
import proofs.«135245_j16080357556243_1_alg».proof.Proof.KReg0
import proofs.«135245_j16080357556243_1_alg».proof.Proof.KReg1
import proofs.«135245_j16080357556243_1_alg».proof.Proof.KReg2
import proofs.«135245_j16080357556243_1_alg».proof.Proof.KReg3
import proofs.«135245_j16080357556243_1_alg».proof.Proof.KReg4
import proofs.«135245_j16080357556243_1_alg».proof.Proof.KReg5
import proofs.«135245_j16080357556243_1_alg».proof.Proof.KReg6
import proofs.«135245_j16080357556243_1_alg».proof.Proof.KReg7

noncomputable section

namespace Cert.KernelIdeal.KVal

open Idealize.ShloMosaic Cert.KernelIdeal
open Facts₀

instance : Cert.KernelIdeal.Facts := Cert.KernelIdeal.Gen.facts

/-- A vector of length 128 as a one-row array. -/
def row128 (v : FVec Ideal S128 .f32) : FVec Ideal S1x128 .f32 := shapeCast S1x128 v shapeCasts_S128_S1x128
/-- A vector of length 256 as a one-row array. -/
def row256 (v : FVec Ideal S256 .f32) : FVec Ideal S1x256 .f32 := shapeCast S1x256 v shapeCasts_S256_S1x256
/-- The zero vector of length 128. -/
def zeros128 : FVec Ideal S128 .f32 := broadcastInDim S128 ![] bcast_S_S128 (constant (F := Ideal) S_ .f32 0x00000000#32)
/-- The zero vector of length 256. -/
def zeros256 : FVec Ideal S256 .f32 := broadcastInDim S256 ![] bcast_S_S256 (constant (F := Ideal) S_ .f32 0x00000000#32)
/-- The row of column means from the row of column sums: each sum over 10000. -/
def mean128 (s : FVec Ideal S1x128 .f32) : FVec Ideal S1x128 .f32 :=
  Host.divf (F := Ideal) s (broadcastInDim S1x128 ![] bcast_S_S1x128 (constant (F := Ideal) S_ .f32 0x461C4000#32))
/-- The row of column variances from the raw moments: the mean of squares less the squared mean. -/
def var128 (s q : FVec Ideal S1x128 .f32) : FVec Ideal S1x128 .f32 :=
  subf (F := Ideal) (Host.divf (F := Ideal) q (broadcastInDim S1x128 ![] bcast_S_S1x128 (constant (F := Ideal) S_ .f32 0x461C4000#32))) (mulf (F := Ideal) (mean128 s) (mean128 s))
/-- The same at width 256. -/
def mean256 (s : FVec Ideal S1x256 .f32) : FVec Ideal S1x256 .f32 :=
  Host.divf (F := Ideal) s (broadcastInDim S1x256 ![] bcast_S_S1x256 (constant (F := Ideal) S_ .f32 0x461C4000#32))
def var256 (s q : FVec Ideal S1x256 .f32) : FVec Ideal S1x256 .f32 :=
  subf (F := Ideal) (Host.divf (F := Ideal) q (broadcastInDim S1x256 ![] bcast_S_S1x256 (constant (F := Ideal) S_ .f32 0x461C4000#32))) (mulf (F := Ideal) (mean256 s) (mean256 s))

/-- The first normalisation: the input with a zero bias row, no clip. -/
def norm0 (x : FVec Ideal S10000x128 .f32) (g b : FVec Ideal S128 .f32) : FVec Ideal S10000x128 .f32 :=
  KReg1.normArr x (row128 zeros128) (row128 g) (row128 b)
    (mean128 (Gen.k0_pay2 x (row128 zeros128)))
    (var128 (Gen.k0_pay2 x (row128 zeros128)) (Gen.k0_pay3 x (row128 zeros128)))

/-- The product with the 128 × 256 matrix. -/
def lin1 (xn : FVec Ideal S10000x128 .f32) (W : FVec Ideal S128x256 .f32) : FVec Ideal S10000x256 .f32 := KReg2.prodArr xn W

/-- The weighted neighbourhood sums of that product (the bias is added by the next stage). -/
def conv1 (xn : FVec Ideal S10000x128 .f32) (e : Vec Ideal S2x320000 .i32) (W : FVec Ideal S128x256 .f32) :
    FVec Ideal S10000x256 .f32 := KSpec.aggregate1 (lin1 xn W) e

/-- The second normalisation: bias, clip at zero, normalise. -/
def norm1 (z : FVec Ideal S10000x256 .f32) (bias g b : FVec Ideal S256 .f32) : FVec Ideal S10000x256 .f32 :=
  KReg4.normArr z (row256 bias) (row256 g) (row256 b)
    (mean256 (Gen.k3_pay2 z (row256 bias)))
    (var256 (Gen.k3_pay2 z (row256 bias)) (Gen.k3_pay3 z (row256 bias)))

/-- The second convolution: the neighbourhood sums times one matrix plus the input times another, plus the bias. -/
def conv2 (h : FVec Ideal S10000x256 .f32) (e : Vec Ideal S2x320000 .i32) (Wrel : FVec Ideal S256x256 .f32)
    (brel : FVec Ideal S256 .f32) (Wroot : FVec Ideal S256x256 .f32) : FVec Ideal S10000x256 .f32 :=
  KReg5.prodArr (KSpec.aggregate2 h e) Wrel h Wroot (row256 brel)

/-- The third normalisation: zero bias, clip at zero, normalise. -/
def norm2 (z : FVec Ideal S10000x256 .f32) (g b : FVec Ideal S256 .f32) : FVec Ideal S10000x256 .f32 :=
  KReg7.normArr z (row256 zeros256) (row256 g) (row256 b)
    (mean256 (Gen.k6_pay2 z (row256 zeros256)))
    (var256 (Gen.k6_pay2 z (row256 zeros256)) (Gen.k6_pay3 z (row256 zeros256)))

/-- What the program returns, of its thirteen arguments in order. -/
def kerOut (x : FVec Ideal S10000x128 .f32) (e : Vec Ideal S2x320000 .i32) (g0 b0 : FVec Ideal S128 .f32)
    (W1 : FVec Ideal S128x256 .f32) (b1 g1 be1 : FVec Ideal S256 .f32)
    (Wrel : FVec Ideal S256x256 .f32) (brel : FVec Ideal S256 .f32) (Wroot : FVec Ideal S256x256 .f32)
    (g2 b2 : FVec Ideal S256 .f32) : FVec Ideal S10000x256 .f32 :=
  norm2 (conv2 (norm1 (conv1 (norm0 x g0 b0) e W1) b1 g1 be1) e Wrel brel Wroot) g2 b2

end Cert.KernelIdeal.KVal

end
-- ==== Proof.KKeepA.lean ====
/-
  Buffers no segment writes, between two boundaries of the idealized kernel's program: the thirteen arguments read back
  from the boundary where a stage consumes them to the launch memory. A host stretch that does not write a buffer
  leaves it; a region leaves every buffer that is not one of its arrays, and leaves an input array as it found it.
-/
import proofs.«135245_j16080357556243_1_alg».proof.Proof.Gen.KernelIdeal.Frame
import Idealize.ShloMosaic.Lib.ValueIdx
import Idealize.ShloMosaic.Lib.StableHlo.Run

set_option maxRecDepth 16384

noncomputable section

namespace Cert.KernelIdeal.KKeep

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg1_4_0 (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg4_7_0 (c : Dev nD) : W7 m ρ c (Proc.devRef .tc main_arg4) = W0 m ρ c (Proc.devRef .tc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg5_8_0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg8_13_0 (c : Dev nD) : W13 m ρ c (Proc.devRef .tc main_arg8) = W0 m ρ c (Proc.devRef .tc main_arg8) :=
  calc W13 m ρ c (Proc.devRef .tc main_arg8)
    _ = W12 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg10_13_0 (c : Dev nD) : W13 m ρ c (Proc.devRef .tc main_arg10) = W0 m ρ c (Proc.devRef .tc main_arg10) :=
  calc W13 m ρ c (Proc.devRef .tc main_arg10)
    _ = W12 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := StableHlo.after_of_forall_not_mem (b := Proc.devRef .tc main_arg10) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg9_12_0 (c : Dev nD) : W12 m ρ c (Proc.devRef .tc main_arg9) = W0 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg11_14_0 (c : Dev nD) : W14 m ρ c (Proc.devRef .tc main_arg11) = W0 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := StableHlo.after_of_forall_not_mem (b := Proc.devRef .tc main_arg11) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg12_14_0 (c : Dev nD) : W14 m ρ c (Proc.devRef .tc main_arg12) = W0 m ρ c (Proc.devRef .tc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := StableHlo.after_of_forall_not_mem (b := Proc.devRef .tc main_arg12) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KKeep

end
-- ==== Proof.KKeepB.lean ====
/-
  Buffers no segment writes, between two boundaries of the idealized kernel's program: each intermediate array read back
  from the boundary where a later stage consumes it to the boundary right after the stage that produced it.
-/
import proofs.«135245_j16080357556243_1_alg».proof.Proof.Gen.KernelIdeal.Frame
import Idealize.ShloMosaic.Lib.ValueIdx
import Idealize.ShloMosaic.Lib.StableHlo.Run

set_option maxRecDepth 16384

noncomputable section

namespace Cert.KernelIdeal.KKeep

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem keep_v2_3_1 (c : Dev nD) : W3 m ρ c (Proc.devRef .tc main_v2) = W1 m ρ c (Proc.devRef .tc main_v2) :=
  calc W3 m ρ c (Proc.devRef .tc main_v2)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := (W2_arr m ρ c 1).trans (((dat0 (V1 m ρ) c).arrAt_in 1 rfl _).trans (A_eq0 (V1 m ρ) c 1))

theorem keep_v3_3_1 (c : Dev nD) : W3 m ρ c (Proc.devRef .tc main_v3) = W1 m ρ c (Proc.devRef .tc main_v3) :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_v4_3_1 (c : Dev nD) : W3 m ρ c (Proc.devRef .tc main_v4) = W1 m ρ c (Proc.devRef .tc main_v4) :=
  calc W3 m ρ c (Proc.devRef .tc main_v4)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)

theorem keep_v12_7_4 (c : Dev nD) : W7 m ρ c (Proc.devRef .tc main_v12) = W4 m ρ c (Proc.devRef .tc main_v12) :=
  calc W7 m ρ c (Proc.devRef .tc main_v12)
    _ = W6 m ρ c (Proc.devRef .tc main_v12) := StableHlo.after_of_forall_not_mem (b := Proc.devRef .tc main_v12) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v12) := StableHlo.after_of_forall_not_mem (b := Proc.devRef .tc main_v12) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v42_8_7 (c : Dev nD) : W8 m ρ c (Proc.devRef .tc main_v42) = W7 m ρ c (Proc.devRef .tc main_v42) :=
  calc W8 m ρ c (Proc.devRef .tc main_v42)
    _ = W7 m ρ c (Proc.devRef .tc main_v42) := W8_of_ne m ρ c main_v42 (by decide)

theorem keep_v18_8_5 (c : Dev nD) : W8 m ρ c (Proc.devRef .tc main_v18) = W5 m ρ c (Proc.devRef .tc main_v18) :=
  calc W8 m ρ c (Proc.devRef .tc main_v18)
    _ = W7 m ρ c (Proc.devRef .tc main_v18) := W8_of_ne m ρ c main_v18 (by decide)
    _ = W6 m ρ c (Proc.devRef .tc main_v18) := StableHlo.after_of_forall_not_mem (b := Proc.devRef .tc main_v18) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v18) := StableHlo.after_of_forall_not_mem (b := Proc.devRef .tc main_v18) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v19_8_5 (c : Dev nD) : W8 m ρ c (Proc.devRef .tc main_v19) = W5 m ρ c (Proc.devRef .tc main_v19) :=
  calc W8 m ρ c (Proc.devRef .tc main_v19)
    _ = W7 m ρ c (Proc.devRef .tc main_v19) := W8_of_ne m ρ c main_v19 (by decide)
    _ = W6 m ρ c (Proc.devRef .tc main_v19) := StableHlo.after_of_forall_not_mem (b := Proc.devRef .tc main_v19) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v19) := StableHlo.after_of_forall_not_mem (b := Proc.devRef .tc main_v19) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v14_12_5 (c : Dev nD) : W12 m ρ c (Proc.devRef .tc main_v14) = W5 m ρ c (Proc.devRef .tc main_v14) :=
  calc W12 m ρ c (Proc.devRef .tc main_v14)
    _ = W11 m ρ c (Proc.devRef .tc main_v14) := W12_of_ne m ρ c main_v14 (by decide)
    _ = W10 m ρ c (Proc.devRef .tc main_v14) := StableHlo.after_of_forall_not_mem (b := Proc.devRef .tc main_v14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v14) := W10_of_ne m ρ c main_v14 (by decide)
    _ = W8 m ρ c (Proc.devRef .tc main_v14) := StableHlo.after_of_forall_not_mem (b := Proc.devRef .tc main_v14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := W8_of_ne m ρ c main_v14 (by decide)
    _ = W6 m ρ c (Proc.devRef .tc main_v14) := StableHlo.after_of_forall_not_mem (b := Proc.devRef .tc main_v14) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := StableHlo.after_of_forall_not_mem (b := Proc.devRef .tc main_v14) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v16_12_5 (c : Dev nD) : W12 m ρ c (Proc.devRef .tc main_v16) = W5 m ρ c (Proc.devRef .tc main_v16) :=
  calc W12 m ρ c (Proc.devRef .tc main_v16)
    _ = W11 m ρ c (Proc.devRef .tc main_v16) := W12_of_ne m ρ c main_v16 (by decide)
    _ = W10 m ρ c (Proc.devRef .tc main_v16) := StableHlo.after_of_forall_not_mem (b := Proc.devRef .tc main_v16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v16) := W10_of_ne m ρ c main_v16 (by decide)
    _ = W8 m ρ c (Proc.devRef .tc main_v16) := StableHlo.after_of_forall_not_mem (b := Proc.devRef .tc main_v16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v16) := W8_of_ne m ρ c main_v16 (by decide)
    _ = W6 m ρ c (Proc.devRef .tc main_v16) := StableHlo.after_of_forall_not_mem (b := Proc.devRef .tc main_v16) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v16) := StableHlo.after_of_forall_not_mem (b := Proc.devRef .tc main_v16) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v56_11_9 (c : Dev nD) : W11 m ρ c (Proc.devRef .tc main_v56) = W9 m ρ c (Proc.devRef .tc main_v56) :=
  calc W11 m ρ c (Proc.devRef .tc main_v56)
    _ = W10 m ρ c (Proc.devRef .tc main_v56) := StableHlo.after_of_forall_not_mem (b := Proc.devRef .tc main_v56) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v56) := (W10_arr m ρ c 0).trans (((dat3 (V9 m ρ) c).arrAt_in 0 rfl _).trans (A_eq3 (V9 m ρ) c 0))

theorem keep_v57_11_9 (c : Dev nD) : W11 m ρ c (Proc.devRef .tc main_v57) = W9 m ρ c (Proc.devRef .tc main_v57) :=
  calc W11 m ρ c (Proc.devRef .tc main_v57)
    _ = W10 m ρ c (Proc.devRef .tc main_v57) := StableHlo.after_of_forall_not_mem (b := Proc.devRef .tc main_v57) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v57) := (W10_arr m ρ c 1).trans (((dat3 (V9 m ρ) c).arrAt_in 1 rfl _).trans (A_eq3 (V9 m ρ) c 1))

theorem keep_v58_11_9 (c : Dev nD) : W11 m ρ c (Proc.devRef .tc main_v58) = W9 m ρ c (Proc.devRef .tc main_v58) :=
  calc W11 m ρ c (Proc.devRef .tc main_v58)
    _ = W10 m ρ c (Proc.devRef .tc main_v58) := StableHlo.after_of_forall_not_mem (b := Proc.devRef .tc main_v58) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v58) := W10_of_ne m ρ c main_v58 (by decide)

theorem keep_v59_11_9 (c : Dev nD) : W11 m ρ c (Proc.devRef .tc main_v59) = W9 m ρ c (Proc.devRef .tc main_v59) :=
  calc W11 m ρ c (Proc.devRef .tc main_v59)
    _ = W10 m ρ c (Proc.devRef .tc main_v59) := StableHlo.after_of_forall_not_mem (b := Proc.devRef .tc main_v59) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v59) := W10_of_ne m ρ c main_v59 (by decide)

theorem keep_v67_13_12 (c : Dev nD) : W13 m ρ c (Proc.devRef .tc main_v67) = W12 m ρ c (Proc.devRef .tc main_v67) :=
  calc W13 m ρ c (Proc.devRef .tc main_v67)
    _ = W12 m ρ c (Proc.devRef .tc main_v67) := StableHlo.after_of_forall_not_mem (b := Proc.devRef .tc main_v67) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_14_1 (c : Dev nD) : W14 m ρ c (Proc.devRef .tc main_v1) = W1 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_v79_15_14 (c : Dev nD) : W15 m ρ c (Proc.devRef .tc main_v79) = W14 m ρ c (Proc.devRef .tc main_v79) :=
  calc W15 m ρ c (Proc.devRef .tc main_v79)
    _ = W14 m ρ c (Proc.devRef .tc main_v79) := StableHlo.after_of_forall_not_mem (b := Proc.devRef .tc main_v79) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v79_17_14 (c : Dev nD) : W17 m ρ c (Proc.devRef .tc main_v79) = W14 m ρ c (Proc.devRef .tc main_v79) :=
  calc W17 m ρ c (Proc.devRef .tc main_v79)
    _ = W16 m ρ c (Proc.devRef .tc main_v79) := StableHlo.after_of_forall_not_mem (b := Proc.devRef .tc main_v79) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v79) := (W16_arr m ρ c 0).trans (((dat6 (V15 m ρ) c).arrAt_in 0 rfl _).trans (A_eq6 (V15 m ρ) c 0))
    _ = W14 m ρ c (Proc.devRef .tc main_v79) := StableHlo.after_of_forall_not_mem (b := Proc.devRef .tc main_v79) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v80_17_15 (c : Dev nD) : W17 m ρ c (Proc.devRef .tc main_v80) = W15 m ρ c (Proc.devRef .tc main_v80) :=
  calc W17 m ρ c (Proc.devRef .tc main_v80)
    _ = W16 m ρ c (Proc.devRef .tc main_v80) := StableHlo.after_of_forall_not_mem (b := Proc.devRef .tc main_v80) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v80) := (W16_arr m ρ c 1).trans (((dat6 (V15 m ρ) c).arrAt_in 1 rfl _).trans (A_eq6 (V15 m ρ) c 1))

theorem keep_v81_17_15 (c : Dev nD) : W17 m ρ c (Proc.devRef .tc main_v81) = W15 m ρ c (Proc.devRef .tc main_v81) :=
  calc W17 m ρ c (Proc.devRef .tc main_v81)
    _ = W16 m ρ c (Proc.devRef .tc main_v81) := StableHlo.after_of_forall_not_mem (b := Proc.devRef .tc main_v81) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v81) := W16_of_ne m ρ c main_v81 (by decide)

theorem keep_v82_17_15 (c : Dev nD) : W17 m ρ c (Proc.devRef .tc main_v82) = W15 m ρ c (Proc.devRef .tc main_v82) :=
  calc W17 m ρ c (Proc.devRef .tc main_v82)
    _ = W16 m ρ c (Proc.devRef .tc main_v82) := StableHlo.after_of_forall_not_mem (b := Proc.devRef .tc main_v82) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v82) := W16_of_ne m ρ c main_v82 (by decide)

end Cert.KernelIdeal.KKeep

end
-- ==== Proof.KHost.lean ====
/-
  The kernel program's host stretches that handle the edge list, read as functions of the buffer contents before them:
  the sources and targets of the edges with one self loop per node appended, the edge weights (the product of the
  guarded inverse roots of the in-degrees at an edge's two ends), the weighted neighbourhood sums of a matrix's rows,
  the plain neighbourhood sums, and the bias, gain and shift vectors recast as one-row arrays. Each statement is for an
  arbitrary assignment of contents to the buffers: the stretch's fold at the buffer it writes is the composition of its
  operations on the contents of the buffers it reads.
-/
import proofs.«135245_j16080357556243_1_alg».proof.Proof.Gen.KernelIdeal.Launch
import proofs.«135245_j16080357556243_1_alg».proof.Proof.KDefs
import Idealize.ShloMosaic.Lib.StableHlo.Run

noncomputable section

namespace Cert.KernelIdeal.KHost

open Idealize.ShloMosaic Idealize.ShloMosaic.StableHlo Cert.KernelIdeal Cert.KernelIdeal.Gen Cert.KernelIdeal.KVal

variable (V : Valuation τ sig (Elt Ideal))

/-- The weighted neighbourhood sums from the weights and the two index lists. -/
def aggOf (y : FVec Ideal S10000x256 .f32) (w : FVec Ideal S330000 .f32) (srcl dstl : Vec Ideal S330000 .i32) :
    FVec Ideal S10000x256 .f32 :=
  Host.scatterAdd scatter_S10000x256_S330000x1_S330000x256_1_0_0_1
    (broadcastInDim S10000x256 ![] Facts₀.bcast_S_S10000x256 (KSpec.zero : Vec Ideal S_ .f32))
    (KSpec.col330 dstl)
    (mulf (broadcastInDim S330000x256 ![0, 1] Facts₀.bcast_S330000x1_S330000x256_0_1
        (broadcastInDim S330000x1 ![0] Facts₀.bcast_S330000_S330000x1_0 w))
      (Host.gather gather_S10000x256_S330000x1_S330000x256_1_0_n_n_0_1_1256 y (KSpec.col330 (KSpec.wrap330 srcl))))

theorem aggOf_eq (y : FVec Ideal S10000x256 .f32) (e : Vec Ideal S2x320000 .i32) :
    aggOf y (KSpec.edgeWeight e) (KSpec.withLoops (KSpec.srcIdx e)) (KSpec.withLoops (KSpec.dstIdx e)) = KSpec.aggregate1 y e := rfl

/-- The plain neighbourhood sums from the two index lists. -/
def agg2Of (h : FVec Ideal S10000x256 .f32) (src dst : Vec Ideal S320000 .i32) : FVec Ideal S10000x256 .f32 :=
  Host.scatterAdd scatter_S10000x256_S320000x1_S320000x256_1_0_0_1
    (broadcastInDim S10000x256 ![] Facts₀.bcast_S_S10000x256 (KSpec.zero : Vec Ideal S_ .f32))
    (KSpec.col320 dst)
    (Host.gather gather_S10000x256_S320000x1_S320000x256_1_0_n_n_0_1_1256 h (KSpec.col320 (KSpec.wrap320 src)))

theorem agg2Of_eq (h : FVec Ideal S10000x256 .f32) (e : Vec Ideal S2x320000 .i32) :
    agg2Of h (KSpec.srcIdx e) (KSpec.dstIdx e) = KSpec.aggregate2 h e := rfl

attribute [local irreducible] Host.gather Host.scatterAdd in
set_option maxRecDepth 8192 in
set_option maxHeartbeats 2000000 in
theorem h2_v14 : after hostOps2 V (Proc.devRef .tc main_v14) = KSpec.srcIdx (V (Proc.devRef .tc main_arg1)) := by
  simp only [after_cons, after_nil]
  rfl

attribute [local irreducible] Host.gather Host.scatterAdd in
set_option maxRecDepth 8192 in
set_option maxHeartbeats 2000000 in
theorem h2_v16 : after hostOps2 V (Proc.devRef .tc main_v16) = KSpec.dstIdx (V (Proc.devRef .tc main_arg1)) := by
  simp only [after_cons, after_nil]
  rfl

attribute [local irreducible] Host.gather Host.scatterAdd in
set_option maxRecDepth 8192 in
set_option maxHeartbeats 2000000 in
theorem h2_v18 : after hostOps2 V (Proc.devRef .tc main_v18) = KSpec.withLoops (KSpec.srcIdx (V (Proc.devRef .tc main_arg1))) := by
  simp only [after_cons, after_nil]
  rfl

attribute [local irreducible] Host.gather Host.scatterAdd in
set_option maxRecDepth 8192 in
set_option maxHeartbeats 2000000 in
theorem h2_v19 : after hostOps2 V (Proc.devRef .tc main_v19) = KSpec.withLoops (KSpec.dstIdx (V (Proc.devRef .tc main_arg1))) := by
  simp only [after_cons, after_nil]
  rfl

attribute [local irreducible] Host.gather Host.scatterAdd in
set_option maxRecDepth 8192 in
set_option maxHeartbeats 2000000 in
theorem h2_v42 : after hostOps2_2 (after hostOps2_1 (after hostOps2 V)) (Proc.devRef .tc main_v42)
    = KSpec.edgeWeight (V (Proc.devRef .tc main_arg1)) := by
  simp only [after_cons, after_nil]
  rfl

attribute [local irreducible] Host.gather Host.scatterAdd in
set_option maxRecDepth 8192 in
set_option maxHeartbeats 2000000 in
theorem h3_v56 : after hostOps3 V (Proc.devRef .tc main_v56)
    = aggOf (V (Proc.devRef .tc main_v43)) (V (Proc.devRef .tc main_v42)) (V (Proc.devRef .tc main_v18)) (V (Proc.devRef .tc main_v19)) := by
  simp only [after_cons, after_nil]
  rfl

attribute [local irreducible] Host.gather Host.scatterAdd in
set_option maxRecDepth 8192 in
theorem h3_v57 : after hostOps3 V (Proc.devRef .tc main_v57) = row256 (V (Proc.devRef .tc main_arg5)) := by
  simp only [after_cons, after_nil]
  rfl

attribute [local irreducible] Host.gather Host.scatterAdd in
set_option maxRecDepth 8192 in
theorem h3_v58 : after hostOps3 V (Proc.devRef .tc main_v58) = row256 (V (Proc.devRef .tc main_arg6)) := by
  simp only [after_cons, after_nil]
  rfl

attribute [local irreducible] Host.gather Host.scatterAdd in
set_option maxRecDepth 8192 in
theorem h3_v59 : after hostOps3 V (Proc.devRef .tc main_v59) = row256 (V (Proc.devRef .tc main_arg7)) := by
  simp only [after_cons, after_nil]
  rfl

attribute [local irreducible] Host.gather Host.scatterAdd in
set_option maxRecDepth 8192 in
set_option maxHeartbeats 2000000 in
theorem h5_v77 : after hostOps5 V (Proc.devRef .tc main_v77)
    = agg2Of (V (Proc.devRef .tc main_v67)) (V (Proc.devRef .tc main_v14)) (V (Proc.devRef .tc main_v16)) := by
  simp only [after_cons, after_nil]
  rfl

attribute [local irreducible] Host.gather Host.scatterAdd in
set_option maxRecDepth 8192 in
theorem h5_v78 : after hostOps5 V (Proc.devRef .tc main_v78) = row256 (V (Proc.devRef .tc main_arg9)) := by
  simp only [after_cons, after_nil]
  rfl

end Cert.KernelIdeal.KHost

end
-- ==== Proof.KVal.lean ====
/-
  The result of the idealized kernel's program as a function of its arguments. The buffer contents at each segment
  boundary are read off one stage at a time: a host stretch's result is its operations applied to the contents before
  it; a region's output array is the region's function of the arrays it found (the per-region modules); a buffer that a
  segment does not write is carried across it. Composed from the launch memory to the last region, the result buffer
  holds the composition of the seven stages on the thirteen arguments.
-/
import proofs.«135245_j16080357556243_1_alg».proof.Proof.Gen.KernelIdeal.Frame
import proofs.«135245_j16080357556243_1_alg».proof.Proof.KDefs
import proofs.«135245_j16080357556243_1_alg».proof.Proof.KKeepA
import proofs.«135245_j16080357556243_1_alg».proof.Proof.KKeepB
import proofs.«135245_j16080357556243_1_alg».proof.Proof.KHost
import Idealize.ShloMosaic.Lib.ValueIdx
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

open Cert.KernelIdeal.KKeep

/-! ## Before region 0: the zero bias rows and the gain and shift rows -/

theorem val_v2 (c : Dev nD) : W1 m ρ c (Proc.devRef .tc main_v2) = row128 zeros128 := by
  show StableHlo.after hostOps0 (W0 m ρ c) (Proc.devRef .tc main_v2) = _
  after_results
  rfl

theorem val_v3 (c : Dev nD) : W1 m ρ c (Proc.devRef .tc main_v3) = row128 (m ((c : Thread nD τ).loc main_arg2)) := by
  show StableHlo.after hostOps0 (W0 m ρ c) (Proc.devRef .tc main_v3) = _
  after_results
  rfl

theorem val_v4 (c : Dev nD) : W1 m ρ c (Proc.devRef .tc main_v4) = row128 (m ((c : Thread nD τ).loc main_arg3)) := by
  show StableHlo.after hostOps0 (W0 m ρ c) (Proc.devRef .tc main_v4) = _
  after_results
  rfl

theorem val_v1 (c : Dev nD) : W1 m ρ c (Proc.devRef .tc main_v1) = zeros256 := by
  show StableHlo.after hostOps0 (W0 m ρ c) (Proc.devRef .tc main_v1) = _
  after_results
  rfl

/-! ## Region 0 and the moments' host arithmetic -/

theorem val_v5_0 (c : Dev nD) : W2 m ρ c (Proc.devRef .tc main_v5_0) = k0_pay2 (F := Ideal) (m ((c : Thread nD τ).loc main_arg0)) (row128 zeros128) := by
  refine (W2_arr m ρ c 2).trans ?_
  rw [KReg0.final2 (V1 m ρ) c]
  exact congrArg₂ (fun a b => k0_pay2 (F := Ideal) a b) (keep_arg0_1_0 m ρ c) (val_v2 m ρ c)

theorem val_v5_1 (c : Dev nD) : W2 m ρ c (Proc.devRef .tc main_v5_1) = k0_pay3 (F := Ideal) (m ((c : Thread nD τ).loc main_arg0)) (row128 zeros128) := by
  refine (W2_arr m ρ c 3).trans ?_
  rw [KReg0.final3 (V1 m ρ) c]
  exact congrArg₂ (fun a b => k0_pay3 (F := Ideal) a b) (keep_arg0_1_0 m ρ c) (val_v2 m ρ c)

theorem val_v7 (c : Dev nD) : W3 m ρ c (Proc.devRef .tc main_v7) = mean128 (k0_pay2 (F := Ideal) (m ((c : Thread nD τ).loc main_arg0)) (row128 zeros128)) := by
  show StableHlo.after hostOps1 (W2 m ρ c) (Proc.devRef .tc main_v7) = _
  after_results
  exact congrArg mean128 (val_v5_0 m ρ c)

theorem val_v11 (c : Dev nD) : W3 m ρ c (Proc.devRef .tc main_v11)
    = var128 (k0_pay2 (F := Ideal) (m ((c : Thread nD τ).loc main_arg0)) (row128 zeros128)) (k0_pay3 (F := Ideal) (m ((c : Thread nD τ).loc main_arg0)) (row128 zeros128)) := by
  show StableHlo.after hostOps1 (W2 m ρ c) (Proc.devRef .tc main_v11) = _
  after_results
  exact congrArg₂ var128 (val_v5_0 m ρ c) (val_v5_1 m ρ c)

/-! ## Region 1: the first normalisation -/

theorem val_v12 (c : Dev nD) : W4 m ρ c (Proc.devRef .tc main_v12) = norm0 (m ((c : Thread nD τ).loc main_arg0)) (m ((c : Thread nD τ).loc main_arg2)) (m ((c : Thread nD τ).loc main_arg3)) := by
  refine (W4_arr m ρ c 6).trans ?_
  rw [KReg1.final (V3 m ρ) c]
  unfold norm0
  have e0 : V3 m ρ c main_arg0 = (m ((c : Thread nD τ).loc main_arg0)) := keep_arg0_3_0 m ρ c
  have e1 : V3 m ρ c main_v2 = row128 zeros128 := (keep_v2_3_1 m ρ c).trans (val_v2 m ρ c)
  have e2 : V3 m ρ c main_v3 = row128 (m ((c : Thread nD τ).loc main_arg2)) := (keep_v3_3_1 m ρ c).trans (val_v3 m ρ c)
  have e3 : V3 m ρ c main_v4 = row128 (m ((c : Thread nD τ).loc main_arg3)) := (keep_v4_3_1 m ρ c).trans (val_v4 m ρ c)
  have e4 : V3 m ρ c main_v7 = _ := val_v7 m ρ c
  have e5 : V3 m ρ c main_v11 = _ := val_v11 m ρ c
  rw [e0, e1, e2, e3, e4, e5]

/-! ## The edge list, the degrees and the edge weights -/

theorem val_v14 (c : Dev nD) : W5 m ρ c (Proc.devRef .tc main_v14) = KSpec.srcIdx (m ((c : Thread nD τ).loc main_arg1)) :=
  (KHost.h2_v14 (W4 m ρ c)).trans (congrArg KSpec.srcIdx (keep_arg1_4_0 m ρ c))

theorem val_v16 (c : Dev nD) : W5 m ρ c (Proc.devRef .tc main_v16) = KSpec.dstIdx (m ((c : Thread nD τ).loc main_arg1)) :=
  (KHost.h2_v16 (W4 m ρ c)).trans (congrArg KSpec.dstIdx (keep_arg1_4_0 m ρ c))

theorem val_v18 (c : Dev nD) : W5 m ρ c (Proc.devRef .tc main_v18) = KSpec.withLoops (KSpec.srcIdx (m ((c : Thread nD τ).loc main_arg1))) :=
  (KHost.h2_v18 (W4 m ρ c)).trans (congrArg (fun e => KSpec.withLoops (KSpec.srcIdx e)) (keep_arg1_4_0 m ρ c))

theorem val_v19 (c : Dev nD) : W5 m ρ c (Proc.devRef .tc main_v19) = KSpec.withLoops (KSpec.dstIdx (m ((c : Thread nD τ).loc main_arg1))) :=
  (KHost.h2_v19 (W4 m ρ c)).trans (congrArg (fun e => KSpec.withLoops (KSpec.dstIdx e)) (keep_arg1_4_0 m ρ c))

theorem val_v42 (c : Dev nD) : W7 m ρ c (Proc.devRef .tc main_v42) = KSpec.edgeWeight (m ((c : Thread nD τ).loc main_arg1)) :=
  (KHost.h2_v42 (W4 m ρ c)).trans (congrArg KSpec.edgeWeight (keep_arg1_4_0 m ρ c))

/-! ## Region 2 and the weighted neighbourhood sums -/

theorem val_v43 (c : Dev nD) : W8 m ρ c (Proc.devRef .tc main_v43) = lin1 (norm0 (m ((c : Thread nD τ).loc main_arg0)) (m ((c : Thread nD τ).loc main_arg2)) (m ((c : Thread nD τ).loc main_arg3))) (m ((c : Thread nD τ).loc main_arg4)) := by
  refine (W8_arr m ρ c 2).trans ?_
  rw [KReg2.final (V7 m ρ) c]
  have e0 : V7 m ρ c main_v12 = (norm0 (m ((c : Thread nD τ).loc main_arg0)) (m ((c : Thread nD τ).loc main_arg2)) (m ((c : Thread nD τ).loc main_arg3))) := (keep_v12_7_4 m ρ c).trans (val_v12 m ρ c)
  have e1 : V7 m ρ c main_arg4 = (m ((c : Thread nD τ).loc main_arg4)) := keep_arg4_7_0 m ρ c
  rw [e0, e1]
  rfl

theorem val_v56 (c : Dev nD) : W9 m ρ c (Proc.devRef .tc main_v56) = (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) := by
  refine (KHost.h3_v56 (W8 m ρ c)).trans ?_
  have h43 : W8 m ρ c (Proc.devRef .tc main_v43) = _ := val_v43 m ρ c
  have h42 : W8 m ρ c (Proc.devRef .tc main_v42) = _ := (keep_v42_8_7 m ρ c).trans (val_v42 m ρ c)
  have h18 : W8 m ρ c (Proc.devRef .tc main_v18) = _ := (keep_v18_8_5 m ρ c).trans (val_v18 m ρ c)
  have h19 : W8 m ρ c (Proc.devRef .tc main_v19) = _ := (keep_v19_8_5 m ρ c).trans (val_v19 m ρ c)
  rw [h43, h42, h18, h19]
  exact KHost.aggOf_eq _ _

theorem val_v57 (c : Dev nD) : W9 m ρ c (Proc.devRef .tc main_v57) = row256 (m ((c : Thread nD τ).loc main_arg5)) :=
  (KHost.h3_v57 (W8 m ρ c)).trans (congrArg row256 (keep_arg5_8_0 m ρ c))

theorem val_v58 (c : Dev nD) : W9 m ρ c (Proc.devRef .tc main_v58) = row256 (m ((c : Thread nD τ).loc main_arg6)) :=
  (KHost.h3_v58 (W8 m ρ c)).trans (congrArg row256 (keep_arg6_8_0 m ρ c))

theorem val_v59 (c : Dev nD) : W9 m ρ c (Proc.devRef .tc main_v59) = row256 (m ((c : Thread nD τ).loc main_arg7)) :=
  (KHost.h3_v59 (W8 m ρ c)).trans (congrArg row256 (keep_arg7_8_0 m ρ c))

/-! ## Regions 3 and 4: the second normalisation -/

theorem val_v60_0 (c : Dev nD) : W10 m ρ c (Proc.devRef .tc main_v60_0) = k3_pay2 (F := Ideal) (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (row256 (m ((c : Thread nD τ).loc main_arg5))) := by
  refine (W10_arr m ρ c 2).trans ?_
  rw [KReg3.final2 (V9 m ρ) c]
  exact congrArg₂ (fun a b => k3_pay2 (F := Ideal) a b) (val_v56 m ρ c) (val_v57 m ρ c)

theorem val_v60_1 (c : Dev nD) : W10 m ρ c (Proc.devRef .tc main_v60_1) = k3_pay3 (F := Ideal) (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (row256 (m ((c : Thread nD τ).loc main_arg5))) := by
  refine (W10_arr m ρ c 3).trans ?_
  rw [KReg3.final3 (V9 m ρ) c]
  exact congrArg₂ (fun a b => k3_pay3 (F := Ideal) a b) (val_v56 m ρ c) (val_v57 m ρ c)

theorem val_v62 (c : Dev nD) : W11 m ρ c (Proc.devRef .tc main_v62) = mean256 (k3_pay2 (F := Ideal) (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (row256 (m ((c : Thread nD τ).loc main_arg5)))) := by
  show StableHlo.after hostOps4 (W10 m ρ c) (Proc.devRef .tc main_v62) = _
  after_results
  exact congrArg mean256 (val_v60_0 m ρ c)

theorem val_v66 (c : Dev nD) : W11 m ρ c (Proc.devRef .tc main_v66)
    = var256 (k3_pay2 (F := Ideal) (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (row256 (m ((c : Thread nD τ).loc main_arg5)))) (k3_pay3 (F := Ideal) (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (row256 (m ((c : Thread nD τ).loc main_arg5)))) := by
  show StableHlo.after hostOps4 (W10 m ρ c) (Proc.devRef .tc main_v66) = _
  after_results
  exact congrArg₂ var256 (val_v60_0 m ρ c) (val_v60_1 m ρ c)

theorem val_v67 (c : Dev nD) : W12 m ρ c (Proc.devRef .tc main_v67) = (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) := by
  refine (W12_arr m ρ c 6).trans ?_
  rw [KReg4.final (V11 m ρ) c]
  unfold norm1
  have e0 : V11 m ρ c main_v56 = _ := (keep_v56_11_9 m ρ c).trans (val_v56 m ρ c)
  have e1 : V11 m ρ c main_v57 = _ := (keep_v57_11_9 m ρ c).trans (val_v57 m ρ c)
  have e2 : V11 m ρ c main_v58 = _ := (keep_v58_11_9 m ρ c).trans (val_v58 m ρ c)
  have e3 : V11 m ρ c main_v59 = _ := (keep_v59_11_9 m ρ c).trans (val_v59 m ρ c)
  have e4 : V11 m ρ c main_v62 = _ := val_v62 m ρ c
  have e5 : V11 m ρ c main_v66 = _ := val_v66 m ρ c
  rw [e0, e1, e2, e3, e4, e5]

/-! ## The plain neighbourhood sums and region 5 -/

theorem val_v77 (c : Dev nD) : W13 m ρ c (Proc.devRef .tc main_v77) = KSpec.aggregate2 (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) (m ((c : Thread nD τ).loc main_arg1)) := by
  refine (KHost.h5_v77 (W12 m ρ c)).trans ?_
  have h67 : W12 m ρ c (Proc.devRef .tc main_v67) = _ := val_v67 m ρ c
  have h14 : W12 m ρ c (Proc.devRef .tc main_v14) = _ := (keep_v14_12_5 m ρ c).trans (val_v14 m ρ c)
  have h16 : W12 m ρ c (Proc.devRef .tc main_v16) = _ := (keep_v16_12_5 m ρ c).trans (val_v16 m ρ c)
  rw [h67, h14, h16]
  exact KHost.agg2Of_eq _ _

theorem val_v78 (c : Dev nD) : W13 m ρ c (Proc.devRef .tc main_v78) = row256 (m ((c : Thread nD τ).loc main_arg9)) :=
  (KHost.h5_v78 (W12 m ρ c)).trans (congrArg row256 (keep_arg9_12_0 m ρ c))

theorem val_v79 (c : Dev nD) : W14 m ρ c (Proc.devRef .tc main_v79) = (conv2 (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) := by
  refine (W14_arr m ρ c 5).trans ?_
  rw [KReg5.final (V13 m ρ) c]
  unfold conv2
  have e0 : V13 m ρ c main_v77 = _ := val_v77 m ρ c
  have e1 : V13 m ρ c main_arg8 = (m ((c : Thread nD τ).loc main_arg8)) := keep_arg8_13_0 m ρ c
  have e2 : V13 m ρ c main_v67 = _ := (keep_v67_13_12 m ρ c).trans (val_v67 m ρ c)
  have e3 : V13 m ρ c main_arg10 = (m ((c : Thread nD τ).loc main_arg10)) := keep_arg10_13_0 m ρ c
  have e4 : V13 m ρ c main_v78 = _ := val_v78 m ρ c
  rw [e0, e1, e2, e3, e4]

/-! ## Regions 6 and 7: the third normalisation -/

theorem val_v80 (c : Dev nD) : W15 m ρ c (Proc.devRef .tc main_v80) = row256 zeros256 := by
  show StableHlo.after hostOps6 (W14 m ρ c) (Proc.devRef .tc main_v80) = _
  after_results
  exact congrArg row256 ((keep_v1_14_1 m ρ c).trans (val_v1 m ρ c))

theorem val_v81 (c : Dev nD) : W15 m ρ c (Proc.devRef .tc main_v81) = row256 (m ((c : Thread nD τ).loc main_arg11)) := by
  show StableHlo.after hostOps6 (W14 m ρ c) (Proc.devRef .tc main_v81) = _
  after_results
  exact congrArg row256 (keep_arg11_14_0 m ρ c)

theorem val_v82 (c : Dev nD) : W15 m ρ c (Proc.devRef .tc main_v82) = row256 (m ((c : Thread nD τ).loc main_arg12)) := by
  show StableHlo.after hostOps6 (W14 m ρ c) (Proc.devRef .tc main_v82) = _
  after_results
  exact congrArg row256 (keep_arg12_14_0 m ρ c)

theorem val_v83_0 (c : Dev nD) : W16 m ρ c (Proc.devRef .tc main_v83_0) = k6_pay2 (F := Ideal) (conv2 (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) (row256 zeros256) := by
  refine (W16_arr m ρ c 2).trans ?_
  rw [KReg6.final2 (V15 m ρ) c]
  exact congrArg₂ (fun a b => k6_pay2 (F := Ideal) a b) ((keep_v79_15_14 m ρ c).trans (val_v79 m ρ c)) (val_v80 m ρ c)

theorem val_v83_1 (c : Dev nD) : W16 m ρ c (Proc.devRef .tc main_v83_1) = k6_pay3 (F := Ideal) (conv2 (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) (row256 zeros256) := by
  refine (W16_arr m ρ c 3).trans ?_
  rw [KReg6.final3 (V15 m ρ) c]
  exact congrArg₂ (fun a b => k6_pay3 (F := Ideal) a b) ((keep_v79_15_14 m ρ c).trans (val_v79 m ρ c)) (val_v80 m ρ c)

theorem val_v85 (c : Dev nD) : W17 m ρ c (Proc.devRef .tc main_v85) = mean256 (k6_pay2 (F := Ideal) (conv2 (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) (row256 zeros256)) := by
  show StableHlo.after hostOps7 (W16 m ρ c) (Proc.devRef .tc main_v85) = _
  after_results
  exact congrArg mean256 (val_v83_0 m ρ c)

theorem val_v89 (c : Dev nD) : W17 m ρ c (Proc.devRef .tc main_v89)
    = var256 (k6_pay2 (F := Ideal) (conv2 (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) (row256 zeros256)) (k6_pay3 (F := Ideal) (conv2 (norm1 (conv1 (norm0 (m ((c : Thread nD τ).loc main_arg0)) (m ((c : Thread nD τ).loc main_arg2)) (m ((c : Thread nD τ).loc main_arg3))) (m ((c : Thread nD τ).loc main_arg1)) (m ((c : Thread nD τ).loc main_arg4))) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) (row256 zeros256)) := by
  show StableHlo.after hostOps7 (W16 m ρ c) (Proc.devRef .tc main_v89) = _
  after_results
  exact congrArg₂ var256 (val_v83_0 m ρ c) (val_v83_1 m ρ c)

/-- The result buffer after the last region: the composition of the seven stages on the arguments. -/
theorem result_eq (c : Dev nD) : W18 m ρ c (Proc.devRef .tc main_v90)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W18_arr m ρ c 6).trans ?_
  rw [KReg7.final (V17 m ρ) c]
  unfold kerOut norm2
  have e0 : V17 m ρ c main_v79 = _ := (keep_v79_17_14 m ρ c).trans (val_v79 m ρ c)
  have e1 : V17 m ρ c main_v80 = _ := (keep_v80_17_15 m ρ c).trans (val_v80 m ρ c)
  have e2 : V17 m ρ c main_v81 = _ := (keep_v81_17_15 m ρ c).trans (val_v81 m ρ c)
  have e3 : V17 m ρ c main_v82 = _ := (keep_v82_17_15 m ρ c).trans (val_v82 m ρ c)
  have e4 : V17 m ρ c main_v85 = _ := val_v85 m ρ c
  have e5 : V17 m ρ c main_v89 = _ := val_v89 m ρ c
  rw [e0, e1, e2, e3, e4, e5]

end Cert.KernelIdeal.KVal

end
-- ==== Proof.RefSpec.lean ====
/-
  What the reference program computes, as plain compositions of the operations it prints, named after
  the mathematics. Five stages, run in this order on the thirteen arguments:

    * a batch normalisation of the 10000 × 128 input over its rows (column mean, column variance —
      the mean of the squared deviations —, scale and shift),
    * a graph convolution with self loops: the 320000 edges and one loop per node, each edge weighted by
      the inverse square roots of the in-degrees of its two ends; the input times a 128 × 256 matrix,
      gathered at the edges' sources, weighted, summed into the edges' targets, plus a bias,
    * the positive part followed by a batch normalisation at width 256,
    * a second convolution: the rows gathered at the edges' sources and summed into their targets
      (no loops, no weights), times a 256 × 256 matrix, plus a bias, plus the input times a second matrix,
    * the positive part followed by a batch normalisation at width 256 again.

  Every definition below is one layer: it mentions the previous ones by name and the printed
  operations (sums over an axis, gathers, scatters with addition, matrix products) applied once, so a
  statement about one index unfolds one layer at a time.
-/
import proofs.«135245_j16080357556243_1_alg».proof.ReferenceIdeal

noncomputable section

namespace Cert.ReferenceIdeal.Spec

open Idealize.ShloMosaic Cert.ReferenceIdeal
open Facts₀

variable {F : FTy → Type} [FloatOps F] [Facts]

/-! ## Scalars -/

/-- The scalar `0`. -/
def zero : Vec F S_ .f32 := constant S_ .f32 0x00000000#32
/-- The scalar `1`. -/
def one : Vec F S_ .f32 := constant S_ .f32 0x3F800000#32
/-- The number of rows, `10000`, as a scalar. -/
def nRows : Vec F S_ .f32 := constant S_ .f32 0x461C4000#32
/-- The constant added to a variance before its inverse square root (the float nearest `1e-5`). -/
def eps : Vec F S_ .f32 := constant S_ .f32 0x3727C5AC#32
/-- The value a variance takes when its divisor is not positive (the bit pattern of a quiet NaN). -/
def undef : Vec F S_ .f32 := constant S_ .f32 0x7FC00000#32
/-- The divisor of a variance: the number of rows less the correction `0`. -/
def divisor : Vec F S_ .f32 := subf nRows (sitofp .f32 (constantI S_ 32 0#32))

/-! ## Batch normalisation over the rows, width 128 -/

/-- The column sums of a 10000 × 128 matrix. -/
def colSum128 (x : Vec F S10000x128 .f32) : Vec F S128 .f32 :=
  Host.reduceAdd x (zero : Vec F S_ .f32) reducesTo_S10000x128_S128_d0 h_S_

/-- The column means. -/
def mean128 (x : Vec F S10000x128 .f32) : Vec F S128 .f32 :=
  Host.divf (colSum128 x) (broadcastInDim S128 ![] bcast_S_S128 (nRows : Vec F S_ .f32))

/-- A vector of length 128 as a 1 × 128 row. -/
def row128 (v : Vec F S128 .f32) : Vec F S1x128 .f32 := broadcastInDim S1x128 ![1] bcast_S128_S1x128_1 v

/-- A 1 × 128 row repeated down the 10000 rows. -/
def down128 (r : Vec F S1x128 .f32) : Vec F S10000x128 .f32 :=
  broadcastInDim S10000x128 ![0, 1] bcast_S1x128_S10000x128_0_1 r

/-- A vector of length 128 repeated down the 10000 rows: entry `(i, j)` is `v j`. -/
def tile128 (v : Vec F S128 .f32) : Vec F S10000x128 .f32 := down128 (row128 v)

/-- The column means as the variance computes them: the row of sums divided by the row of `10000`s. -/
def meanRow128 (x : Vec F S10000x128 .f32) : Vec F S1x128 .f32 :=
  Host.divf (row128 (colSum128 x)) (broadcastInDim S1x128 ![] bcast_S_S1x128 (nRows : Vec F S_ .f32))

/-- The deviations from the column means. -/
def centred128 (x : Vec F S10000x128 .f32) : Vec F S10000x128 .f32 := subf x (down128 (meanRow128 x))

/-- The column sums of the squared deviations. -/
def sqSum128 (x : Vec F S10000x128 .f32) : Vec F S128 .f32 :=
  Host.reduceAdd (mulf (centred128 x) (centred128 x)) (zero : Vec F S_ .f32) reducesTo_S10000x128_S128_d0 h_S_

/-- The column variances: the sums of squared deviations over the divisor where that is positive. -/
def var128 (x : Vec F S10000x128 .f32) : Vec F S128 .f32 :=
  select (broadcastInDim S128 ![] bcast_S_S128 (cmpf .ogt (divisor : Vec F S_ .f32) zero))
    (Host.divf (sqSum128 x) (broadcastInDim S128 ![] bcast_S_S128 (divisor : Vec F S_ .f32)))
    (broadcastInDim S128 ![] bcast_S_S128 (undef : Vec F S_ .f32))

/-- The inverse standard deviations: `1 / sqrt (variance + eps)`, per column. -/
def invStd128 (x : Vec F S10000x128 .f32) : Vec F S128 .f32 :=
  Host.rsqrt (addf (var128 x) (broadcastInDim S128 ![] bcast_S_S128 (eps : Vec F S_ .f32)))

/-- Batch normalisation: `(x − mean) · invStd · γ + β`, column by column. -/
def refNorm128 (x : Vec F S10000x128 .f32) (γ β : Vec F S128 .f32) : Vec F S10000x128 .f32 :=
  addf (mulf (mulf (subf x (tile128 (mean128 x))) (tile128 (invStd128 x))) (tile128 γ)) (tile128 β)

/-! ## Batch normalisation over the rows, width 256 -/

/-- The column sums of a 10000 × 256 matrix. -/
def colSum256 (x : Vec F S10000x256 .f32) : Vec F S256 .f32 :=
  Host.reduceAdd x (zero : Vec F S_ .f32) reducesTo_S10000x256_S256_d0 h_S_

/-- The column means. -/
def mean256 (x : Vec F S10000x256 .f32) : Vec F S256 .f32 :=
  Host.divf (colSum256 x) (broadcastInDim S256 ![] bcast_S_S256 (nRows : Vec F S_ .f32))

/-- A vector of length 256 as a 1 × 256 row. -/
def row256 (v : Vec F S256 .f32) : Vec F S1x256 .f32 := broadcastInDim S1x256 ![1] bcast_S256_S1x256_1 v

/-- A 1 × 256 row repeated down the 10000 rows. -/
def down256 (r : Vec F S1x256 .f32) : Vec F S10000x256 .f32 :=
  broadcastInDim S10000x256 ![0, 1] bcast_S1x256_S10000x256_0_1 r

/-- A vector of length 256 repeated down the 10000 rows: entry `(i, j)` is `v j`. -/
def tile256 (v : Vec F S256 .f32) : Vec F S10000x256 .f32 := down256 (row256 v)

/-- The column means as the variance computes them. -/
def meanRow256 (x : Vec F S10000x256 .f32) : Vec F S1x256 .f32 :=
  Host.divf (row256 (colSum256 x)) (broadcastInDim S1x256 ![] bcast_S_S1x256 (nRows : Vec F S_ .f32))

/-- The deviations from the column means. -/
def centred256 (x : Vec F S10000x256 .f32) : Vec F S10000x256 .f32 := subf x (down256 (meanRow256 x))

/-- The column sums of the squared deviations. -/
def sqSum256 (x : Vec F S10000x256 .f32) : Vec F S256 .f32 :=
  Host.reduceAdd (mulf (centred256 x) (centred256 x)) (zero : Vec F S_ .f32) reducesTo_S10000x256_S256_d0 h_S_

/-- The column variances. -/
def var256 (x : Vec F S10000x256 .f32) : Vec F S256 .f32 :=
  select (broadcastInDim S256 ![] bcast_S_S256 (cmpf .ogt (divisor : Vec F S_ .f32) zero))
    (Host.divf (sqSum256 x) (broadcastInDim S256 ![] bcast_S_S256 (divisor : Vec F S_ .f32)))
    (broadcastInDim S256 ![] bcast_S_S256 (undef : Vec F S_ .f32))

/-- The inverse standard deviations, per column. -/
def invStd256 (x : Vec F S10000x256 .f32) : Vec F S256 .f32 :=
  Host.rsqrt (addf (var256 x) (broadcastInDim S256 ![] bcast_S_S256 (eps : Vec F S_ .f32)))

/-- Batch normalisation at width 256. -/
def norm256 (x : Vec F S10000x256 .f32) (γ β : Vec F S256 .f32) : Vec F S10000x256 .f32 :=
  addf (mulf (mulf (subf x (tile256 (mean256 x))) (tile256 (invStd256 x))) (tile256 γ)) (tile256 β)

/-- The positive part, entry by entry. -/
def relu (z : Vec F S10000x256 .f32) : Vec F S10000x256 .f32 :=
  maximumf z (broadcastInDim S10000x256 ![] bcast_S_S10000x256 (zero : Vec F S_ .f32))

/-- The positive part followed by batch normalisation. -/
def refReluNorm256 (z : Vec F S10000x256 .f32) (γ β : Vec F S256 .f32) : Vec F S10000x256 .f32 :=
  norm256 (relu z) γ β

/-! ## The edge list -/

/-- The sources of the 320000 edges: row 0 of the edge table. -/
def srcIdx (e : Vec F S2x320000 .i32) : Vec F S320000 .i32 :=
  shapeCast S320000 (extractStridedSlice S1x320000 ![0, 0] e slices_S2x320000_S1x320000_0_0) shapeCasts_S1x320000_S320000

/-- The targets of the 320000 edges: row 1 of the edge table. -/
def dstIdx (e : Vec F S2x320000 .i32) : Vec F S320000 .i32 :=
  shapeCast S320000 (extractStridedSlice S1x320000 ![1, 0] e slices_S2x320000_S1x320000_1_0) shapeCasts_S1x320000_S320000

/-- The node numbers `0 … 9999`: the ends of the self loops. -/
def nodes : Vec F S10000 .i32 := iotaInDim S10000 32 0

/-- 320000 edge ends followed by the 10000 self-loop ends. -/
def withLoops (v : Vec F S320000 .i32) : Vec F S330000 .i32 :=
  concatenate S330000 0 [⟨S320000, v⟩, ⟨S10000, (nodes : Vec F S10000 .i32)⟩] concatenates_S320000_S10000_S330000_d0

/-- An index list of length 330000 with its negative entries moved up by 10000 (indexing from the end). -/
def wrap330 (i : Vec F S330000 .i32) : Vec F S330000 .i32 :=
  select (cmpi .slt i (broadcastInDim S330000 ![] bcast_S_S330000 (constantI S_ 32 0#32)))
    (addi i (broadcastInDim S330000 ![] bcast_S_S330000 (constantI S_ 32 10000#32))) i

/-- An index list of length 330000 as a 330000 × 1 table of index vectors. -/
def col330 (i : Vec F S330000 .i32) : Vec F S330000x1 .i32 :=
  broadcastInDim S330000x1 ![0] bcast_S330000_S330000x1_0 i

/-- An index list of length 320000 with its negative entries moved up by 10000. -/
def wrap320 (i : Vec F S320000 .i32) : Vec F S320000 .i32 :=
  select (cmpi .slt i (broadcastInDim S320000 ![] bcast_S_S320000 (constantI S_ 32 0#32)))
    (addi i (broadcastInDim S320000 ![] bcast_S_S320000 (constantI S_ 32 10000#32))) i

/-- An index list of length 320000 as a 320000 × 1 table of index vectors. -/
def col320 (i : Vec F S320000 .i32) : Vec F S320000x1 .i32 :=
  broadcastInDim S320000x1 ![0] bcast_S320000_S320000x1_0 i

/-! ## The first convolution -/

/-- The in-degree of each node, self loop included: a one added at the target of every edge and loop. -/
def degree (e : Vec F S2x320000 .i32) : Vec F S10000 .f32 :=
  Host.scatterAdd scatter_S10000_S330000x1_S330000_n_0_0_1
    (broadcastInDim S10000 ![] bcast_S_S10000 (zero : Vec F S_ .f32))
    (col330 (withLoops (dstIdx e)))
    (broadcastInDim S330000 ![] bcast_S_S330000 (one : Vec F S_ .f32))

/-- `1 / sqrt (degree)` where the degree is positive, `0` elsewhere. -/
def invSqrtDeg (e : Vec F S2x320000 .i32) : Vec F S10000 .f32 :=
  select (cmpf .ogt (degree e) (broadcastInDim S10000 ![] bcast_S_S10000 (zero : Vec F S_ .f32)))
    (Host.rsqrt (degree e))
    (broadcastInDim S10000 ![] bcast_S_S10000 (zero : Vec F S_ .f32))

/-- `invSqrtDeg` read at a list of 330000 node numbers. -/
def atNodes (d : Vec F S10000 .f32) (i : Vec F S330000 .i32) : Vec F S330000 .f32 :=
  Host.gather gather_S10000_S330000x1_S330000_n_0_n_n_0_1_1 d (col330 (wrap330 i))

/-- The weight of each edge and loop: the product of `invSqrtDeg` at its source and at its target. -/
def edgeWeight (e : Vec F S2x320000 .i32) : Vec F S330000 .f32 :=
  mulf (atNodes (invSqrtDeg e) (withLoops (srcIdx e))) (atNodes (invSqrtDeg e) (withLoops (dstIdx e)))

/-- The weights as a 330000 × 256 table: row `k` is the weight of edge `k`, 256 times. -/
def weightRows (e : Vec F S2x320000 .i32) : Vec F S330000x256 .f32 :=
  broadcastInDim S330000x256 ![0, 1] bcast_S330000x1_S330000x256_0_1
    (broadcastInDim S330000x1 ![0] bcast_S330000_S330000x1_0 (edgeWeight e))

/-- The input times the 128 × 256 matrix. -/
def lin1 (xn : Vec F S10000x128 .f32) (W : Vec F S128x256 .f32) : Vec F S10000x256 .f32 :=
  Host.dotGeneral dot_S10000x128_S128x256_S10000x256_1_0_0_1_n_n none xn W

/-- The rows of a 10000 × 256 matrix at the sources of the edges and loops. -/
def srcRows330 (y : Vec F S10000x256 .f32) (e : Vec F S2x320000 .i32) : Vec F S330000x256 .f32 :=
  Host.gather gather_S10000x256_S330000x1_S330000x256_1_0_n_n_0_1_1256 y (col330 (wrap330 (withLoops (srcIdx e))))

/-- The weighted source rows summed into the targets: row `i` is the sum over the edges and loops into
    node `i` of the weight times the source's row. -/
def aggregate1 (y : Vec F S10000x256 .f32) (e : Vec F S2x320000 .i32) : Vec F S10000x256 .f32 :=
  Host.scatterAdd scatter_S10000x256_S330000x1_S330000x256_1_0_0_1
    (broadcastInDim S10000x256 ![] bcast_S_S10000x256 (zero : Vec F S_ .f32))
    (col330 (withLoops (dstIdx e)))
    (mulf (weightRows e) (srcRows330 y e))

/-- The first convolution: the weighted neighbourhood sums of `xn · W`, plus the bias. -/
def refConv1 (xn : Vec F S10000x128 .f32) (e : Vec F S2x320000 .i32) (W : Vec F S128x256 .f32)
    (b : Vec F S256 .f32) : Vec F S10000x256 .f32 :=
  addf (aggregate1 (lin1 xn W) e) (tile256 b)

/-! ## The second convolution -/

/-- The rows of a 10000 × 256 matrix at the sources of the 320000 edges. -/
def srcRows320 (h : Vec F S10000x256 .f32) (e : Vec F S2x320000 .i32) : Vec F S320000x256 .f32 :=
  Host.gather gather_S10000x256_S320000x1_S320000x256_1_0_n_n_0_1_1256 h (col320 (wrap320 (srcIdx e)))

/-- The source rows summed into the targets: row `i` is the sum of `h`'s rows over the edges into node `i`. -/
def aggregate2 (h : Vec F S10000x256 .f32) (e : Vec F S2x320000 .i32) : Vec F S10000x256 .f32 :=
  Host.scatterAdd scatter_S10000x256_S320000x1_S320000x256_1_0_0_1
    (broadcastInDim S10000x256 ![] bcast_S_S10000x256 (zero : Vec F S_ .f32))
    (col320 (dstIdx e))
    (srcRows320 h e)

/-- A 10000 × 256 matrix times a 256 × 256 one. -/
def lin2 (h : Vec F S10000x256 .f32) (W : Vec F S256x256 .f32) : Vec F S10000x256 .f32 :=
  Host.dotGeneral dot_S10000x256_S256x256_S10000x256_1_0_0_1_n_n none h W

/-- The second convolution: the neighbourhood sums times one matrix, plus a bias, plus the input times another. -/
def refConv2 (h : Vec F S10000x256 .f32) (e : Vec F S2x320000 .i32) (Wrel : Vec F S256x256 .f32)
    (brel : Vec F S256 .f32) (Wroot : Vec F S256x256 .f32) : Vec F S10000x256 .f32 :=
  addf (addf (lin2 (aggregate2 h e) Wrel) (tile256 brel)) (lin2 h Wroot)

/-! ## The whole program -/

/-- What the program returns, of its thirteen arguments in order. -/
def refOut (x : Vec F S10000x128 .f32) (e : Vec F S2x320000 .i32) (γ₀ β₀ : Vec F S128 .f32)
    (W₁ : Vec F S128x256 .f32) (b₁ γ₁ β₁ : Vec F S256 .f32)
    (Wrel : Vec F S256x256 .f32) (brel : Vec F S256 .f32) (Wroot : Vec F S256x256 .f32)
    (γ₂ β₂ : Vec F S256 .f32) : Vec F S10000x256 .f32 :=
  refReluNorm256 (refConv2 (refReluNorm256 (refConv1 (refNorm128 x γ₀ β₀) e W₁ b₁) γ₁ β₁) e Wrel brel Wroot) γ₂ β₂

end Cert.ReferenceIdeal.Spec

end
-- ==== Proof.RefTools.lean ====
/-
  Two small facts about a straight line of tensor operations, used by every stage of the reference's run:
  an operation that writes the single buffer `y` writes inside any list of buffers holding `y`.
-/
import Idealize.ShloMosaic.Lib.StableHlo.Run

namespace Cert.ReferenceIdeal.RefTools

open Idealize.ShloMosaic Idealize.ShloMosaic.StableHlo

variable {τ : Topo} {sig : RefSig} {Val : EltTy → Type}

/-- An operation whose written buffers are exactly `{y}` writes inside the buffers of a list containing `y`. -/
theorem writes_sub_of_mem (op : HloOp τ sig Val) (W : List (Ref sig .tc)) (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.ReferenceIdeal.RefTools
-- ==== Proof.RefNorm0.lean ====
/-
  The first stage of the reference's run: the operations up to the batch-normalised input, as a list, and
  what the list leaves in its result buffer — `Spec.refNorm128` of the input and the two parameter vectors.
  The variance is computed by a called function whose operations are listed in place over the call's own buffers
  (the function's arguments are the caller's buffers: the input matrix and the integer `0`), and in it the
  final selection by a second called function, likewise in place.
-/
import proofs.«135245_j16080357556243_1_alg».proof.Proof.RefSpec
import proofs.«135245_j16080357556243_1_alg».proof.Proof.RefTools
import Idealize.ShloMosaic.Lib.StableHlo.Run

noncomputable section

namespace Cert.ReferenceIdeal.RefNorm0

open Cert.ReferenceIdeal Idealize.ShloMosaic Idealize.ShloMosaic.TcCoe Idealize.SL.Sem Idealize.ShloMosaic.StableHlo
open Facts₀

variable {F : FTy → Type} [FloatOps F] [Facts]

/-- The column sums and means; the variance (twenty operations of the called function, then three of the selection it calls); the deviations times the inverse standard deviation, times the scale, plus the shift. -/
abbrev opsNorm0 : List (HloOp τ sig (Elt F)) :=
  [ nullary main_cst (constant S_ .f32 0x00000000#32),
    binary main_arg0 main_cst main_v0 ((fun x v => Host.reduceAdd x v reducesTo_S10000x128_S128_d0 h_S_) : Vec F S10000x128 .f32 → Vec F S_ .f32 → Vec F S128 .f32),
    nullary main_cst_0 (constant S_ .f32 0x461C4000#32),
    unary main_cst_0 main_v1 (broadcastInDim S128 ![] bcast_S_S128 : Vec F S_ .f32 → Vec F S128 .f32),
    binary main_v0 main_v1 main_v2 (Host.divf : Vec F S128 .f32 → Vec F S128 .f32 → Vec F S128 .f32),
    nullary main_c (constantI S_ 32 0#32),
    TRef.nullary main_call0.cst (constant S_ .f32 0x00000000#32),
    TRef.binary (.of main_arg0 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_arg0 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v2 main_v4 (broadcastInDim S1x128 ![1] bcast_S128_S1x128_1 : Vec F S128 .f32 → Vec F S1x128 .f32),
    unary main_v4 main_v5 (broadcastInDim S10000x128 ![0, 1] bcast_S1x128_S10000x128_0_1 : Vec F S1x128 .f32 → Vec F S10000x128 .f32),
    binary main_arg0 main_v5 main_v6 (subf : Vec F S10000x128 .f32 → Vec F S10000x128 .f32 → Vec F S10000x128 .f32),
    nullary main_cst_1 (constant S_ .f32 0x3727C5AC#32),
    unary main_cst_1 main_v7 (broadcastInDim S128 ![] bcast_S_S128 : Vec F S_ .f32 → Vec F S128 .f32),
    binary main_v3 main_v7 main_v8 (addf : Vec F S128 .f32 → Vec F S128 .f32 → Vec F S128 .f32),
    unary main_v8 main_v9 (Host.rsqrt : Vec F S128 .f32 → Vec F S128 .f32),
    unary main_v9 main_v10 (broadcastInDim S1x128 ![1] bcast_S128_S1x128_1 : Vec F S128 .f32 → Vec F S1x128 .f32),
    unary main_v10 main_v11 (broadcastInDim S10000x128 ![0, 1] bcast_S1x128_S10000x128_0_1 : Vec F S1x128 .f32 → Vec F S10000x128 .f32),
    binary main_v6 main_v11 main_v12 (mulf : Vec F S10000x128 .f32 → Vec F S10000x128 .f32 → Vec F S10000x128 .f32),
    unary main_arg2 main_v13 (broadcastInDim S1x128 ![1] bcast_S128_S1x128_1 : Vec F S128 .f32 → Vec F S1x128 .f32),
    unary main_v13 main_v14 (broadcastInDim S10000x128 ![0, 1] bcast_S1x128_S10000x128_0_1 : Vec F S1x128 .f32 → Vec F S10000x128 .f32),
    binary main_v12 main_v14 main_v15 (mulf : Vec F S10000x128 .f32 → Vec F S10000x128 .f32 → Vec F S10000x128 .f32),
    unary main_arg3 main_v16 (broadcastInDim S1x128 ![1] bcast_S128_S1x128_1 : Vec F S128 .f32 → Vec F S1x128 .f32),
    unary main_v16 main_v17 (broadcastInDim S10000x128 ![0, 1] bcast_S1x128_S10000x128_0_1 : Vec F S1x128 .f32 → Vec F S10000x128 .f32),
    binary main_v15 main_v17 main_v18 (addf : Vec F S10000x128 .f32 → Vec F S10000x128 .f32 → Vec F S10000x128 .f32) ]

/-- The buffers `opsNorm0` writes: one per operation, in order. -/
abbrev writesNorm0 : List (Ref sig .tc) :=
  [main_cst, main_v0, main_cst_0, main_v1, main_v2, main_c, main_call0_cst, main_call0_v0,
   main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12,
   main_call0_cst_4, main_call0_call0_v0, main_call0_call0_v1, main_v3, main_v4, main_v5, main_v6, main_cst_1,
   main_v7, main_v8, main_v9, main_v10, main_v11, main_v12, main_v13, main_v14,
   main_v15, main_v16, main_v17, main_v18]

theorem opsNorm0_writes :
    (opsNorm0 : List (HloOp τ sig (Elt F))).Forall fun op => op.writes ⊆ (writesNorm0.map (Proc.devRef (τ := τ) .tc)).toFinset :=
  ⟨RefTools.writes_sub_of_mem _ _ main_cst rfl (by decide), RefTools.writes_sub_of_mem _ _ main_v0 rfl (by decide),
   RefTools.writes_sub_of_mem _ _ main_cst_0 rfl (by decide), RefTools.writes_sub_of_mem _ _ main_v1 rfl (by decide),
   RefTools.writes_sub_of_mem _ _ main_v2 rfl (by decide), RefTools.writes_sub_of_mem _ _ main_c rfl (by decide),
   RefTools.writes_sub_of_mem _ _ main_call0_cst rfl (by decide), RefTools.writes_sub_of_mem _ _ main_call0_v0 rfl (by decide),
   RefTools.writes_sub_of_mem _ _ main_call0_v1 rfl (by decide), RefTools.writes_sub_of_mem _ _ main_call0_cst_0 rfl (by decide),
   RefTools.writes_sub_of_mem _ _ main_call0_v2 rfl (by decide), RefTools.writes_sub_of_mem _ _ main_call0_v3 rfl (by decide),
   RefTools.writes_sub_of_mem _ _ main_call0_v4 rfl (by decide), RefTools.writes_sub_of_mem _ _ main_call0_v5 rfl (by decide),
   RefTools.writes_sub_of_mem _ _ main_call0_v6 rfl (by decide), RefTools.writes_sub_of_mem _ _ main_call0_v7 rfl (by decide),
   RefTools.writes_sub_of_mem _ _ main_call0_cst_1 rfl (by decide), RefTools.writes_sub_of_mem _ _ main_call0_v8 rfl (by decide),
   RefTools.writes_sub_of_mem _ _ main_call0_cst_2 rfl (by decide), RefTools.writes_sub_of_mem _ _ main_call0_v9 rfl (by decide),
   RefTools.writes_sub_of_mem _ _ main_call0_v10 rfl (by decide), RefTools.writes_sub_of_mem _ _ main_call0_v11 rfl (by decide),
   RefTools.writes_sub_of_mem _ _ main_call0_cst_3 rfl (by decide), RefTools.writes_sub_of_mem _ _ main_call0_v12 rfl (by decide),
   RefTools.writes_sub_of_mem _ _ main_call0_cst_4 rfl (by decide), RefTools.writes_sub_of_mem _ _ main_call0_call0_v0 rfl (by decide),
   RefTools.writes_sub_of_mem _ _ main_call0_call0_v1 rfl (by decide), RefTools.writes_sub_of_mem _ _ main_v3 rfl (by decide),
   RefTools.writes_sub_of_mem _ _ main_v4 rfl (by decide), RefTools.writes_sub_of_mem _ _ main_v5 rfl (by decide),
   RefTools.writes_sub_of_mem _ _ main_v6 rfl (by decide), RefTools.writes_sub_of_mem _ _ main_cst_1 rfl (by decide),
   RefTools.writes_sub_of_mem _ _ main_v7 rfl (by decide), RefTools.writes_sub_of_mem _ _ main_v8 rfl (by decide),
   RefTools.writes_sub_of_mem _ _ main_v9 rfl (by decide), RefTools.writes_sub_of_mem _ _ main_v10 rfl (by decide),
   RefTools.writes_sub_of_mem _ _ main_v11 rfl (by decide), RefTools.writes_sub_of_mem _ _ main_v12 rfl (by decide),
   RefTools.writes_sub_of_mem _ _ main_v13 rfl (by decide), RefTools.writes_sub_of_mem _ _ main_v14 rfl (by decide),
   RefTools.writes_sub_of_mem _ _ main_v15 rfl (by decide), RefTools.writes_sub_of_mem _ _ main_v16 rfl (by decide),
   RefTools.writes_sub_of_mem _ _ main_v17 rfl (by decide), RefTools.writes_sub_of_mem _ _ main_v18 rfl (by decide)⟩

theorem opsNorm0_sub : (opsNorm0 : List (HloOp τ sig (Elt F))).Forall fun op => op.bufs ⊆ tcRefs τ sig :=
  ⟨nullary_bufs_sub .., binary_bufs_sub .., nullary_bufs_sub .., unary_bufs_sub .., binary_bufs_sub .., nullary_bufs_sub ..,
   nullary_bufs_sub .., binary_bufs_sub .., unary_bufs_sub .., nullary_bufs_sub .., unary_bufs_sub .., binary_bufs_sub ..,
   unary_bufs_sub .., binary_bufs_sub .., binary_bufs_sub .., unary_bufs_sub .., nullary_bufs_sub .., binary_bufs_sub ..,
   nullary_bufs_sub .., binary_bufs_sub .., unary_bufs_sub .., binary_bufs_sub .., nullary_bufs_sub .., binary_bufs_sub ..,
   nullary_bufs_sub .., unary_bufs_sub .., unary_bufs_sub .., ternary_bufs_sub .., unary_bufs_sub .., unary_bufs_sub ..,
   binary_bufs_sub .., nullary_bufs_sub .., unary_bufs_sub .., binary_bufs_sub .., unary_bufs_sub .., unary_bufs_sub ..,
   unary_bufs_sub .., binary_bufs_sub .., unary_bufs_sub .., unary_bufs_sub .., binary_bufs_sub .., unary_bufs_sub ..,
   unary_bufs_sub .., binary_bufs_sub ..⟩

/-- Every operation of `opsNorm0` determines what it writes. -/
theorem opsNorm0_fresh : (opsNorm0 : List (HloOp τ sig (Elt F))).Forall fun op => op.fresh = ∅ :=
  ⟨rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl,
   rfl, rfl, rfl, rfl, rfl, rfl, rfl, rfl, rfl, rfl, rfl, rfl⟩

/-- A buffer `opsNorm0` does not write keeps its contents. -/
theorem opsNorm0_keep (V : Valuation τ sig (Elt F)) (r : Ref sig .tc) (h : r ∉ writesNorm0) :
    after opsNorm0 V (Proc.devRef .tc r) = V (Proc.devRef .tc r) :=
  after_of_writes_sub opsNorm0 V opsNorm0_writes h

attribute [local irreducible] Host.reduceAdd Host.gather Host.scatterAdd in
set_option maxRecDepth 8192 in
set_option maxHeartbeats 1000000 in
/-- The list's fold at its result buffer is the batch normalisation of the contents of the three argument buffers:
    each operation's result is its function of the operands' contents, and the composition is the definition of
    `Spec.refNorm128` unfolded. The sums over the rows stay folded. -/
theorem norm0_val (V : Valuation τ sig (Elt F)) :
    after opsNorm0 V (main_v18 : DevRef τ sig)
      = Spec.refNorm128 (V (main_arg0 : DevRef τ sig)) (V (main_arg2 : DevRef τ sig)) (V (main_arg3 : DevRef τ sig)) := by
  simp only [after_cons, after_nil]
  rfl

end Cert.ReferenceIdeal.RefNorm0

end
-- ==== Proof.RefConv1.lean ====
/-
  The second stage of the reference's run: the first graph convolution, as two lists run one after the other
  (the second begins at the product of the two gathered inverse square roots of the degrees), and what they leave
  in the result buffer — `Spec.refConv1` of the normalised input, the edge table, the weight matrix and the bias.
  The selection "inverse square root where the degree is positive, else zero" is a called function, its three
  operations listed in place over the call's own buffers.
-/
import proofs.«135245_j16080357556243_1_alg».proof.Proof.RefSpec
import proofs.«135245_j16080357556243_1_alg».proof.Proof.RefTools
import Idealize.ShloMosaic.Lib.StableHlo.Run

noncomputable section

namespace Cert.ReferenceIdeal.RefConv1

open Cert.ReferenceIdeal Idealize.ShloMosaic Idealize.ShloMosaic.TcCoe Idealize.SL.Sem Idealize.ShloMosaic.StableHlo
open Facts₀

variable {F : FTy → Type} [FloatOps F] [Facts]

/-- The two rows of the edge table with the self loops appended; the degrees (a one scattered to every target); their inverse square roots where positive; that vector gathered at the sources and at the targets (negative indices first moved up by the number of nodes). -/
abbrev opsConv1a : List (HloOp τ sig (Elt F)) :=
  [ unary main_arg1 main_v19 ((extractStridedSlice S1x320000 ![0, 0] · slices_S2x320000_S1x320000_0_0) : Vec F S2x320000 .i32 → Vec F S1x320000 .i32),
    reshape main_v19 main_v20 rfl shapeCasts_S1x320000_S320000,
    unary main_arg1 main_v21 ((extractStridedSlice S1x320000 ![1, 0] · slices_S2x320000_S1x320000_1_0) : Vec F S2x320000 .i32 → Vec F S1x320000 .i32),
    reshape main_v21 main_v22 rfl shapeCasts_S1x320000_S320000,
    nullary main_v23 (iotaInDim S10000 32 0),
    binary main_v20 main_v23 main_v24 ((fun a b => concatenate S330000 0 [⟨S320000, a⟩, ⟨S10000, b⟩] concatenates_S320000_S10000_S330000_d0) : Vec F S320000 .i32 → Vec F S10000 .i32 → Vec F S330000 .i32),
    binary main_v22 main_v23 main_v25 ((fun a b => concatenate S330000 0 [⟨S320000, a⟩, ⟨S10000, b⟩] concatenates_S320000_S10000_S330000_d0) : Vec F S320000 .i32 → Vec F S10000 .i32 → Vec F S330000 .i32),
    nullary main_cst_2 (constant S_ .f32 0x3F800000#32),
    unary main_cst_2 main_v26 (broadcastInDim S330000 ![] bcast_S_S330000 : Vec F S_ .f32 → Vec F S330000 .f32),
    nullary main_cst_3 (constant S_ .f32 0x00000000#32),
    unary main_cst_3 main_v27 (broadcastInDim S10000 ![] bcast_S_S10000 : Vec F S_ .f32 → Vec F S10000 .f32),
    unary main_v25 main_v28 (broadcastInDim S330000x1 ![0] bcast_S330000_S330000x1_0 : Vec F S330000 .i32 → Vec F S330000x1 .i32),
    ternary main_v27 main_v28 main_v26 main_v29 ((fun x i u => Host.scatterAdd scatter_S10000_S330000x1_S330000_n_0_0_1 x i u) : Vec F S10000 .f32 → Vec F S330000x1 .i32 → Vec F S330000 .f32 → Vec F S10000 .f32),
    nullary main_cst_4 (constant S_ .f32 0x00000000#32),
    unary main_cst_4 main_v30 (broadcastInDim S10000 ![] bcast_S_S10000 : Vec F S_ .f32 → Vec F S10000 .f32),
    binary main_v29 main_v30 main_v31 (cmpf .ogt : Vec F S10000 .f32 → Vec F S10000 .f32 → Vec F S10000 .i1),
    unary main_v29 main_v32 (Host.rsqrt : Vec F S10000 .f32 → Vec F S10000 .f32),
    nullary main_cst_5 (constant S_ .f32 0x00000000#32),
    TRef.unary (.of main_cst_5 : TRef sig ⟨S_, .f32⟩) main_call1.v0 id,
    TRef.unary main_call1.v0 main_call1.v1 (broadcastInDim S10000 ![] bcast_S_S10000),
    TRef.ternary (.of main_v31 : TRef sig ⟨S10000, .i1⟩) (.of main_v32 : TRef sig ⟨S10000, .f32⟩) main_call1.v1 main_call1.v2 select,
    nullary main_c_6 (constantI S_ 32 0#32),
    unary main_c_6 main_v34 (broadcastInDim S330000 ![] bcast_S_S330000 : Vec F S_ .i32 → Vec F S330000 .i32),
    binary main_v24 main_v34 main_v35 (cmpi .slt : Vec F S330000 .i32 → Vec F S330000 .i32 → Vec F S330000 .i1),
    nullary main_c_7 (constantI S_ 32 10000#32),
    unary main_c_7 main_v36 (broadcastInDim S330000 ![] bcast_S_S330000 : Vec F S_ .i32 → Vec F S330000 .i32),
    binary main_v24 main_v36 main_v37 (addi : Vec F S330000 .i32 → Vec F S330000 .i32 → Vec F S330000 .i32),
    ternary main_v35 main_v37 main_v24 main_v38 (select : Vec F S330000 .i1 → Vec F S330000 .i32 → Vec F S330000 .i32 → Vec F S330000 .i32),
    unary main_v38 main_v39 (broadcastInDim S330000x1 ![0] bcast_S330000_S330000x1_0 : Vec F S330000 .i32 → Vec F S330000x1 .i32),
    binary main_v33 main_v39 main_v40 ((fun x i => Host.gather gather_S10000_S330000x1_S330000_n_0_n_n_0_1_1 x i) : Vec F S10000 .f32 → Vec F S330000x1 .i32 → Vec F S330000 .f32),
    nullary main_c_8 (constantI S_ 32 0#32),
    unary main_c_8 main_v41 (broadcastInDim S330000 ![] bcast_S_S330000 : Vec F S_ .i32 → Vec F S330000 .i32),
    binary main_v25 main_v41 main_v42 (cmpi .slt : Vec F S330000 .i32 → Vec F S330000 .i32 → Vec F S330000 .i1),
    nullary main_c_9 (constantI S_ 32 10000#32),
    unary main_c_9 main_v43 (broadcastInDim S330000 ![] bcast_S_S330000 : Vec F S_ .i32 → Vec F S330000 .i32),
    binary main_v25 main_v43 main_v44 (addi : Vec F S330000 .i32 → Vec F S330000 .i32 → Vec F S330000 .i32),
    ternary main_v42 main_v44 main_v25 main_v45 (select : Vec F S330000 .i1 → Vec F S330000 .i32 → Vec F S330000 .i32 → Vec F S330000 .i32),
    unary main_v45 main_v46 (broadcastInDim S330000x1 ![0] bcast_S330000_S330000x1_0 : Vec F S330000 .i32 → Vec F S330000x1 .i32),
    binary main_v33 main_v46 main_v47 ((fun x i => Host.gather gather_S10000_S330000x1_S330000_n_0_n_n_0_1_1 x i) : Vec F S10000 .f32 → Vec F S330000x1 .i32 → Vec F S330000 .f32) ]

/-- The buffers `opsConv1a` writes: one per operation, in order. -/
abbrev writesConv1a : List (Ref sig .tc) :=
  [main_v19, main_v20, main_v21, main_v22, main_v23, main_v24, main_v25, main_cst_2,
   main_v26, main_cst_3, main_v27, main_v28, main_v29, main_cst_4, main_v30, main_v31,
   main_v32, main_cst_5, main_call1_v0, main_call1_v1, main_v33, main_c_6, main_v34, main_v35,
   main_c_7, main_v36, main_v37, main_v38, main_v39, main_v40, main_c_8, main_v41,
   main_v42, main_c_9, main_v43, main_v44, main_v45, main_v46, main_v47]

theorem opsConv1a_writes :
    (opsConv1a : List (HloOp τ sig (Elt F))).Forall fun op => op.writes ⊆ (writesConv1a.map (Proc.devRef (τ := τ) .tc)).toFinset :=
  ⟨RefTools.writes_sub_of_mem _ _ main_v19 rfl (by decide), RefTools.writes_sub_of_mem _ _ main_v20 rfl (by decide),
   RefTools.writes_sub_of_mem _ _ main_v21 rfl (by decide), RefTools.writes_sub_of_mem _ _ main_v22 rfl (by decide),
   RefTools.writes_sub_of_mem _ _ main_v23 rfl (by decide), RefTools.writes_sub_of_mem _ _ main_v24 rfl (by decide),
   RefTools.writes_sub_of_mem _ _ main_v25 rfl (by decide), RefTools.writes_sub_of_mem _ _ main_cst_2 rfl (by decide),
   RefTools.writes_sub_of_mem _ _ main_v26 rfl (by decide), RefTools.writes_sub_of_mem _ _ main_cst_3 rfl (by decide),
   RefTools.writes_sub_of_mem _ _ main_v27 rfl (by decide), RefTools.writes_sub_of_mem _ _ main_v28 rfl (by decide),
   RefTools.writes_sub_of_mem _ _ main_v29 rfl (by decide), RefTools.writes_sub_of_mem _ _ main_cst_4 rfl (by decide),
   RefTools.writes_sub_of_mem _ _ main_v30 rfl (by decide), RefTools.writes_sub_of_mem _ _ main_v31 rfl (by decide),
   RefTools.writes_sub_of_mem _ _ main_v32 rfl (by decide), RefTools.writes_sub_of_mem _ _ main_cst_5 rfl (by decide),
   RefTools.writes_sub_of_mem _ _ main_call1_v0 rfl (by decide), RefTools.writes_sub_of_mem _ _ main_call1_v1 rfl (by decide),
   RefTools.writes_sub_of_mem _ _ main_v33 rfl (by decide), RefTools.writes_sub_of_mem _ _ main_c_6 rfl (by decide),
   RefTools.writes_sub_of_mem _ _ main_v34 rfl (by decide), RefTools.writes_sub_of_mem _ _ main_v35 rfl (by decide),
   RefTools.writes_sub_of_mem _ _ main_c_7 rfl (by decide), RefTools.writes_sub_of_mem _ _ main_v36 rfl (by decide),
   RefTools.writes_sub_of_mem _ _ main_v37 rfl (by decide), RefTools.writes_sub_of_mem _ _ main_v38 rfl (by decide),
   RefTools.writes_sub_of_mem _ _ main_v39 rfl (by decide), RefTools.writes_sub_of_mem _ _ main_v40 rfl (by decide),
   RefTools.writes_sub_of_mem _ _ main_c_8 rfl (by decide), RefTools.writes_sub_of_mem _ _ main_v41 rfl (by decide),
   RefTools.writes_sub_of_mem _ _ main_v42 rfl (by decide), RefTools.writes_sub_of_mem _ _ main_c_9 rfl (by decide),
   RefTools.writes_sub_of_mem _ _ main_v43 rfl (by decide), RefTools.writes_sub_of_mem _ _ main_v44 rfl (by decide),
   RefTools.writes_sub_of_mem _ _ main_v45 rfl (by decide), RefTools.writes_sub_of_mem _ _ main_v46 rfl (by decide),
   RefTools.writes_sub_of_mem _ _ main_v47 rfl (by decide)⟩

theorem opsConv1a_sub : (opsConv1a : List (HloOp τ sig (Elt F))).Forall fun op => op.bufs ⊆ tcRefs τ sig :=
  ⟨unary_bufs_sub .., reshape_bufs_sub .., unary_bufs_sub .., reshape_bufs_sub .., nullary_bufs_sub .., binary_bufs_sub ..,
   binary_bufs_sub .., nullary_bufs_sub .., unary_bufs_sub .., nullary_bufs_sub .., unary_bufs_sub .., unary_bufs_sub ..,
   ternary_bufs_sub .., nullary_bufs_sub .., unary_bufs_sub .., binary_bufs_sub .., unary_bufs_sub .., nullary_bufs_sub ..,
   unary_bufs_sub .., unary_bufs_sub .., ternary_bufs_sub .., nullary_bufs_sub .., unary_bufs_sub .., binary_bufs_sub ..,
   nullary_bufs_sub .., unary_bufs_sub .., binary_bufs_sub .., ternary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub ..⟩

/-- Every operation of `opsConv1a` determines what it writes. -/
theorem opsConv1a_fresh : (opsConv1a : List (HloOp τ sig (Elt F))).Forall fun op => op.fresh = ∅ :=
  ⟨rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl,
   rfl, rfl, rfl, rfl, rfl, rfl, rfl⟩

/-- A buffer `opsConv1a` does not write keeps its contents. -/
theorem opsConv1a_keep (V : Valuation τ sig (Elt F)) (r : Ref sig .tc) (h : r ∉ writesConv1a) :
    after opsConv1a V (Proc.devRef .tc r) = V (Proc.devRef .tc r) :=
  after_of_writes_sub opsConv1a V opsConv1a_writes h

/-- The edge weights (the product of the two gathers); the input times the weight matrix; its rows gathered at the sources, weighted, scattered with addition to the targets; plus the bias. -/
abbrev opsConv1b : List (HloOp τ sig (Elt F)) :=
  [ binary main_v40 main_v47 main_v48 (mulf : Vec F S330000 .f32 → Vec F S330000 .f32 → Vec F S330000 .f32),
    binary main_v18 main_arg4 main_v49 ((fun l r => Host.dotGeneral dot_S10000x128_S128x256_S10000x256_1_0_0_1_n_n none l r) : Vec F S10000x128 .f32 → Vec F S128x256 .f32 → Vec F S10000x256 .f32),
    unary main_v48 main_v50 (broadcastInDim S330000x1 ![0] bcast_S330000_S330000x1_0 : Vec F S330000 .f32 → Vec F S330000x1 .f32),
    nullary main_c_10 (constantI S_ 32 0#32),
    unary main_c_10 main_v51 (broadcastInDim S330000 ![] bcast_S_S330000 : Vec F S_ .i32 → Vec F S330000 .i32),
    binary main_v24 main_v51 main_v52 (cmpi .slt : Vec F S330000 .i32 → Vec F S330000 .i32 → Vec F S330000 .i1),
    nullary main_c_11 (constantI S_ 32 10000#32),
    unary main_c_11 main_v53 (broadcastInDim S330000 ![] bcast_S_S330000 : Vec F S_ .i32 → Vec F S330000 .i32),
    binary main_v24 main_v53 main_v54 (addi : Vec F S330000 .i32 → Vec F S330000 .i32 → Vec F S330000 .i32),
    ternary main_v52 main_v54 main_v24 main_v55 (select : Vec F S330000 .i1 → Vec F S330000 .i32 → Vec F S330000 .i32 → Vec F S330000 .i32),
    unary main_v55 main_v56 (broadcastInDim S330000x1 ![0] bcast_S330000_S330000x1_0 : Vec F S330000 .i32 → Vec F S330000x1 .i32),
    binary main_v49 main_v56 main_v57 ((fun x i => Host.gather gather_S10000x256_S330000x1_S330000x256_1_0_n_n_0_1_1256 x i) : Vec F S10000x256 .f32 → Vec F S330000x1 .i32 → Vec F S330000x256 .f32),
    unary main_v50 main_v58 (broadcastInDim S330000x256 ![0, 1] bcast_S330000x1_S330000x256_0_1 : Vec F S330000x1 .f32 → Vec F S330000x256 .f32),
    binary main_v58 main_v57 main_v59 (mulf : Vec F S330000x256 .f32 → Vec F S330000x256 .f32 → Vec F S330000x256 .f32),
    nullary main_cst_12 (constant S_ .f32 0x00000000#32),
    unary main_cst_12 main_v60 (broadcastInDim S10000x256 ![] bcast_S_S10000x256 : Vec F S_ .f32 → Vec F S10000x256 .f32),
    unary main_v25 main_v61 (broadcastInDim S330000x1 ![0] bcast_S330000_S330000x1_0 : Vec F S330000 .i32 → Vec F S330000x1 .i32),
    ternary main_v60 main_v61 main_v59 main_v62 ((fun x i u => Host.scatterAdd scatter_S10000x256_S330000x1_S330000x256_1_0_0_1 x i u) : Vec F S10000x256 .f32 → Vec F S330000x1 .i32 → Vec F S330000x256 .f32 → Vec F S10000x256 .f32),
    unary main_arg5 main_v63 (broadcastInDim S1x256 ![1] bcast_S256_S1x256_1 : Vec F S256 .f32 → Vec F S1x256 .f32),
    unary main_v63 main_v64 (broadcastInDim S10000x256 ![0, 1] bcast_S1x256_S10000x256_0_1 : Vec F S1x256 .f32 → Vec F S10000x256 .f32),
    binary main_v62 main_v64 main_v65 (addf : Vec F S10000x256 .f32 → Vec F S10000x256 .f32 → Vec F S10000x256 .f32) ]

/-- The buffers `opsConv1b` writes: one per operation, in order. -/
abbrev writesConv1b : List (Ref sig .tc) :=
  [main_v48, main_v49, main_v50, main_c_10, main_v51, main_v52, main_c_11, main_v53,
   main_v54, main_v55, main_v56, main_v57, main_v58, main_v59, main_cst_12, main_v60,
   main_v61, main_v62, main_v63, main_v64, main_v65]

theorem opsConv1b_writes :
    (opsConv1b : List (HloOp τ sig (Elt F))).Forall fun op => op.writes ⊆ (writesConv1b.map (Proc.devRef (τ := τ) .tc)).toFinset :=
  ⟨RefTools.writes_sub_of_mem _ _ main_v48 rfl (by decide), RefTools.writes_sub_of_mem _ _ main_v49 rfl (by decide),
   RefTools.writes_sub_of_mem _ _ main_v50 rfl (by decide), RefTools.writes_sub_of_mem _ _ main_c_10 rfl (by decide),
   RefTools.writes_sub_of_mem _ _ main_v51 rfl (by decide), RefTools.writes_sub_of_mem _ _ main_v52 rfl (by decide),
   RefTools.writes_sub_of_mem _ _ main_c_11 rfl (by decide), RefTools.writes_sub_of_mem _ _ main_v53 rfl (by decide),
   RefTools.writes_sub_of_mem _ _ main_v54 rfl (by decide), RefTools.writes_sub_of_mem _ _ main_v55 rfl (by decide),
   RefTools.writes_sub_of_mem _ _ main_v56 rfl (by decide), RefTools.writes_sub_of_mem _ _ main_v57 rfl (by decide),
   RefTools.writes_sub_of_mem _ _ main_v58 rfl (by decide), RefTools.writes_sub_of_mem _ _ main_v59 rfl (by decide),
   RefTools.writes_sub_of_mem _ _ main_cst_12 rfl (by decide), RefTools.writes_sub_of_mem _ _ main_v60 rfl (by decide),
   RefTools.writes_sub_of_mem _ _ main_v61 rfl (by decide), RefTools.writes_sub_of_mem _ _ main_v62 rfl (by decide),
   RefTools.writes_sub_of_mem _ _ main_v63 rfl (by decide), RefTools.writes_sub_of_mem _ _ main_v64 rfl (by decide),
   RefTools.writes_sub_of_mem _ _ main_v65 rfl (by decide)⟩

theorem opsConv1b_sub : (opsConv1b : List (HloOp τ sig (Elt F))).Forall fun op => op.bufs ⊆ tcRefs τ sig :=
  ⟨binary_bufs_sub .., binary_bufs_sub .., unary_bufs_sub .., nullary_bufs_sub .., unary_bufs_sub .., binary_bufs_sub ..,
   nullary_bufs_sub .., unary_bufs_sub .., binary_bufs_sub .., ternary_bufs_sub .., unary_bufs_sub .., binary_bufs_sub ..,
   unary_bufs_sub .., binary_bufs_sub .., nullary_bufs_sub .., unary_bufs_sub .., unary_bufs_sub .., ternary_bufs_sub ..,
   unary_bufs_sub .., unary_bufs_sub .., binary_bufs_sub ..⟩

/-- Every operation of `opsConv1b` determines what it writes. -/
theorem opsConv1b_fresh : (opsConv1b : List (HloOp τ sig (Elt F))).Forall fun op => op.fresh = ∅ :=
  ⟨rfl, rfl, rfl, rfl, rfl, rfl, rfl, rfl, rfl, rfl, rfl, rfl, rfl, rfl, rfl, rfl,
   rfl, rfl, rfl, rfl, rfl⟩

/-- A buffer `opsConv1b` does not write keeps its contents. -/
theorem opsConv1b_keep (V : Valuation τ sig (Elt F)) (r : Ref sig .tc) (h : r ∉ writesConv1b) :
    after opsConv1b V (Proc.devRef .tc r) = V (Proc.devRef .tc r) :=
  after_of_writes_sub opsConv1b V opsConv1b_writes h

attribute [local irreducible] Host.reduceAdd Host.gather Host.scatterAdd in
set_option maxRecDepth 8192 in
set_option maxHeartbeats 2000000 in
/-- The two lists' fold at the result buffer is the first convolution of the contents of the four buffers it reads: each operation's result is its function of the operands' contents, and the composition is the definition of `Spec.refConv1` unfolded. The scatters, gathers and the matrix product stay folded. -/
theorem conv1_val (V : Valuation τ sig (Elt F)) :
    after opsConv1b (after opsConv1a V) (main_v65 : DevRef τ sig)
      = Spec.refConv1 (V (main_v18 : DevRef τ sig)) (V (main_arg1 : DevRef τ sig)) (V (main_arg4 : DevRef τ sig)) (V (main_arg5 : DevRef τ sig)) := by
  simp only [after_cons, after_nil]
  rfl

end Cert.ReferenceIdeal.RefConv1

end
-- ==== Proof.RefNorm1.lean ====
/-
  The third stage of the reference's run: the positive part and the batch normalisation at width 256, as a list,
  and what the list leaves in its result buffer — `Spec.refReluNorm256` of the convolution's output and the two
  parameter vectors. The positive part and the variance are called functions (the variance calls a selection in
  turn); their operations are listed in place over each call's own buffers.
-/
import proofs.«135245_j16080357556243_1_alg».proof.Proof.RefSpec
import proofs.«135245_j16080357556243_1_alg».proof.Proof.RefTools
import Idealize.ShloMosaic.Lib.StableHlo.Run

noncomputable section

namespace Cert.ReferenceIdeal.RefNorm1

open Cert.ReferenceIdeal Idealize.ShloMosaic Idealize.ShloMosaic.TcCoe Idealize.SL.Sem Idealize.ShloMosaic.StableHlo
open Facts₀

variable {F : FTy → Type} [FloatOps F] [Facts]

/-- The positive part (three operations of the called function); the column sums and means; the variance (twenty operations of the called function, then three of the selection it calls); the deviations times the inverse standard deviation, times the scale, plus the shift. -/
abbrev opsNorm1 : List (HloOp τ sig (Elt F)) :=
  [ TRef.nullary main_call2.cst (constant S_ .f32 0x00000000#32),
    TRef.unary main_call2.cst main_call2.v0 (broadcastInDim S10000x256 ![] bcast_S_S10000x256),
    TRef.binary (.of main_v65 : TRef sig ⟨S10000x256, .f32⟩) main_call2.v0 main_call2.v1 maximumf,
    nullary main_cst_13 (constant S_ .f32 0x00000000#32),
    binary main_v66 main_cst_13 main_v67 ((fun x v => Host.reduceAdd x v reducesTo_S10000x256_S256_d0 h_S_) : Vec F S10000x256 .f32 → Vec F S_ .f32 → Vec F S256 .f32),
    nullary main_cst_14 (constant S_ .f32 0x461C4000#32),
    unary main_cst_14 main_v68 (broadcastInDim S256 ![] bcast_S_S256 : Vec F S_ .f32 → Vec F S256 .f32),
    binary main_v67 main_v68 main_v69 (Host.divf : Vec F S256 .f32 → Vec F S256 .f32 → Vec F S256 .f32),
    nullary main_c_15 (constantI S_ 32 0#32),
    TRef.nullary main_call3.cst (constant S_ .f32 0x00000000#32),
    TRef.binary (.of main_v66 : TRef sig ⟨S10000x256, .f32⟩) main_call3.cst main_call3.v0 (fun x v => Host.reduceAdd x v reducesTo_S10000x256_S256_d0 h_S_),
    TRef.unary main_call3.v0 main_call3.v1 (broadcastInDim S1x256 ![1] bcast_S256_S1x256_1),
    TRef.nullary main_call3.cst_0 (constant S_ .f32 0x461C4000#32),
    TRef.unary main_call3.cst_0 main_call3.v2 (broadcastInDim S1x256 ![] bcast_S_S1x256),
    TRef.binary main_call3.v1 main_call3.v2 main_call3.v3 Host.divf,
    TRef.unary main_call3.v3 main_call3.v4 (broadcastInDim S10000x256 ![0, 1] bcast_S1x256_S10000x256_0_1),
    TRef.binary (.of main_v66 : TRef sig ⟨S10000x256, .f32⟩) main_call3.v4 main_call3.v5 subf,
    TRef.binary main_call3.v5 main_call3.v5 main_call3.v6 mulf,
    TRef.unary (.of main_c_15 : TRef sig ⟨S_, .i32⟩) main_call3.v7 (sitofp .f32),
    TRef.nullary main_call3.cst_1 (constant S_ .f32 0x461C4000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S10000x256_S256_d0 h_S_),
    TRef.unary main_call3.v8 main_call3.v10 (broadcastInDim S256 ![] bcast_S_S256),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S256 ![] bcast_S_S256),
    TRef.ternary main_call3.v12 main_call3.v11 main_call3.call0.v1 main_call3.call0.v2 (fun p a b => select (broadcastInDim S256 ![] bcast_S_S256 p) a b),
    unary main_v69 main_v71 (broadcastInDim S1x256 ![1] bcast_S256_S1x256_1 : Vec F S256 .f32 → Vec F S1x256 .f32),
    unary main_v71 main_v72 (broadcastInDim S10000x256 ![0, 1] bcast_S1x256_S10000x256_0_1 : Vec F S1x256 .f32 → Vec F S10000x256 .f32),
    binary main_v66 main_v72 main_v73 (subf : Vec F S10000x256 .f32 → Vec F S10000x256 .f32 → Vec F S10000x256 .f32),
    nullary main_cst_16 (constant S_ .f32 0x3727C5AC#32),
    unary main_cst_16 main_v74 (broadcastInDim S256 ![] bcast_S_S256 : Vec F S_ .f32 → Vec F S256 .f32),
    binary main_v70 main_v74 main_v75 (addf : Vec F S256 .f32 → Vec F S256 .f32 → Vec F S256 .f32),
    unary main_v75 main_v76 (Host.rsqrt : Vec F S256 .f32 → Vec F S256 .f32),
    unary main_v76 main_v77 (broadcastInDim S1x256 ![1] bcast_S256_S1x256_1 : Vec F S256 .f32 → Vec F S1x256 .f32),
    unary main_v77 main_v78 (broadcastInDim S10000x256 ![0, 1] bcast_S1x256_S10000x256_0_1 : Vec F S1x256 .f32 → Vec F S10000x256 .f32),
    binary main_v73 main_v78 main_v79 (mulf : Vec F S10000x256 .f32 → Vec F S10000x256 .f32 → Vec F S10000x256 .f32),
    unary main_arg6 main_v80 (broadcastInDim S1x256 ![1] bcast_S256_S1x256_1 : Vec F S256 .f32 → Vec F S1x256 .f32),
    unary main_v80 main_v81 (broadcastInDim S10000x256 ![0, 1] bcast_S1x256_S10000x256_0_1 : Vec F S1x256 .f32 → Vec F S10000x256 .f32),
    binary main_v79 main_v81 main_v82 (mulf : Vec F S10000x256 .f32 → Vec F S10000x256 .f32 → Vec F S10000x256 .f32),
    unary main_arg7 main_v83 (broadcastInDim S1x256 ![1] bcast_S256_S1x256_1 : Vec F S256 .f32 → Vec F S1x256 .f32),
    unary main_v83 main_v84 (broadcastInDim S10000x256 ![0, 1] bcast_S1x256_S10000x256_0_1 : Vec F S1x256 .f32 → Vec F S10000x256 .f32),
    binary main_v82 main_v84 main_v85 (addf : Vec F S10000x256 .f32 → Vec F S10000x256 .f32 → Vec F S10000x256 .f32) ]

/-- The buffers `opsNorm1` writes: one per operation, in order. -/
abbrev writesNorm1 : List (Ref sig .tc) :=
  [main_call2_cst, main_call2_v0, main_v66, main_cst_13, main_v67, main_cst_14, main_v68, main_v69,
   main_c_15, main_call3_cst, main_call3_v0, main_call3_v1, main_call3_cst_0, main_call3_v2, main_call3_v3, main_call3_v4,
   main_call3_v5, main_call3_v6, main_call3_v7, main_call3_cst_1, main_call3_v8, main_call3_cst_2, main_call3_v9, main_call3_v10,
   main_call3_v11, main_call3_cst_3, main_call3_v12, main_call3_cst_4, main_call3_call0_v0, main_call3_call0_v1, main_v70, main_v71,
   main_v72, main_v73, main_cst_16, main_v74, main_v75, main_v76, main_v77, main_v78,
   main_v79, main_v80, main_v81, main_v82, main_v83, main_v84, main_v85]

theorem opsNorm1_writes :
    (opsNorm1 : List (HloOp τ sig (Elt F))).Forall fun op => op.writes ⊆ (writesNorm1.map (Proc.devRef (τ := τ) .tc)).toFinset :=
  ⟨RefTools.writes_sub_of_mem _ _ main_call2_cst rfl (by decide), RefTools.writes_sub_of_mem _ _ main_call2_v0 rfl (by decide),
   RefTools.writes_sub_of_mem _ _ main_v66 rfl (by decide), RefTools.writes_sub_of_mem _ _ main_cst_13 rfl (by decide),
   RefTools.writes_sub_of_mem _ _ main_v67 rfl (by decide), RefTools.writes_sub_of_mem _ _ main_cst_14 rfl (by decide),
   RefTools.writes_sub_of_mem _ _ main_v68 rfl (by decide), RefTools.writes_sub_of_mem _ _ main_v69 rfl (by decide),
   RefTools.writes_sub_of_mem _ _ main_c_15 rfl (by decide), RefTools.writes_sub_of_mem _ _ main_call3_cst rfl (by decide),
   RefTools.writes_sub_of_mem _ _ main_call3_v0 rfl (by decide), RefTools.writes_sub_of_mem _ _ main_call3_v1 rfl (by decide),
   RefTools.writes_sub_of_mem _ _ main_call3_cst_0 rfl (by decide), RefTools.writes_sub_of_mem _ _ main_call3_v2 rfl (by decide),
   RefTools.writes_sub_of_mem _ _ main_call3_v3 rfl (by decide), RefTools.writes_sub_of_mem _ _ main_call3_v4 rfl (by decide),
   RefTools.writes_sub_of_mem _ _ main_call3_v5 rfl (by decide), RefTools.writes_sub_of_mem _ _ main_call3_v6 rfl (by decide),
   RefTools.writes_sub_of_mem _ _ main_call3_v7 rfl (by decide), RefTools.writes_sub_of_mem _ _ main_call3_cst_1 rfl (by decide),
   RefTools.writes_sub_of_mem _ _ main_call3_v8 rfl (by decide), RefTools.writes_sub_of_mem _ _ main_call3_cst_2 rfl (by decide),
   RefTools.writes_sub_of_mem _ _ main_call3_v9 rfl (by decide), RefTools.writes_sub_of_mem _ _ main_call3_v10 rfl (by decide),
   RefTools.writes_sub_of_mem _ _ main_call3_v11 rfl (by decide), RefTools.writes_sub_of_mem _ _ main_call3_cst_3 rfl (by decide),
   RefTools.writes_sub_of_mem _ _ main_call3_v12 rfl (by decide), RefTools.writes_sub_of_mem _ _ main_call3_cst_4 rfl (by decide),
   RefTools.writes_sub_of_mem _ _ main_call3_call0_v0 rfl (by decide), RefTools.writes_sub_of_mem _ _ main_call3_call0_v1 rfl (by decide),
   RefTools.writes_sub_of_mem _ _ main_v70 rfl (by decide), RefTools.writes_sub_of_mem _ _ main_v71 rfl (by decide),
   RefTools.writes_sub_of_mem _ _ main_v72 rfl (by decide), RefTools.writes_sub_of_mem _ _ main_v73 rfl (by decide),
   RefTools.writes_sub_of_mem _ _ main_cst_16 rfl (by decide), RefTools.writes_sub_of_mem _ _ main_v74 rfl (by decide),
   RefTools.writes_sub_of_mem _ _ main_v75 rfl (by decide), RefTools.writes_sub_of_mem _ _ main_v76 rfl (by decide),
   RefTools.writes_sub_of_mem _ _ main_v77 rfl (by decide), RefTools.writes_sub_of_mem _ _ main_v78 rfl (by decide),
   RefTools.writes_sub_of_mem _ _ main_v79 rfl (by decide), RefTools.writes_sub_of_mem _ _ main_v80 rfl (by decide),
   RefTools.writes_sub_of_mem _ _ main_v81 rfl (by decide), RefTools.writes_sub_of_mem _ _ main_v82 rfl (by decide),
   RefTools.writes_sub_of_mem _ _ main_v83 rfl (by decide), RefTools.writes_sub_of_mem _ _ main_v84 rfl (by decide),
   RefTools.writes_sub_of_mem _ _ main_v85 rfl (by decide)⟩

theorem opsNorm1_sub : (opsNorm1 : List (HloOp τ sig (Elt F))).Forall fun op => op.bufs ⊆ tcRefs τ sig :=
  ⟨nullary_bufs_sub .., unary_bufs_sub .., binary_bufs_sub .., nullary_bufs_sub .., binary_bufs_sub .., nullary_bufs_sub ..,
   unary_bufs_sub .., binary_bufs_sub .., nullary_bufs_sub .., nullary_bufs_sub .., binary_bufs_sub .., unary_bufs_sub ..,
   nullary_bufs_sub .., unary_bufs_sub .., binary_bufs_sub .., unary_bufs_sub .., binary_bufs_sub .., binary_bufs_sub ..,
   unary_bufs_sub .., nullary_bufs_sub .., binary_bufs_sub .., nullary_bufs_sub .., binary_bufs_sub .., unary_bufs_sub ..,
   binary_bufs_sub .., nullary_bufs_sub .., binary_bufs_sub .., nullary_bufs_sub .., unary_bufs_sub .., unary_bufs_sub ..,
   ternary_bufs_sub .., unary_bufs_sub .., unary_bufs_sub .., binary_bufs_sub .., nullary_bufs_sub .., unary_bufs_sub ..,
   binary_bufs_sub .., unary_bufs_sub .., unary_bufs_sub .., unary_bufs_sub .., binary_bufs_sub .., unary_bufs_sub ..,
   unary_bufs_sub .., binary_bufs_sub .., unary_bufs_sub .., unary_bufs_sub .., binary_bufs_sub ..⟩

/-- Every operation of `opsNorm1` determines what it writes. -/
theorem opsNorm1_fresh : (opsNorm1 : List (HloOp τ sig (Elt F))).Forall fun op => op.fresh = ∅ :=
  ⟨rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl⟩

/-- A buffer `opsNorm1` does not write keeps its contents. -/
theorem opsNorm1_keep (V : Valuation τ sig (Elt F)) (r : Ref sig .tc) (h : r ∉ writesNorm1) :
    after opsNorm1 V (Proc.devRef .tc r) = V (Proc.devRef .tc r) :=
  after_of_writes_sub opsNorm1 V opsNorm1_writes h

attribute [local irreducible] Host.reduceAdd Host.gather Host.scatterAdd in
set_option maxRecDepth 8192 in
set_option maxHeartbeats 1000000 in
/-- The list's fold at its result buffer is the positive part followed by batch normalisation, of the contents of the three buffers it reads: each operation's result is its function of the operands' contents, and the composition is the definition of `Spec.refReluNorm256` unfolded. The sums over the rows stay folded. -/
theorem norm1_val (V : Valuation τ sig (Elt F)) :
    after opsNorm1 V (main_v85 : DevRef τ sig)
      = Spec.refReluNorm256 (V (main_v65 : DevRef τ sig)) (V (main_arg6 : DevRef τ sig)) (V (main_arg7 : DevRef τ sig)) := by
  simp only [after_cons, after_nil]
  rfl

end Cert.ReferenceIdeal.RefNorm1

end
-- ==== Proof.RefConv2.lean ====
/-
  The fourth stage of the reference's run: the second graph convolution, as two lists run one after the other
  (the second begins at the targets' index table), and what they leave in the result buffer — `Spec.refConv2` of the
  normalised hidden layer, the edge table, the two weight matrices and the bias.
-/
import proofs.«135245_j16080357556243_1_alg».proof.Proof.RefSpec
import proofs.«135245_j16080357556243_1_alg».proof.Proof.RefTools
import Idealize.ShloMosaic.Lib.StableHlo.Run

noncomputable section

namespace Cert.ReferenceIdeal.RefConv2

open Cert.ReferenceIdeal Idealize.ShloMosaic Idealize.ShloMosaic.TcCoe Idealize.SL.Sem Idealize.ShloMosaic.StableHlo
open Facts₀

variable {F : FTy → Type} [FloatOps F] [Facts]

/-- The two rows of the edge table; the hidden layer's rows gathered at the sources (negative indices first moved up by the number of nodes); the zero matrix the sums start from. -/
abbrev opsConv2a : List (HloOp τ sig (Elt F)) :=
  [ unary main_arg1 main_v86 ((extractStridedSlice S1x320000 ![0, 0] · slices_S2x320000_S1x320000_0_0) : Vec F S2x320000 .i32 → Vec F S1x320000 .i32),
    reshape main_v86 main_v87 rfl shapeCasts_S1x320000_S320000,
    unary main_arg1 main_v88 ((extractStridedSlice S1x320000 ![1, 0] · slices_S2x320000_S1x320000_1_0) : Vec F S2x320000 .i32 → Vec F S1x320000 .i32),
    reshape main_v88 main_v89 rfl shapeCasts_S1x320000_S320000,
    nullary main_c_17 (constantI S_ 32 0#32),
    unary main_c_17 main_v90 (broadcastInDim S320000 ![] bcast_S_S320000 : Vec F S_ .i32 → Vec F S320000 .i32),
    binary main_v87 main_v90 main_v91 (cmpi .slt : Vec F S320000 .i32 → Vec F S320000 .i32 → Vec F S320000 .i1),
    nullary main_c_18 (constantI S_ 32 10000#32),
    unary main_c_18 main_v92 (broadcastInDim S320000 ![] bcast_S_S320000 : Vec F S_ .i32 → Vec F S320000 .i32),
    binary main_v87 main_v92 main_v93 (addi : Vec F S320000 .i32 → Vec F S320000 .i32 → Vec F S320000 .i32),
    ternary main_v91 main_v93 main_v87 main_v94 (select : Vec F S320000 .i1 → Vec F S320000 .i32 → Vec F S320000 .i32 → Vec F S320000 .i32),
    unary main_v94 main_v95 (broadcastInDim S320000x1 ![0] bcast_S320000_S320000x1_0 : Vec F S320000 .i32 → Vec F S320000x1 .i32),
    binary main_v85 main_v95 main_v96 ((fun x i => Host.gather gather_S10000x256_S320000x1_S320000x256_1_0_n_n_0_1_1256 x i) : Vec F S10000x256 .f32 → Vec F S320000x1 .i32 → Vec F S320000x256 .f32),
    nullary main_cst_19 (constant S_ .f32 0x00000000#32),
    unary main_cst_19 main_v97 (broadcastInDim S10000x256 ![] bcast_S_S10000x256 : Vec F S_ .f32 → Vec F S10000x256 .f32) ]

/-- The buffers `opsConv2a` writes: one per operation, in order. -/
abbrev writesConv2a : List (Ref sig .tc) :=
  [main_v86, main_v87, main_v88, main_v89, main_c_17, main_v90, main_v91, main_c_18,
   main_v92, main_v93, main_v94, main_v95, main_v96, main_cst_19, main_v97]

theorem opsConv2a_writes :
    (opsConv2a : List (HloOp τ sig (Elt F))).Forall fun op => op.writes ⊆ (writesConv2a.map (Proc.devRef (τ := τ) .tc)).toFinset :=
  ⟨RefTools.writes_sub_of_mem _ _ main_v86 rfl (by decide), RefTools.writes_sub_of_mem _ _ main_v87 rfl (by decide),
   RefTools.writes_sub_of_mem _ _ main_v88 rfl (by decide), RefTools.writes_sub_of_mem _ _ main_v89 rfl (by decide),
   RefTools.writes_sub_of_mem _ _ main_c_17 rfl (by decide), RefTools.writes_sub_of_mem _ _ main_v90 rfl (by decide),
   RefTools.writes_sub_of_mem _ _ main_v91 rfl (by decide), RefTools.writes_sub_of_mem _ _ main_c_18 rfl (by decide),
   RefTools.writes_sub_of_mem _ _ main_v92 rfl (by decide), RefTools.writes_sub_of_mem _ _ main_v93 rfl (by decide),
   RefTools.writes_sub_of_mem _ _ main_v94 rfl (by decide), RefTools.writes_sub_of_mem _ _ main_v95 rfl (by decide),
   RefTools.writes_sub_of_mem _ _ main_v96 rfl (by decide), RefTools.writes_sub_of_mem _ _ main_cst_19 rfl (by decide),
   RefTools.writes_sub_of_mem _ _ main_v97 rfl (by decide)⟩

theorem opsConv2a_sub : (opsConv2a : List (HloOp τ sig (Elt F))).Forall fun op => op.bufs ⊆ tcRefs τ sig :=
  ⟨unary_bufs_sub .., reshape_bufs_sub .., unary_bufs_sub .., reshape_bufs_sub .., nullary_bufs_sub .., unary_bufs_sub ..,
   binary_bufs_sub .., nullary_bufs_sub .., unary_bufs_sub .., binary_bufs_sub .., ternary_bufs_sub .., unary_bufs_sub ..,
   binary_bufs_sub .., nullary_bufs_sub .., unary_bufs_sub ..⟩

/-- Every operation of `opsConv2a` determines what it writes. -/
theorem opsConv2a_fresh : (opsConv2a : List (HloOp τ sig (Elt F))).Forall fun op => op.fresh = ∅ :=
  ⟨rfl, rfl, rfl, rfl, rfl, rfl, rfl, rfl, rfl, rfl, rfl, rfl, rfl, rfl, rfl⟩

/-- A buffer `opsConv2a` does not write keeps its contents. -/
theorem opsConv2a_keep (V : Valuation τ sig (Elt F)) (r : Ref sig .tc) (h : r ∉ writesConv2a) :
    after opsConv2a V (Proc.devRef .tc r) = V (Proc.devRef .tc r) :=
  after_of_writes_sub opsConv2a V opsConv2a_writes h

/-- The gathered rows scattered with addition to the targets; that sum times the first matrix, plus the bias, plus the hidden layer times the second matrix. -/
abbrev opsConv2b : List (HloOp τ sig (Elt F)) :=
  [ unary main_v89 main_v98 (broadcastInDim S320000x1 ![0] bcast_S320000_S320000x1_0 : Vec F S320000 .i32 → Vec F S320000x1 .i32),
    ternary main_v97 main_v98 main_v96 main_v99 ((fun x i u => Host.scatterAdd scatter_S10000x256_S320000x1_S320000x256_1_0_0_1 x i u) : Vec F S10000x256 .f32 → Vec F S320000x1 .i32 → Vec F S320000x256 .f32 → Vec F S10000x256 .f32),
    binary main_v99 main_arg8 main_v100 ((fun l r => Host.dotGeneral dot_S10000x256_S256x256_S10000x256_1_0_0_1_n_n none l r) : Vec F S10000x256 .f32 → Vec F S256x256 .f32 → Vec F S10000x256 .f32),
    unary main_arg9 main_v101 (broadcastInDim S1x256 ![1] bcast_S256_S1x256_1 : Vec F S256 .f32 → Vec F S1x256 .f32),
    unary main_v101 main_v102 (broadcastInDim S10000x256 ![0, 1] bcast_S1x256_S10000x256_0_1 : Vec F S1x256 .f32 → Vec F S10000x256 .f32),
    binary main_v100 main_v102 main_v103 (addf : Vec F S10000x256 .f32 → Vec F S10000x256 .f32 → Vec F S10000x256 .f32),
    binary main_v85 main_arg10 main_v104 ((fun l r => Host.dotGeneral dot_S10000x256_S256x256_S10000x256_1_0_0_1_n_n none l r) : Vec F S10000x256 .f32 → Vec F S256x256 .f32 → Vec F S10000x256 .f32),
    binary main_v103 main_v104 main_v105 (addf : Vec F S10000x256 .f32 → Vec F S10000x256 .f32 → Vec F S10000x256 .f32) ]

/-- The buffers `opsConv2b` writes: one per operation, in order. -/
abbrev writesConv2b : List (Ref sig .tc) :=
  [main_v98, main_v99, main_v100, main_v101, main_v102, main_v103, main_v104, main_v105]

theorem opsConv2b_writes :
    (opsConv2b : List (HloOp τ sig (Elt F))).Forall fun op => op.writes ⊆ (writesConv2b.map (Proc.devRef (τ := τ) .tc)).toFinset :=
  ⟨RefTools.writes_sub_of_mem _ _ main_v98 rfl (by decide), RefTools.writes_sub_of_mem _ _ main_v99 rfl (by decide),
   RefTools.writes_sub_of_mem _ _ main_v100 rfl (by decide), RefTools.writes_sub_of_mem _ _ main_v101 rfl (by decide),
   RefTools.writes_sub_of_mem _ _ main_v102 rfl (by decide), RefTools.writes_sub_of_mem _ _ main_v103 rfl (by decide),
   RefTools.writes_sub_of_mem _ _ main_v104 rfl (by decide), RefTools.writes_sub_of_mem _ _ main_v105 rfl (by decide)⟩

theorem opsConv2b_sub : (opsConv2b : List (HloOp τ sig (Elt F))).Forall fun op => op.bufs ⊆ tcRefs τ sig :=
  ⟨unary_bufs_sub .., ternary_bufs_sub .., binary_bufs_sub .., unary_bufs_sub .., unary_bufs_sub .., binary_bufs_sub ..,
   binary_bufs_sub .., binary_bufs_sub ..⟩

/-- Every operation of `opsConv2b` determines what it writes. -/
theorem opsConv2b_fresh : (opsConv2b : List (HloOp τ sig (Elt F))).Forall fun op => op.fresh = ∅ :=
  ⟨rfl, rfl, rfl, rfl, rfl, rfl, rfl, rfl⟩

/-- A buffer `opsConv2b` does not write keeps its contents. -/
theorem opsConv2b_keep (V : Valuation τ sig (Elt F)) (r : Ref sig .tc) (h : r ∉ writesConv2b) :
    after opsConv2b V (Proc.devRef .tc r) = V (Proc.devRef .tc r) :=
  after_of_writes_sub opsConv2b V opsConv2b_writes h

attribute [local irreducible] Host.reduceAdd Host.gather Host.scatterAdd in
set_option maxRecDepth 8192 in
set_option maxHeartbeats 1000000 in
/-- The two lists' fold at the result buffer is the second convolution of the contents of the five buffers it reads: each operation's result is its function of the operands' contents, and the composition is the definition of `Spec.refConv2` unfolded. The scatter, the gather and the matrix products stay folded. -/
theorem conv2_val (V : Valuation τ sig (Elt F)) :
    after opsConv2b (after opsConv2a V) (main_v105 : DevRef τ sig)
      = Spec.refConv2 (V (main_v85 : DevRef τ sig)) (V (main_arg1 : DevRef τ sig)) (V (main_arg8 : DevRef τ sig)) (V (main_arg9 : DevRef τ sig)) (V (main_arg10 : DevRef τ sig)) := by
  simp only [after_cons, after_nil]
  rfl

end Cert.ReferenceIdeal.RefConv2

end
-- ==== Proof.RefNorm2.lean ====
/-
  The fifth stage of the reference's run: the positive part and the batch normalisation at width 256, as a list,
  and what the list leaves in its result buffer — `Spec.refReluNorm256` of the convolution's output and the two
  parameter vectors. The positive part and the variance are called functions (the variance calls a selection in
  turn); their operations are listed in place over each call's own buffers.
-/
import proofs.«135245_j16080357556243_1_alg».proof.Proof.RefSpec
import proofs.«135245_j16080357556243_1_alg».proof.Proof.RefTools
import Idealize.ShloMosaic.Lib.StableHlo.Run

noncomputable section

namespace Cert.ReferenceIdeal.RefNorm2

open Cert.ReferenceIdeal Idealize.ShloMosaic Idealize.ShloMosaic.TcCoe Idealize.SL.Sem Idealize.ShloMosaic.StableHlo
open Facts₀

variable {F : FTy → Type} [FloatOps F] [Facts]

/-- The positive part (three operations of the called function); the column sums and means; the variance (twenty operations of the called function, then three of the selection it calls); the deviations times the inverse standard deviation, times the scale, plus the shift. -/
abbrev opsNorm2 : List (HloOp τ sig (Elt F)) :=
  [ TRef.nullary main_call4.cst (constant S_ .f32 0x00000000#32),
    TRef.unary main_call4.cst main_call4.v0 (broadcastInDim S10000x256 ![] bcast_S_S10000x256),
    TRef.binary (.of main_v105 : TRef sig ⟨S10000x256, .f32⟩) main_call4.v0 main_call4.v1 maximumf,
    nullary main_cst_20 (constant S_ .f32 0x00000000#32),
    binary main_v106 main_cst_20 main_v107 ((fun x v => Host.reduceAdd x v reducesTo_S10000x256_S256_d0 h_S_) : Vec F S10000x256 .f32 → Vec F S_ .f32 → Vec F S256 .f32),
    nullary main_cst_21 (constant S_ .f32 0x461C4000#32),
    unary main_cst_21 main_v108 (broadcastInDim S256 ![] bcast_S_S256 : Vec F S_ .f32 → Vec F S256 .f32),
    binary main_v107 main_v108 main_v109 (Host.divf : Vec F S256 .f32 → Vec F S256 .f32 → Vec F S256 .f32),
    nullary main_c_22 (constantI S_ 32 0#32),
    TRef.nullary main_call5.cst (constant S_ .f32 0x00000000#32),
    TRef.binary (.of main_v106 : TRef sig ⟨S10000x256, .f32⟩) main_call5.cst main_call5.v0 (fun x v => Host.reduceAdd x v reducesTo_S10000x256_S256_d0 h_S_),
    TRef.unary main_call5.v0 main_call5.v1 (broadcastInDim S1x256 ![1] bcast_S256_S1x256_1),
    TRef.nullary main_call5.cst_0 (constant S_ .f32 0x461C4000#32),
    TRef.unary main_call5.cst_0 main_call5.v2 (broadcastInDim S1x256 ![] bcast_S_S1x256),
    TRef.binary main_call5.v1 main_call5.v2 main_call5.v3 Host.divf,
    TRef.unary main_call5.v3 main_call5.v4 (broadcastInDim S10000x256 ![0, 1] bcast_S1x256_S10000x256_0_1),
    TRef.binary (.of main_v106 : TRef sig ⟨S10000x256, .f32⟩) main_call5.v4 main_call5.v5 subf,
    TRef.binary main_call5.v5 main_call5.v5 main_call5.v6 mulf,
    TRef.unary (.of main_c_22 : TRef sig ⟨S_, .i32⟩) main_call5.v7 (sitofp .f32),
    TRef.nullary main_call5.cst_1 (constant S_ .f32 0x461C4000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S10000x256_S256_d0 h_S_),
    TRef.unary main_call5.v8 main_call5.v10 (broadcastInDim S256 ![] bcast_S_S256),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S256 ![] bcast_S_S256),
    TRef.ternary main_call5.v12 main_call5.v11 main_call5.call0.v1 main_call5.call0.v2 (fun p a b => select (broadcastInDim S256 ![] bcast_S_S256 p) a b),
    unary main_v109 main_v111 (broadcastInDim S1x256 ![1] bcast_S256_S1x256_1 : Vec F S256 .f32 → Vec F S1x256 .f32),
    unary main_v111 main_v112 (broadcastInDim S10000x256 ![0, 1] bcast_S1x256_S10000x256_0_1 : Vec F S1x256 .f32 → Vec F S10000x256 .f32),
    binary main_v106 main_v112 main_v113 (subf : Vec F S10000x256 .f32 → Vec F S10000x256 .f32 → Vec F S10000x256 .f32),
    nullary main_cst_23 (constant S_ .f32 0x3727C5AC#32),
    unary main_cst_23 main_v114 (broadcastInDim S256 ![] bcast_S_S256 : Vec F S_ .f32 → Vec F S256 .f32),
    binary main_v110 main_v114 main_v115 (addf : Vec F S256 .f32 → Vec F S256 .f32 → Vec F S256 .f32),
    unary main_v115 main_v116 (Host.rsqrt : Vec F S256 .f32 → Vec F S256 .f32),
    unary main_v116 main_v117 (broadcastInDim S1x256 ![1] bcast_S256_S1x256_1 : Vec F S256 .f32 → Vec F S1x256 .f32),
    unary main_v117 main_v118 (broadcastInDim S10000x256 ![0, 1] bcast_S1x256_S10000x256_0_1 : Vec F S1x256 .f32 → Vec F S10000x256 .f32),
    binary main_v113 main_v118 main_v119 (mulf : Vec F S10000x256 .f32 → Vec F S10000x256 .f32 → Vec F S10000x256 .f32),
    unary main_arg11 main_v120 (broadcastInDim S1x256 ![1] bcast_S256_S1x256_1 : Vec F S256 .f32 → Vec F S1x256 .f32),
    unary main_v120 main_v121 (broadcastInDim S10000x256 ![0, 1] bcast_S1x256_S10000x256_0_1 : Vec F S1x256 .f32 → Vec F S10000x256 .f32),
    binary main_v119 main_v121 main_v122 (mulf : Vec F S10000x256 .f32 → Vec F S10000x256 .f32 → Vec F S10000x256 .f32),
    unary main_arg12 main_v123 (broadcastInDim S1x256 ![1] bcast_S256_S1x256_1 : Vec F S256 .f32 → Vec F S1x256 .f32),
    unary main_v123 main_v124 (broadcastInDim S10000x256 ![0, 1] bcast_S1x256_S10000x256_0_1 : Vec F S1x256 .f32 → Vec F S10000x256 .f32),
    binary main_v122 main_v124 main_v125 (addf : Vec F S10000x256 .f32 → Vec F S10000x256 .f32 → Vec F S10000x256 .f32) ]

/-- The buffers `opsNorm2` writes: one per operation, in order. -/
abbrev writesNorm2 : List (Ref sig .tc) :=
  [main_call4_cst, main_call4_v0, main_v106, main_cst_20, main_v107, main_cst_21, main_v108, main_v109,
   main_c_22, main_call5_cst, main_call5_v0, main_call5_v1, main_call5_cst_0, main_call5_v2, main_call5_v3, main_call5_v4,
   main_call5_v5, main_call5_v6, main_call5_v7, main_call5_cst_1, main_call5_v8, main_call5_cst_2, main_call5_v9, main_call5_v10,
   main_call5_v11, main_call5_cst_3, main_call5_v12, main_call5_cst_4, main_call5_call0_v0, main_call5_call0_v1, main_v110, main_v111,
   main_v112, main_v113, main_cst_23, main_v114, main_v115, main_v116, main_v117, main_v118,
   main_v119, main_v120, main_v121, main_v122, main_v123, main_v124, main_v125]

theorem opsNorm2_writes :
    (opsNorm2 : List (HloOp τ sig (Elt F))).Forall fun op => op.writes ⊆ (writesNorm2.map (Proc.devRef (τ := τ) .tc)).toFinset :=
  ⟨RefTools.writes_sub_of_mem _ _ main_call4_cst rfl (by decide), RefTools.writes_sub_of_mem _ _ main_call4_v0 rfl (by decide),
   RefTools.writes_sub_of_mem _ _ main_v106 rfl (by decide), RefTools.writes_sub_of_mem _ _ main_cst_20 rfl (by decide),
   RefTools.writes_sub_of_mem _ _ main_v107 rfl (by decide), RefTools.writes_sub_of_mem _ _ main_cst_21 rfl (by decide),
   RefTools.writes_sub_of_mem _ _ main_v108 rfl (by decide), RefTools.writes_sub_of_mem _ _ main_v109 rfl (by decide),
   RefTools.writes_sub_of_mem _ _ main_c_22 rfl (by decide), RefTools.writes_sub_of_mem _ _ main_call5_cst rfl (by decide),
   RefTools.writes_sub_of_mem _ _ main_call5_v0 rfl (by decide), RefTools.writes_sub_of_mem _ _ main_call5_v1 rfl (by decide),
   RefTools.writes_sub_of_mem _ _ main_call5_cst_0 rfl (by decide), RefTools.writes_sub_of_mem _ _ main_call5_v2 rfl (by decide),
   RefTools.writes_sub_of_mem _ _ main_call5_v3 rfl (by decide), RefTools.writes_sub_of_mem _ _ main_call5_v4 rfl (by decide),
   RefTools.writes_sub_of_mem _ _ main_call5_v5 rfl (by decide), RefTools.writes_sub_of_mem _ _ main_call5_v6 rfl (by decide),
   RefTools.writes_sub_of_mem _ _ main_call5_v7 rfl (by decide), RefTools.writes_sub_of_mem _ _ main_call5_cst_1 rfl (by decide),
   RefTools.writes_sub_of_mem _ _ main_call5_v8 rfl (by decide), RefTools.writes_sub_of_mem _ _ main_call5_cst_2 rfl (by decide),
   RefTools.writes_sub_of_mem _ _ main_call5_v9 rfl (by decide), RefTools.writes_sub_of_mem _ _ main_call5_v10 rfl (by decide),
   RefTools.writes_sub_of_mem _ _ main_call5_v11 rfl (by decide), RefTools.writes_sub_of_mem _ _ main_call5_cst_3 rfl (by decide),
   RefTools.writes_sub_of_mem _ _ main_call5_v12 rfl (by decide), RefTools.writes_sub_of_mem _ _ main_call5_cst_4 rfl (by decide),
   RefTools.writes_sub_of_mem _ _ main_call5_call0_v0 rfl (by decide), RefTools.writes_sub_of_mem _ _ main_call5_call0_v1 rfl (by decide),
   RefTools.writes_sub_of_mem _ _ main_v110 rfl (by decide), RefTools.writes_sub_of_mem _ _ main_v111 rfl (by decide),
   RefTools.writes_sub_of_mem _ _ main_v112 rfl (by decide), RefTools.writes_sub_of_mem _ _ main_v113 rfl (by decide),
   RefTools.writes_sub_of_mem _ _ main_cst_23 rfl (by decide), RefTools.writes_sub_of_mem _ _ main_v114 rfl (by decide),
   RefTools.writes_sub_of_mem _ _ main_v115 rfl (by decide), RefTools.writes_sub_of_mem _ _ main_v116 rfl (by decide),
   RefTools.writes_sub_of_mem _ _ main_v117 rfl (by decide), RefTools.writes_sub_of_mem _ _ main_v118 rfl (by decide),
   RefTools.writes_sub_of_mem _ _ main_v119 rfl (by decide), RefTools.writes_sub_of_mem _ _ main_v120 rfl (by decide),
   RefTools.writes_sub_of_mem _ _ main_v121 rfl (by decide), RefTools.writes_sub_of_mem _ _ main_v122 rfl (by decide),
   RefTools.writes_sub_of_mem _ _ main_v123 rfl (by decide), RefTools.writes_sub_of_mem _ _ main_v124 rfl (by decide),
   RefTools.writes_sub_of_mem _ _ main_v125 rfl (by decide)⟩

theorem opsNorm2_sub : (opsNorm2 : List (HloOp τ sig (Elt F))).Forall fun op => op.bufs ⊆ tcRefs τ sig :=
  ⟨nullary_bufs_sub .., unary_bufs_sub .., binary_bufs_sub .., nullary_bufs_sub .., binary_bufs_sub .., nullary_bufs_sub ..,
   unary_bufs_sub .., binary_bufs_sub .., nullary_bufs_sub .., nullary_bufs_sub .., binary_bufs_sub .., unary_bufs_sub ..,
   nullary_bufs_sub .., unary_bufs_sub .., binary_bufs_sub .., unary_bufs_sub .., binary_bufs_sub .., binary_bufs_sub ..,
   unary_bufs_sub .., nullary_bufs_sub .., binary_bufs_sub .., nullary_bufs_sub .., binary_bufs_sub .., unary_bufs_sub ..,
   binary_bufs_sub .., nullary_bufs_sub .., binary_bufs_sub .., nullary_bufs_sub .., unary_bufs_sub .., unary_bufs_sub ..,
   ternary_bufs_sub .., unary_bufs_sub .., unary_bufs_sub .., binary_bufs_sub .., nullary_bufs_sub .., unary_bufs_sub ..,
   binary_bufs_sub .., unary_bufs_sub .., unary_bufs_sub .., unary_bufs_sub .., binary_bufs_sub .., unary_bufs_sub ..,
   unary_bufs_sub .., binary_bufs_sub .., unary_bufs_sub .., unary_bufs_sub .., binary_bufs_sub ..⟩

/-- Every operation of `opsNorm2` determines what it writes. -/
theorem opsNorm2_fresh : (opsNorm2 : List (HloOp τ sig (Elt F))).Forall fun op => op.fresh = ∅ :=
  ⟨rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl⟩

/-- A buffer `opsNorm2` does not write keeps its contents. -/
theorem opsNorm2_keep (V : Valuation τ sig (Elt F)) (r : Ref sig .tc) (h : r ∉ writesNorm2) :
    after opsNorm2 V (Proc.devRef .tc r) = V (Proc.devRef .tc r) :=
  after_of_writes_sub opsNorm2 V opsNorm2_writes h

attribute [local irreducible] Host.reduceAdd Host.gather Host.scatterAdd in
set_option maxRecDepth 8192 in
set_option maxHeartbeats 1000000 in
/-- The list's fold at its result buffer is the positive part followed by batch normalisation, of the contents of the three buffers it reads: each operation's result is its function of the operands' contents, and the composition is the definition of `Spec.refReluNorm256` unfolded. The sums over the rows stay folded. -/
theorem norm2_val (V : Valuation τ sig (Elt F)) :
    after opsNorm2 V (main_v125 : DevRef τ sig)
      = Spec.refReluNorm256 (V (main_v105 : DevRef τ sig)) (V (main_arg11 : DevRef τ sig)) (V (main_arg12 : DevRef τ sig)) := by
  simp only [after_cons, after_nil]
  rfl

end Cert.ReferenceIdeal.RefNorm2

end
-- ==== Proof.RefRun.lean ====
/-
  The reference's run, assembled from its five stages: the program is the straight line of all the stages'
  operations, every weakly fair execution of it terminates, the result buffer ends at `Spec.refOut` of the
  thirteen arguments' contents at launch, and the arguments end unchanged.
-/
import proofs.«135245_j16080357556243_1_alg».proof.Proof.RefNorm0
import proofs.«135245_j16080357556243_1_alg».proof.Proof.RefConv1
import proofs.«135245_j16080357556243_1_alg».proof.Proof.RefNorm1
import proofs.«135245_j16080357556243_1_alg».proof.Proof.RefConv2
import proofs.«135245_j16080357556243_1_alg».proof.Proof.RefNorm2
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F] [Facts]

open RefNorm0 RefConv1 RefNorm1 RefConv2 RefNorm2

/-- All the operations, in order: the five stages' lists, the two convolutions' in two pieces each. -/
abbrev ops : List (HloOp τ sig (Elt F)) :=
  opsNorm0 ++ (opsConv1a ++ (opsConv1b ++ (opsNorm1 ++ (opsConv2a ++ (opsConv2b ++ opsNorm2)))))

/-! ## The program is that straight line

The program is printed as three consecutive pieces. Each is a chain of single operations and of calls; a call is
its function's chain over the call's buffers, so with the functions unfolded and the sequencing reassociated each
piece is the line of the stage lists it covers. -/

set_option maxRecDepth 8192 in
set_option maxHeartbeats 4000000 in
theorem main_part0_eq (c : Dev nD) : main_part0 (F := F) c = seq (opsNorm0 ++ opsConv1a) := by
  simp only [main_part0, fn_var.body, fn_where.body, fn_where_0.body, opsNorm0, opsConv1a,
    List.cons_append, List.nil_append, seq, bind_assoc, pure_bind]
  rfl

set_option maxRecDepth 8192 in
set_option maxHeartbeats 4000000 in
theorem main_part1_eq (c : Dev nD) : main_part1 (F := F) c = seq (opsConv1b ++ (opsNorm1 ++ opsConv2a)) := by
  simp only [main_part1, fn_relu.body, fn_var_1.body, fn_where_2.body, opsConv1b, opsNorm1, opsConv2a,
    List.cons_append, List.nil_append, seq, bind_assoc, pure_bind]
  rfl

set_option maxRecDepth 8192 in
set_option maxHeartbeats 4000000 in
theorem main_part2_eq (c : Dev nD) : main_part2 (F := F) c = seq (opsConv2b ++ opsNorm2) := by
  simp only [main_part2, fn_relu.body, fn_var_1.body, fn_where_2.body, opsConv2b, opsNorm2,
    List.cons_append, List.nil_append, seq, bind_assoc, pure_bind]

theorem main_eq (c : Dev nD) : main (F := F) c = seq ops := by
  have e : (ops : List (HloOp τ sig (Elt F)))
      = (opsNorm0 ++ opsConv1a) ++ ((opsConv1b ++ (opsNorm1 ++ opsConv2a)) ++ (opsConv2b ++ opsNorm2)) := by
    simp only [ops, List.append_assoc]
  rw [e, seq_append (opsNorm0 ++ opsConv1a), seq_append (opsConv1b ++ (opsNorm1 ++ opsConv2a)),
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsNorm0_sub op h, List.forall_iff_forall_mem.mp opsConv1a_sub op h,
      List.forall_iff_forall_mem.mp opsConv1b_sub op h, List.forall_iff_forall_mem.mp opsNorm1_sub op h,
      List.forall_iff_forall_mem.mp opsConv2a_sub op h, List.forall_iff_forall_mem.mp opsConv2b_sub op h,
      List.forall_iff_forall_mem.mp opsNorm2_sub op h]

/-- No operation of the line leaves a buffer's contents undetermined. -/
theorem ops_fresh : ∀ op ∈ (ops : List (HloOp τ sig (Elt F))), op.fresh = ∅ := fun op h => by
  simp only [ops, List.mem_append] at h
  rcases h with h | h | h | h | h | h | h
  exacts [List.forall_iff_forall_mem.mp opsNorm0_fresh op h, List.forall_iff_forall_mem.mp opsConv1a_fresh op h,
    List.forall_iff_forall_mem.mp opsConv1b_fresh op h, List.forall_iff_forall_mem.mp opsNorm1_fresh op h,
    List.forall_iff_forall_mem.mp opsConv2a_fresh op h, List.forall_iff_forall_mem.mp opsConv2b_fresh op h,
    List.forall_iff_forall_mem.mp opsNorm2_fresh op h]

/-! ## The contents after each stage -/

/-- The contents after the first stage, after the second, … -/
abbrev after1 (V : Valuation τ sig (Elt F)) : Valuation τ sig (Elt F) := after opsNorm0 V
@[inherit_doc after1]
abbrev after2 (V : Valuation τ sig (Elt F)) : Valuation τ sig (Elt F) := after opsConv1b (after opsConv1a (after1 V))
@[inherit_doc after1]
abbrev after3 (V : Valuation τ sig (Elt F)) : Valuation τ sig (Elt F) := after opsNorm1 (after2 V)
@[inherit_doc after1]
abbrev after4 (V : Valuation τ sig (Elt F)) : Valuation τ sig (Elt F) := after opsConv2b (after opsConv2a (after3 V))
@[inherit_doc after1]
abbrev after5 (V : Valuation τ sig (Elt F)) : Valuation τ sig (Elt F) := after opsNorm2 (after4 V)

theorem after_ops (V : Valuation τ sig (Elt F)) : after ops V = after5 V := by
  simp only [ops, after_append]

/-- A buffer no stage up to the given one writes keeps its launch contents. -/
theorem keep1 (V : Valuation τ sig (Elt F)) (r : Ref sig .tc) (h : r ∉ writesNorm0) :
    after1 V (Proc.devRef .tc r) = V (Proc.devRef .tc r) := opsNorm0_keep V r h
@[inherit_doc keep1]
theorem keep2 (V : Valuation τ sig (Elt F)) (r : Ref sig .tc) (h : r ∉ writesNorm0) (ha : r ∉ writesConv1a)
    (hb : r ∉ writesConv1b) : after2 V (Proc.devRef .tc r) = V (Proc.devRef .tc r) :=
  (opsConv1b_keep _ r hb).trans ((opsConv1a_keep _ r ha).trans (keep1 V r h))
@[inherit_doc keep1]
theorem keep3 (V : Valuation τ sig (Elt F)) (r : Ref sig .tc) (h : r ∉ writesNorm0) (ha : r ∉ writesConv1a)
    (hb : r ∉ writesConv1b) (h3 : r ∉ writesNorm1) : after3 V (Proc.devRef .tc r) = V (Proc.devRef .tc r) :=
  (opsNorm1_keep _ r h3).trans (keep2 V r h ha hb)
@[inherit_doc keep1]
theorem keep4 (V : Valuation τ sig (Elt F)) (r : Ref sig .tc) (h : r ∉ writesNorm0) (ha : r ∉ writesConv1a)
    (hb : r ∉ writesConv1b) (h3 : r ∉ writesNorm1) (h4a : r ∉ writesConv2a) (h4b : r ∉ writesConv2b) :
    after4 V (Proc.devRef .tc r) = V (Proc.devRef .tc r) :=
  (opsConv2b_keep _ r h4b).trans ((opsConv2a_keep _ r h4a).trans (keep3 V r h ha hb h3))
@[inherit_doc keep1]
theorem keep5 (V : Valuation τ sig (Elt F)) (r : Ref sig .tc) (h : r ∉ writesNorm0) (ha : r ∉ writesConv1a)
    (hb : r ∉ writesConv1b) (h3 : r ∉ writesNorm1) (h4a : r ∉ writesConv2a) (h4b : r ∉ writesConv2b)
    (h5 : r ∉ writesNorm2) : after5 V (Proc.devRef .tc r) = V (Proc.devRef .tc r) :=
  (opsNorm2_keep _ r h5).trans (keep4 V r h ha hb h3 h4a h4b)

/-- No stage writes an argument buffer. -/
theorem args_not_written : ∀ r ∈ [main_arg0, main_arg1, main_arg2, main_arg3, main_arg4, main_arg5, main_arg6, main_arg7, main_arg8, main_arg9, main_arg10, main_arg11, main_arg12],
    r ∉ writesNorm0 ∧ r ∉ writesConv1a ∧ r ∉ writesConv1b ∧ r ∉ writesNorm1 ∧ r ∉ writesConv2a ∧ r ∉ writesConv2b
      ∧ r ∉ writesNorm2 := by
  decide

/-- An argument buffer keeps its launch contents through the whole line. -/
theorem arg_keep (V : Valuation τ sig (Elt F)) (r : Ref sig .tc)
    (hr : r ∈ [main_arg0, main_arg1, main_arg2, main_arg3, main_arg4, main_arg5, main_arg6, main_arg7, main_arg8, main_arg9, main_arg10, main_arg11, main_arg12]) :
    after ops V (Proc.devRef .tc r) = V (Proc.devRef .tc r) := by
  rw [after_ops]
  have := args_not_written r hr
  exact keep5 V r this.1 this.2.1 this.2.2.1 this.2.2.2.1 this.2.2.2.2.1 this.2.2.2.2.2.1 this.2.2.2.2.2.2

/-! ## The result, stage by stage -/

theorem val1 (V : Valuation τ sig (Elt F)) :
    after1 V (main_v18 : DevRef τ sig)
      = Spec.refNorm128 (V (main_arg0 : DevRef τ sig)) (V (main_arg2 : DevRef τ sig)) (V (main_arg3 : DevRef τ sig)) := norm0_val V

theorem val2 (V : Valuation τ sig (Elt F)) :
    after2 V (main_v65 : DevRef τ sig)
      = Spec.refConv1 (Spec.refNorm128 (V (main_arg0 : DevRef τ sig)) (V (main_arg2 : DevRef τ sig)) (V (main_arg3 : DevRef τ sig)))
          (V (main_arg1 : DevRef τ sig)) (V (main_arg4 : DevRef τ sig)) (V (main_arg5 : DevRef τ sig)) :=
  (conv1_val (after1 V)).trans (by
    rw [val1 V, keep1 V main_arg1 (by decide), keep1 V main_arg4 (by decide), keep1 V main_arg5 (by decide)])

theorem val3 (V : Valuation τ sig (Elt F)) :
    after3 V (main_v85 : DevRef τ sig)
      = Spec.refReluNorm256 (Spec.refConv1 (Spec.refNorm128 (V (main_arg0 : DevRef τ sig)) (V (main_arg2 : DevRef τ sig)) (V (main_arg3 : DevRef τ sig)))
          (V (main_arg1 : DevRef τ sig)) (V (main_arg4 : DevRef τ sig)) (V (main_arg5 : DevRef τ sig))) (V (main_arg6 : DevRef τ sig)) (V (main_arg7 : DevRef τ sig)) :=
  (norm1_val (after2 V)).trans (by
    rw [val2 V, keep2 V main_arg6 (by decide) (by decide) (by decide), keep2 V main_arg7 (by decide) (by decide) (by decide)])

theorem val4 (V : Valuation τ sig (Elt F)) :
    after4 V (main_v105 : DevRef τ sig)
      = Spec.refConv2 (Spec.refReluNorm256 (Spec.refConv1 (Spec.refNorm128 (V (main_arg0 : DevRef τ sig)) (V (main_arg2 : DevRef τ sig)) (V (main_arg3 : DevRef τ sig)))
          (V (main_arg1 : DevRef τ sig)) (V (main_arg4 : DevRef τ sig)) (V (main_arg5 : DevRef τ sig))) (V (main_arg6 : DevRef τ sig)) (V (main_arg7 : DevRef τ sig)))
          (V (main_arg1 : DevRef τ sig)) (V (main_arg8 : DevRef τ sig)) (V (main_arg9 : DevRef τ sig)) (V (main_arg10 : DevRef τ sig)) :=
  (conv2_val (after3 V)).trans (by
    rw [val3 V, keep3 V main_arg1 (by decide) (by decide) (by decide) (by decide),
      keep3 V main_arg8 (by decide) (by decide) (by decide) (by decide),
      keep3 V main_arg9 (by decide) (by decide) (by decide) (by decide),
      keep3 V main_arg10 (by decide) (by decide) (by decide) (by decide)])

/-- The line's fold at the result buffer is `Spec.refOut` of the thirteen argument buffers' contents. -/
theorem out_val (V : Valuation τ sig (Elt F)) :
    after ops V (main_v125 : DevRef τ sig)
      = Spec.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops]
  refine (norm2_val (after4 V)).trans ?_
  rw [val4 V, keep4 V main_arg11 (by decide) (by decide) (by decide) (by decide) (by decide) (by decide),
    keep4 V main_arg12 (by decide) (by decide) (by decide) (by decide) (by decide) (by decide)]
  rfl

/-! ## The run -/

/-- On every device, for any float values, from any memory with zero counters: every weakly fair execution of the
    program terminates with the result buffer at `Spec.refOut` of the arguments' contents at launch, and every
    argument buffer as it was. -/
theorem run_value (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v125)
          = Spec.refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
      ⟨(h c main_v125).trans (out_val (launchContents m c)),
       (h c main_arg0).trans (arg_keep (launchContents m c) main_arg0 (by decide)),
       (h c main_arg1).trans (arg_keep (launchContents m c) main_arg1 (by decide)),
       (h c main_arg2).trans (arg_keep (launchContents m c) main_arg2 (by decide)),
       (h c main_arg3).trans (arg_keep (launchContents m c) main_arg3 (by decide)),
       (h c main_arg4).trans (arg_keep (launchContents m c) main_arg4 (by decide)),
       (h c main_arg5).trans (arg_keep (launchContents m c) main_arg5 (by decide)),
       (h c main_arg6).trans (arg_keep (launchContents m c) main_arg6 (by decide)),
       (h c main_arg7).trans (arg_keep (launchContents m c) main_arg7 (by decide)),
       (h c main_arg8).trans (arg_keep (launchContents m c) main_arg8 (by decide)),
       (h c main_arg9).trans (arg_keep (launchContents m c) main_arg9 (by decide)),
       (h c main_arg10).trans (arg_keep (launchContents m c) main_arg10 (by decide)),
       (h c main_arg11).trans (arg_keep (launchContents m c) main_arg11 (by decide)),
       (h c main_arg12).trans (arg_keep (launchContents m c) main_arg12 (by decide))⟩)
    (run_seq scopedRefs_eq scopedSems_eq defs main (fun _ => (ops : List (HloOp τ sig (Elt F)))) main_eq (fun _ => ops_sub) m ρ
      (fun _ => ops_fresh))

end Cert.ReferenceIdeal.RefRun

end
-- ==== Proof.LibBatchNorm.lean ====
/-
  General lemmas: batch normalisation followed by a rectifier, on the extended reals, in two arrangements.

  A finite family h of values is normalised with its own mean m = (∑ h) / n and variance v, scaled by γ, shifted by β and
  clipped below at zero. The first arrangement computes the variance as the mean of squares minus the square of the mean,
  clipped below at zero, folds γ and the inverse root into one scale s = γ · (v + ε)^(-1/2) and the mean into one shift
  β − m · s, and returns max (x · s + (β − m · s)) 0. The second computes the variance as the mean of the squared
  deviations and returns max ((x − m) · (v + ε)^(-1/2) · γ + β) 0. When every value, γ, β and ε are real numbers, ε is
  positive and n is the (positive) number of values, the two agree: over the reals the two variances are one number
  (the sum of (h − m)² is the sum of h² minus n · m², because the sum of h is n · m), it is nonnegative, so the clip does
  nothing, its sum with ε is positive, so the inverse root is a real number, and the rest is ring arithmetic. On the
  extended reals the law is false at the infinities (distributivity fails), hence the hypotheses.

  Also here: the predicate "is a real number" on extended reals with its closure under sums, products and finite sums,
  the coercion of a finite real sum, and the inverse root of a positive real.
  Nothing here mentions a program.
-/
import Idealize.ShloMosaic.PureOps.Ideal.Laws

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An extended real whose absolute value is below +∞ is a real number. -/
theorem isReal_of_abs_lt_top {x : EReal} (h : max x (-x) < ⊤) : IsReal x := by
  induction x using EReal.rec with
  | bot => simp at h
  | top => simp at h
  | coe r => exact ⟨r, rfl⟩

/-- The inverse square root of a positive real is the real inverse root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg (ne_of_gt h)]

/-- The first arrangement: variance from the raw moments s = ∑ h and q = ∑ h², clipped at zero; one scale, one shift. -/
def foldedNorm (x s q n γ β ε : EReal) : EReal :=
  max (x * (γ * Ideal.rsqrt (max (Ideal.div q n - Ideal.div s n * Ideal.div s n) 0 + ε))
      + (β - Ideal.div s n * (γ * Ideal.rsqrt (max (Ideal.div q n - Ideal.div s n * Ideal.div s n) 0 + ε)))) 0

/-- The second arrangement: centre, scale by the inverse root of the mean squared deviation plus ε, then γ and β. -/
def centredNorm {ι : Type*} [Fintype ι] (h : ι → EReal) (n γ β ε : EReal) (e : ι) : EReal :=
  max ((h e - Ideal.div (∑ i, h i) n)
        * Ideal.rsqrt (Ideal.div (∑ i, (h i - Ideal.div (∑ i, h i) n) * (h i - Ideal.div (∑ i, h i) n)) n + ε) * γ + β) 0

/-- Over the reals the mean squared deviation is the mean of squares minus the squared mean. -/
theorem real_variance {ι : Type*} [Fintype ι] (f : ι → ℝ) (n : ℝ) (hn : n = (Fintype.card ι : ℝ)) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  have e : ∀ i, (f i - (∑ i, f i) * (1 / n)) * (f i - (∑ i, f i) * (1 / n))
      = f i * f i - 2 * ((∑ i, f i) * (1 / n)) * f i + (∑ i, f i) * (1 / n) * ((∑ i, f i) * (1 / n)) := fun i => by ring
  rw [Finset.sum_congr rfl fun i _ => e i, Finset.sum_add_distrib, Finset.sum_sub_distrib, ← Finset.mul_sum,
    Finset.sum_const, Finset.card_univ, nsmul_eq_mul, ← hn]
  field_simp
  ring

/-- The two arrangements agree on real data. -/
theorem foldedNorm_eq_centredNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ) (hε : ε = (ε' : EReal))
    (hε' : 0 < ε') (e : ι) :
    foldedNorm (h e) (∑ i, h i) (∑ i, h i * h i) (n : EReal) γ β ε = centredNorm h (n : EReal) γ β ε e := by
  choose f hf using hh
  obtain ⟨g, rfl⟩ := hγ
  obtain ⟨b, rfl⟩ := hβ
  subst hε
  have hn0 : n ≠ 0 := ne_of_gt hpos
  have hfun : h = fun i => (f i : EReal) := funext hf
  subst hfun
  unfold foldedNorm centredNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hmax : max (((Q : ℝ) : EReal) * ((1 / n : ℝ) : EReal) - ((S : ℝ) : EReal) * ((1 / n : ℝ) : EReal) * (((S : ℝ) : EReal) * ((1 / n : ℝ) : EReal))) 0
      = ((D * (1 / n) : ℝ) : EReal) := by
    rw [← EReal.coe_mul, ← EReal.coe_mul, ← EReal.coe_mul, ← EReal.coe_sub, ← hvar]
    exact max_eq_left (EReal.coe_nonneg.mpr hv0)
  rw [hmax, ← EReal.coe_mul D, ← EReal.coe_add, rsqrt_coe_pos (by linarith : 0 < D * (1 / n) + ε')]
  simp only [← EReal.coe_mul, ← EReal.coe_sub, ← EReal.coe_add]
  congr 2
  ring

end Cert.LibBatchNorm

end
-- ==== Proof.LibBatchNormRaw.lean ====
/-
  General lemmas: batch normalisation from raw moments, without a clip, on the extended reals.

  A finite family h of n values is normalised with its own mean m = (∑ h) / n and variance v, scaled by γ and
  shifted by β. The first arrangement takes the two raw moments s = ∑ h and q = ∑ h², forms the variance as
  q / n − (s / n)², folds γ and the inverse root into one scale c = γ · (v + ε)^(-1/2) and the mean into one shift
  β − m · c, and returns x · c + (β − m · c). The second centres first: it forms the variance as the mean of the
  squared deviations and returns (x − m) · (v + ε)^(-1/2) · γ + β. When every value, γ, β and ε are real numbers,
  ε is positive and n is the (positive) number of values, the two agree and the common value is a real number:
  over the reals the two variances are one nonnegative number (the sum of (h − m)² is the sum of h² minus n · m²),
  its sum with ε is positive, so the inverse root is real, and the rest is ring arithmetic. On the extended reals
  the law fails at the infinities, hence the hypotheses.

  The same law is stated for sums over a finite set (in particular over the members of a fiber of a finite type),
  with the raw moments optionally written as 0 + ∑, and a few values of float words as real numbers are recorded.
  Nothing here mentions a program.
-/
import proofs.«135245_j16080357556243_1_alg».proof.Proof.LibBatchNorm

noncomputable section

namespace Cert.LibBatchNormRaw

open Idealize.ShloMosaic Cert.LibBatchNorm

/-- The first arrangement: variance from the raw moments s = ∑ h and q = ∑ h², no clip; one scale, one shift. -/
def rawNorm (x s q n γ β ε : EReal) : EReal :=
  x * (γ * Ideal.rsqrt ((Ideal.div q n - Ideal.div s n * Ideal.div s n) + ε))
    + (β - Ideal.div s n * (γ * Ideal.rsqrt ((Ideal.div q n - Ideal.div s n * Ideal.div s n) + ε)))

/-- The second arrangement: centre, scale by the inverse root of the mean squared deviation plus ε, then γ and β. -/
def centredNorm' {ι : Type*} [Fintype ι] (h : ι → EReal) (n γ β ε : EReal) (e : ι) : EReal :=
  (h e - Ideal.div (∑ i, h i) n)
    * Ideal.rsqrt (Ideal.div (∑ i, (h i - Ideal.div (∑ i, h i) n) * (h i - Ideal.div (∑ i, h i) n)) n + ε) * γ + β

/-- The real number both arrangements compute on real data. -/
def realNorm {ι : Type*} [Fintype ι] (f : ι → ℝ) (n g b ε' : ℝ) (e : ι) : ℝ :=
  (f e - (∑ i, f i) * (1 / n))
    * (Real.sqrt ((∑ i, (f i - (∑ i, f i) * (1 / n)) * (f i - (∑ i, f i) * (1 / n))) * (1 / n) + ε'))⁻¹ * g + b

/-- The centred arrangement on real data is the coercion of the real formula. -/
theorem centredNorm'_coe {ι : Type*} [Fintype ι] (f : ι → ℝ) (n g b ε' : ℝ) (hpos : 0 < n) (hε' : 0 < ε') (e : ι) :
    centredNorm' (fun i => (f i : EReal)) (n : EReal) (g : EReal) (b : EReal) (ε' : EReal) e
      = ((realNorm f n g b ε' e : ℝ) : EReal) := by
  have hn0 : n ≠ 0 := ne_of_gt hpos
  unfold centredNorm' realNorm
  simp only [Ideal.div_coe hn0]
  have hs : (∑ i, (f i : EReal)) = ((∑ i, f i : ℝ) : EReal) := (coe_sum _ _).symm
  rw [hs]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set D : ℝ := ∑ i, (f i - S * (1 / n)) * (f i - S * (1 / n)) with hD
  have hD0 : 0 ≤ D := Finset.sum_nonneg fun i _ => mul_self_nonneg _
  have hv0 : 0 ≤ D * (1 / n) := mul_nonneg hD0 (by positivity)
  rw [← EReal.coe_mul D, ← EReal.coe_add, rsqrt_coe_pos (by linarith : 0 < D * (1 / n) + ε')]
  simp only [← EReal.coe_mul, ← EReal.coe_sub, ← EReal.coe_add]

/-- The raw-moment arrangement on real data is the coercion of the same real formula. -/
theorem rawNorm_coe {ι : Type*} [Fintype ι] (f : ι → ℝ) (n g b ε' : ℝ) (hn : n = (Fintype.card ι : ℝ)) (hpos : 0 < n)
    (hε' : 0 < ε') (e : ι) :
    rawNorm (f e : EReal) (∑ i, (f i : EReal)) (∑ i, (f i : EReal) * (f i : EReal)) (n : EReal) (g : EReal) (b : EReal) (ε' : EReal)
      = ((realNorm f n g b ε' e : ℝ) : EReal) := by
  have hn0 : n ≠ 0 := ne_of_gt hpos
  unfold rawNorm realNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hraw : ((Q : ℝ) : EReal) * ((1 / n : ℝ) : EReal) - ((S : ℝ) : EReal) * ((1 / n : ℝ) : EReal) * (((S : ℝ) : EReal) * ((1 / n : ℝ) : EReal))
      = ((D * (1 / n) : ℝ) : EReal) := by
    rw [← EReal.coe_mul, ← EReal.coe_mul, ← EReal.coe_mul, ← EReal.coe_sub, ← hvar]
  rw [hraw, ← EReal.coe_add, rsqrt_coe_pos (by linarith : 0 < D * (1 / n) + ε')]
  simp only [← EReal.coe_mul, ← EReal.coe_sub, ← EReal.coe_add]
  congr 1
  ring

/-- The two arrangements agree on real data. -/
theorem rawNorm_eq_centredNorm' {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ)
    (hε : ε = (ε' : EReal)) (hε' : 0 < ε') (e : ι) :
    rawNorm (h e) (∑ i, h i) (∑ i, h i * h i) (n : EReal) γ β ε = centredNorm' h (n : EReal) γ β ε e := by
  choose f hf using hh
  obtain ⟨g, rfl⟩ := hγ
  obtain ⟨b, rfl⟩ := hβ
  subst hε
  have hfun : h = fun i => (f i : EReal) := funext hf
  subst hfun
  rw [centredNorm'_coe f n g b ε' hpos hε' e]
  exact rawNorm_coe f n g b ε' hn hpos hε' e

/-- On real data the centred arrangement is a real number. -/
theorem isReal_centredNorm' {ι : Type*} [Fintype ι] (h : ι → EReal) (hh : ∀ i, IsReal (h i)) (n : ℝ)
    (hpos : 0 < n) {γ β ε : EReal} (hγ : IsReal γ) (hβ : IsReal β) (ε' : ℝ)
    (hε : ε = (ε' : EReal)) (hε' : 0 < ε') (e : ι) :
    IsReal (centredNorm' h (n : EReal) γ β ε e) := by
  choose f hf using hh
  obtain ⟨g, rfl⟩ := hγ
  obtain ⟨b, rfl⟩ := hβ
  subst hε
  have hfun : h = fun i => (f i : EReal) := funext hf
  subst hfun
  exact ⟨_, centredNorm'_coe f n g b ε' hpos hε' e⟩

/-- On real data the raw-moment arrangement is a real number. -/
theorem isReal_rawNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ)
    (hε : ε = (ε' : EReal)) (hε' : 0 < ε') (e : ι) :
    IsReal (rawNorm (h e) (∑ i, h i) (∑ i, h i * h i) (n : EReal) γ β ε) := by
  rw [rawNorm_eq_centredNorm' h hh n hn hpos hγ hβ ε' hε hε' e]
  exact isReal_centredNorm' h hh n hpos hγ hβ ε' hε hε' e

/-! ### The same law with the sums taken over a finite set -/

/-- The centred arrangement with every sum taken over a finite set `s`. -/
def centredNormOn {κ : Type*} (s : Finset κ) (x : κ → EReal) (n γ β ε : EReal) (e : κ) : EReal :=
  (x e - Ideal.div (∑ i ∈ s, x i) n)
    * Ideal.rsqrt (Ideal.div (∑ i ∈ s, (x i - Ideal.div (∑ i ∈ s, x i) n) * (x i - Ideal.div (∑ i ∈ s, x i) n)) n + ε) * γ + β

/-- Sums over a finite set are sums over its subtype: the set form is the family form on the members. -/
theorem centredNormOn_eq_subtype {κ : Type*} (s : Finset κ) (x : κ → EReal) (n γ β ε : EReal) (e : κ) (he : e ∈ s) :
    centredNormOn s x n γ β ε e = centredNorm' (fun i : {i // i ∈ s} => x i.1) n γ β ε ⟨e, he⟩ := by
  unfold centredNormOn centredNorm'
  rw [Finset.sum_coe_sort s x,
    Finset.sum_coe_sort s (fun i => (x i - Ideal.div (∑ i ∈ s, x i) n) * (x i - Ideal.div (∑ i ∈ s, x i) n))]

/-- The two arrangements agree on real data, sums over a finite set with `n` members. -/
theorem rawNorm_eq_centredNormOn {κ : Type*} (s : Finset κ) (x : κ → EReal) (hx : ∀ i ∈ s, IsReal (x i)) (n : ℝ)
    (hn : n = (s.card : ℝ)) (hpos : 0 < n) {γ β ε : EReal} (hγ : IsReal γ) (hβ : IsReal β) (ε' : ℝ)
    (hε : ε = (ε' : EReal)) (hε' : 0 < ε') (e : κ) (he : e ∈ s) :
    rawNorm (x e) (∑ i ∈ s, x i) (∑ i ∈ s, x i * x i) (n : EReal) γ β ε = centredNormOn s x (n : EReal) γ β ε e := by
  rw [centredNormOn_eq_subtype s x _ γ β ε e he, ← Finset.sum_coe_sort s x, ← Finset.sum_coe_sort s (fun i => x i * x i)]
  exact rawNorm_eq_centredNorm' (fun i : {i // i ∈ s} => x i.1) (fun i => hx i.1 i.2) n
    (by rw [hn, Fintype.card_coe]) hpos hγ hβ ε' hε hε' ⟨e, he⟩

/-- On real data the set form of the centred arrangement is a real number. -/
theorem isReal_centredNormOn {κ : Type*} (s : Finset κ) (x : κ → EReal) (hx : ∀ i ∈ s, IsReal (x i)) (n : ℝ)
    (hpos : 0 < n) {γ β ε : EReal} (hγ : IsReal γ) (hβ : IsReal β) (ε' : ℝ)
    (hε : ε = (ε' : EReal)) (hε' : 0 < ε') (e : κ) (he : e ∈ s) :
    IsReal (centredNormOn s x (n : EReal) γ β ε e) := by
  rw [centredNormOn_eq_subtype s x _ γ β ε e he]
  exact isReal_centredNorm' (fun i : {i // i ∈ s} => x i.1) (fun i => hx i.1 i.2) n hpos hγ hβ ε' hε hε' ⟨e, he⟩

/-- The raw moments written as `0 + ∑` (a reduction that starts from the real zero). -/
theorem rawNorm_zero_add_eq_centredNormOn {κ : Type*} (s : Finset κ) (x : κ → EReal) (hx : ∀ i ∈ s, IsReal (x i)) (n : ℝ)
    (hn : n = (s.card : ℝ)) (hpos : 0 < n) {γ β ε : EReal} (hγ : IsReal γ) (hβ : IsReal β) (ε' : ℝ)
    (hε : ε = (ε' : EReal)) (hε' : 0 < ε') (e : κ) (he : e ∈ s) :
    rawNorm (x e) (0 + ∑ i ∈ s, x i) (0 + ∑ i ∈ s, x i * x i) (n : EReal) γ β ε
      = centredNormOn s x (n : EReal) γ β ε e := by
  rw [zero_add, zero_add]
  exact rawNorm_eq_centredNormOn s x hx n hn hpos hγ hβ ε' hε hε' e he

/-- The fiber form: the sums run over the members of a finite type that satisfy `P`. -/
theorem rawNorm_eq_centredNormOn_filter {κ : Type*} [Fintype κ] (P : κ → Prop) [DecidablePred P] (x : κ → EReal)
    (hx : ∀ i, P i → IsReal (x i)) (n : ℝ) (hn : n = ((Finset.univ.filter P).card : ℝ)) (hpos : 0 < n)
    {γ β ε : EReal} (hγ : IsReal γ) (hβ : IsReal β) (ε' : ℝ) (hε : ε = (ε' : EReal)) (hε' : 0 < ε') (e : κ) (he : P e) :
    rawNorm (x e) (∑ i ∈ Finset.univ.filter P, x i) (∑ i ∈ Finset.univ.filter P, x i * x i) (n : EReal) γ β ε
      = centredNormOn (Finset.univ.filter P) x (n : EReal) γ β ε e :=
  rawNorm_eq_centredNormOn _ x (fun i hi => hx i (Finset.mem_filter.mp hi).2) n hn hpos hγ hβ ε' hε hε' e
    (Finset.mem_filter.mpr ⟨Finset.mem_univ _, he⟩)

/-- The fiber form with the raw moments written as `0 + ∑`. -/
theorem rawNorm_zero_add_eq_centredNormOn_filter {κ : Type*} [Fintype κ] (P : κ → Prop) [DecidablePred P] (x : κ → EReal)
    (hx : ∀ i, P i → IsReal (x i)) (n : ℝ) (hn : n = ((Finset.univ.filter P).card : ℝ)) (hpos : 0 < n)
    {γ β ε : EReal} (hγ : IsReal γ) (hβ : IsReal β) (ε' : ℝ) (hε : ε = (ε' : EReal)) (hε' : 0 < ε') (e : κ) (he : P e) :
    rawNorm (x e) (0 + ∑ i ∈ Finset.univ.filter P, x i) (0 + ∑ i ∈ Finset.univ.filter P, x i * x i) (n : EReal) γ β ε
      = centredNormOn (Finset.univ.filter P) x (n : EReal) γ β ε e := by
  rw [zero_add, zero_add]
  exact rawNorm_eq_centredNormOn_filter P x hx n hn hpos hγ hβ ε' hε hε' e he

/-- On real data the fiber form of the centred arrangement is a real number. -/
theorem isReal_centredNormOn_filter {κ : Type*} [Fintype κ] (P : κ → Prop) [DecidablePred P] (x : κ → EReal)
    (hx : ∀ i, P i → IsReal (x i)) (n : ℝ) (hpos : 0 < n)
    {γ β ε : EReal} (hγ : IsReal γ) (hβ : IsReal β) (ε' : ℝ) (hε : ε = (ε' : EReal)) (hε' : 0 < ε') (e : κ) (he : P e) :
    IsReal (centredNormOn (Finset.univ.filter P) x (n : EReal) γ β ε e) :=
  isReal_centredNormOn _ x (fun i hi => hx i (Finset.mem_filter.mp hi).2) n hpos hγ hβ ε' hε hε' e
    (Finset.mem_filter.mpr ⟨Finset.mem_univ _, he⟩)

/-! ### Float words as real numbers, and small closure facts -/

/-- The float word 0x461C4000 denotes the real number 10000. -/
theorem ofBits_10000 : Ideal.ofBits .f32 0x461C4000#32 = ((10000 : ℝ) : EReal) := by
  simp [Ideal.ofBits, Ideal.ieee, -EReal.coe_mul]
  norm_num

/-- The float word 0x3F800000 denotes the real number 1. -/
theorem ofBits_one : Ideal.ofBits .f32 0x3F800000#32 = ((1 : ℝ) : EReal) := by
  simp [Ideal.ofBits, Ideal.ieee, -EReal.coe_mul]
  norm_num

/-- The float word 0x3727C5AC denotes the real number 10995116 · 2⁻⁴⁰ (the float nearest 10⁻⁵). -/
theorem ofBits_eps : Ideal.ofBits .f32 0x3727C5AC#32 = (((10995116 : ℝ) * (2 : ℝ) ^ (-40 : Int) : ℝ) : EReal) := by
  simp [Ideal.ofBits, Ideal.ieee, -EReal.coe_mul]

/-- The float word 0x3727C5AC denotes a positive real number. -/
theorem ofBits_eps_pos : ∃ ε' : ℝ, 0 < ε' ∧ Ideal.ofBits .f32 0x3727C5AC#32 = (ε' : EReal) :=
  ⟨(10995116 : ℝ) * (2 : ℝ) ^ (-40 : Int), by positivity, ofBits_eps⟩

/-- The float word 0 denotes the real number 0. -/
theorem ofBits_zero : Ideal.ofBits .f32 0x00000000#32 = ((0 : ℝ) : EReal) := by
  rw [Ideal.ofBits_zero_f32, EReal.coe_zero]

theorem isReal_zero : IsReal (0 : EReal) := ⟨0, EReal.coe_zero.symm⟩

theorem isReal_one : IsReal (1 : EReal) := ⟨1, EReal.coe_one.symm⟩

theorem isReal_neg {x : EReal} (hx : IsReal x) : IsReal (-x) := by
  obtain ⟨a, rfl⟩ := hx; exact ⟨-a, (EReal.coe_neg a)⟩

theorem isReal_sub {x y : EReal} (hx : IsReal x) (hy : IsReal y) : IsReal (x - y) := by
  obtain ⟨a, rfl⟩ := hx; obtain ⟨b, rfl⟩ := hy; exact ⟨a - b, (EReal.coe_sub a b).symm⟩

/-- The maximum of two real numbers is a real number. -/
theorem isReal_max {x y : EReal} (hx : IsReal x) (hy : IsReal y) : IsReal (max x y) := by
  rcases max_choice x y with h | h <;> rw [h] <;> assumption

/-- The minimum of two real numbers is a real number. -/
theorem isReal_min {x y : EReal} (hx : IsReal x) (hy : IsReal y) : IsReal (min x y) := by
  rcases min_choice x y with h | h <;> rw [h] <;> assumption

/-- Clipping a real number below at zero leaves a real number. -/
theorem isReal_max_zero {x : EReal} (hx : IsReal x) : IsReal (max x 0) := isReal_max hx isReal_zero

/-- A real number divided by a nonzero real number is a real number. -/
theorem isReal_div_coe (r : ℝ) {k : ℝ} (hk : k ≠ 0) : IsReal (Ideal.div (r : EReal) (k : EReal)) := by
  rw [Ideal.div_coe hk, ← EReal.coe_mul]; exact isReal_coe _

/-- A real number divided by a real number other than zero is a real number. -/
theorem isReal_div {x y : EReal} (hx : IsReal x) (hy : IsReal y) (h0 : y ≠ 0) : IsReal (Ideal.div x y) := by
  obtain ⟨a, rfl⟩ := hx; obtain ⟨b, rfl⟩ := hy
  exact isReal_div_coe a (fun hb => h0 (by rw [hb, EReal.coe_zero]))

/-- The inverse square root of a positive real number is a real number. -/
theorem isReal_rsqrt_pos {x : EReal} (hx : IsReal x) (hpos : 0 < x) : IsReal (Ideal.rsqrt x) := by
  obtain ⟨a, rfl⟩ := hx
  rw [rsqrt_coe_pos (EReal.coe_pos.mp hpos)]; exact isReal_coe _

end Cert.LibBatchNormRaw

end
-- ==== Proof.LibAllReal.lean ====
/-
  General lemmas: arrays of extended reals all of whose entries are real numbers, and the array operations that keep
  them so.

  An array over the extended reals is "all real" when each entry is a real number (neither infinity). Sums, products,
  differences, maxima and minima of reals are real, so every operation whose output entry is built from input entries
  by those (a pointwise sum, product, difference, maximum or minimum; a finite sum of entries, with or without an
  initial value; a contraction, which is a finite sum of products, onto a real accumulator; an accumulation of
  updates into an array) keeps an array all real. Every operation whose output entry IS some input entry (a gather, a
  broadcast, a change of shape, a slice, a transposition, a concatenation, a choice between two arrays, a change of
  float format, which is the identity on extended reals) does too. A quotient by a real other than zero is real, and the
  inverse square root of a positive real is real. An integer read as a number is real.
  Nothing here mentions a program; every lemma is for arbitrary shapes and arbitrary dimension records.
-/
import proofs.«135245_j16080357556243_1_alg».proof.Proof.LibBatchNormRaw

noncomputable section

namespace Cert.LibAllReal

open Idealize.ShloMosaic Cert.LibBatchNorm Cert.LibBatchNormRaw

/-- Every entry of the array is a real number. -/
def AllReal {S : Shape} (v : S.Idx → EReal) : Prop := ∀ i, IsReal (v i)

/-- Every entry of the array is a positive real number. -/
def AllPos {S : Shape} (v : S.Idx → EReal) : Prop := ∀ i, IsReal (v i) ∧ 0 < v i

/-- Every entry of the array is a real number other than zero. -/
def AllNonzero {S : Shape} (v : S.Idx → EReal) : Prop := ∀ i, IsReal (v i) ∧ v i ≠ 0

theorem AllPos.allReal {S : Shape} {v : S.Idx → EReal} (h : AllPos v) : AllReal v := fun i => (h i).1

theorem AllPos.allNonzero {S : Shape} {v : S.Idx → EReal} (h : AllPos v) : AllNonzero v :=
  fun i => ⟨(h i).1, ne_of_gt (h i).2⟩

theorem AllNonzero.allReal {S : Shape} {v : S.Idx → EReal} (h : AllNonzero v) : AllReal v := fun i => (h i).1

variable {φ : FTy}

/-! ### Accumulating updates, gathering -/

/-- Accumulating real updates into a real array leaves a real array, wherever the updates land. -/
theorem allReal_scatterAdd {s si u : Shape} {w : Nat} (d : ScatterDims s si u) (x : FVec Ideal s φ) (idx : IVec si w)
    (upd : FVec Ideal u φ) (hx : AllReal x) (hu : AllReal upd) : AllReal (Host.scatterAdd d x idx upd) := by
  intro i
  show IsReal (Ideal.hostScatterAdd d x idx upd i)
  unfold Ideal.hostScatterAdd
  exact isReal_add (hx i) (isReal_sum _ _ hu)

/-- The same at any schedule key. -/
theorem allReal_scatterAddAt (sched : HostSchedule) {s si u : Shape} {w : Nat} (d : ScatterDims s si u) (x : FVec Ideal s φ)
    (idx : IVec si w) (upd : FVec Ideal u φ) (hx : AllReal x) (hu : AllReal upd) :
    AllReal (Host.scatterAddAt sched d x idx upd) := by
  intro i
  show IsReal (Ideal.hostScatterAdd d x idx upd i)
  unfold Ideal.hostScatterAdd
  exact isReal_add (hx i) (isReal_sum _ _ hu)

/-- Each entry of a gather is an entry of the operand (the start indices are clamped into range). -/
theorem allReal_gather {s si t : Shape} {w : Nat} (d : GatherDims s si t) (x : s.Idx → EReal) (idx : IVec si w)
    (hx : AllReal x) : AllReal (Host.gather d x idx) := fun j => hx (d.operandIdx j idx)

/-! ### Contractions -/

/-- A contraction of two real arrays is real: each entry is a finite sum of products. -/
theorem allReal_dotGeneral {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show IsReal (FloatOps.dotGeneral d prec .single l r j)
  rw [Ideal.dotGeneral_apply]
  exact isReal_sum _ _ fun k => isReal_mul (hl _) (hr _)

/-- The same at any schedule key. -/
theorem allReal_dotGeneralAt (sched : HostSchedule) {sl sr so : Shape} {φ₁ φ₂ : FTy} (d : DotDims sl sr so)
    (prec : Option ContractPrecision) (l : FVec Ideal sl φ₁) (r : FVec Ideal sr φ₂) (hl : AllReal l) (hr : AllReal r) :
    AllReal (Host.dotGeneralAt sched d prec l r) := by
  intro j
  show IsReal (FloatOps.dotGeneral d prec sched l r j)
  rw [Ideal.dotGeneral_apply]
  exact isReal_sum _ _ fun k => isReal_mul (hl _) (hr _)

/-- A contraction of two real arrays accumulated onto a real array is real. -/
theorem allReal_matmul {sl sr so : Shape} {φ₁ φ₂ : FTy} (d : DotDims sl sr so) (prec : Option ContractPrecision)
    (l : FVec Ideal sl φ₁) (r : FVec Ideal sr φ₂) (acc : FVec Ideal so .f32) (hl : AllReal l) (hr : AllReal r)
    (ha : AllReal acc) : AllReal (matmul d prec l r acc) := by
  intro j
  show IsReal (FloatOps.matmul d prec l r acc j)
  rw [Ideal.matmul_apply]
  exact isReal_add (ha j) (isReal_sum _ _ fun k => isReal_mul (hl _) (hr _))

/-- The array every entry of which is the float word `w` is real when that word denotes a real number. -/
theorem allReal_constant (S : Shape) (w : BitVec φ.bits) (hw : IsReal (Ideal.ofBits φ w)) :
    AllReal (constant (F := Ideal) S φ w) := fun _ => hw

/-- The zero array is real. -/
theorem allReal_constant_zero (S : Shape) : AllReal (constant (F := Ideal) S .f32 0x00000000#32) :=
  allReal_constant S _ (by rw [Ideal.ofBits_zero_f32]; exact isReal_zero)

/-- A contraction of two real arrays accumulated onto the zero array is real. -/
theorem allReal_matmul_zero {sl sr so : Shape} {φ₁ φ₂ : FTy} (d : DotDims sl sr so) (prec : Option ContractPrecision)
    (l : FVec Ideal sl φ₁) (r : FVec Ideal sr φ₂) (hl : AllReal l) (hr : AllReal r) :
    AllReal (matmul d prec l r (constant so .f32 0x00000000#32)) :=
  allReal_matmul d prec l r _ hl hr (allReal_constant_zero so)

/-! ### Reductions -/

/-- A sum-reduction of a real array from a real initial value is real. -/
theorem allReal_hostReduceAdd {s t u : Shape} {axes : List (Fin s.rank)} (x : FVec Ideal s φ) (init : u.Idx → Ideal φ)
    (h : s.ReducesTo axes t) (hu : 0 < u.numel) (hx : AllReal x) (hi : AllReal init) :
    AllReal (Host.reduceAdd x init h hu) := by
  intro j
  show IsReal (Ideal.hostReduceAdd h x (init (Shape.Idx.first hu)) j)
  unfold Ideal.hostReduceAdd
  exact isReal_add (hi _) (isReal_sum _ _ hx)

/-- The same at any schedule key. -/
theorem allReal_hostReduceAddAt (sched : HostSchedule) {s t u : Shape} {axes : List (Fin s.rank)} (x : FVec Ideal s φ)
    (init : u.Idx → Ideal φ) (h : s.ReducesTo axes t) (hu : 0 < u.numel) (hx : AllReal x) (hi : AllReal init) :
    AllReal (Host.reduceAddAt sched x init h hu) := by
  intro j
  show IsReal (Ideal.hostReduceAdd h x (init (Shape.Idx.first hu)) j)
  unfold Ideal.hostReduceAdd
  exact isReal_add (hi _) (isReal_sum _ _ hx)

/-- A sum-reduction of a real array with no initial value is real. -/
theorem allReal_multiReduction_add {s : Shape} (axes : List (Fin s.rank)) (t : Shape) (src : FVec Ideal s φ)
    (acc : BitVec φ.bits) (h : s.Reduces axes t) (hφ : FKind.Formats φ) (hacc : acc = FKind.add.neutral φ hφ)
    (hx : AllReal src) : AllReal (multiReduction .add axes t src acc h hφ hacc) := by
  intro j
  show IsReal (Ideal.reduceAdd h src j)
  unfold Ideal.reduceAdd
  exact isReal_sum _ _ hx

/-! ### Pointwise operations -/

theorem allReal_addf {S : Shape} (x y : FVec Ideal S φ) (hx : AllReal x) (hy : AllReal y) : AllReal (addf x y) :=
  fun i => isReal_add (hx i) (hy i)

theorem allReal_subf {S : Shape} (x y : FVec Ideal S φ) (hx : AllReal x) (hy : AllReal y) : AllReal (subf x y) :=
  fun i => isReal_sub (hx i) (hy i)

theorem allReal_mulf {S : Shape} (x y : FVec Ideal S φ) (hx : AllReal x) (hy : AllReal y) : AllReal (mulf x y) :=
  fun i => isReal_mul (hx i) (hy i)

theorem allReal_maximumf {S : Shape} (x y : FVec Ideal S φ) (hx : AllReal x) (hy : AllReal y) : AllReal (maximumf x y) :=
  fun i => isReal_max (hx i) (hy i)

theorem allReal_minimumf {S : Shape} (x y : FVec Ideal S φ) (hx : AllReal x) (hy : AllReal y) : AllReal (minimumf x y) :=
  fun i => isReal_min (hx i) (hy i)

theorem allReal_negf {S : Shape} (x : FVec Ideal S φ) (hx : AllReal x) : AllReal (negf x) :=
  fun i => isReal_neg (hx i)

theorem allReal_hostNegf {S : Shape} (x : FVec Ideal S φ) (hx : AllReal x) : AllReal (Host.negf x) :=
  fun i => isReal_neg (hx i)

/-- A pointwise quotient of a real array by an array of reals other than zero is real. -/
theorem allReal_divf {S : Shape} (x y : FVec Ideal S φ) (hx : AllReal x) (hy : AllNonzero y) : AllReal (divf x y) :=
  fun i => isReal_div (hx i) (hy i).1 (hy i).2

/-- The same for the other spelling of the pointwise quotient. -/
theorem allReal_hostDivf {S : Shape} (x y : FVec Ideal S φ) (hx : AllReal x) (hy : AllNonzero y) :
    AllReal (Host.divf x y) :=
  fun i => isReal_div (hx i) (hy i).1 (hy i).2

/-- The pointwise inverse square root of an array of positive reals is real. -/
theorem allReal_rsqrt {S : Shape} (x : FVec Ideal S φ) (hx : AllPos x) : AllReal (rsqrt x) :=
  fun i => isReal_rsqrt_pos (hx i).1 (hx i).2

/-- The same for the other spelling of the pointwise inverse square root. -/
theorem allReal_hostRsqrt {S : Shape} (x : FVec Ideal S φ) (hx : AllPos x) : AllReal (Host.rsqrt x) :=
  fun i => isReal_rsqrt_pos (hx i).1 (hx i).2

/-- The inverse square root of a positive real is positive. -/
theorem rsqrt_pos_of_pos {x : EReal} (hx : IsReal x) (hpos : 0 < x) : 0 < Ideal.rsqrt x := by
  obtain ⟨a, rfl⟩ := hx
  have ha : 0 < a := EReal.coe_pos.mp hpos
  rw [rsqrt_coe_pos ha]
  exact EReal.coe_pos.mpr (inv_pos.mpr (Real.sqrt_pos.mpr ha))

theorem allPos_rsqrt {S : Shape} (x : FVec Ideal S φ) (hx : AllPos x) : AllPos (rsqrt x) :=
  fun i => ⟨isReal_rsqrt_pos (hx i).1 (hx i).2, rsqrt_pos_of_pos (hx i).1 (hx i).2⟩

theorem allPos_hostRsqrt {S : Shape} (x : FVec Ideal S φ) (hx : AllPos x) : AllPos (Host.rsqrt x) :=
  fun i => ⟨isReal_rsqrt_pos (hx i).1 (hx i).2, rsqrt_pos_of_pos (hx i).1 (hx i).2⟩

/-- A pointwise choice between two real arrays is real. -/
theorem allReal_select {S : Shape} (c : IVec S 1) (a b : S.Idx → EReal) (ha : AllReal a) (hb : AllReal b) :
    AllReal (select c a b) := by
  intro i
  show IsReal (if c i = 1 then a i else b i)
  split
  · exact ha i
  · exact hb i

/-- A change of float format is the identity on extended reals. -/
theorem allReal_truncf {S : Shape} (ψ : FTy) (x : FVec Ideal S φ) (h : ψ.bits < φ.bits) (hx : AllReal x) :
    AllReal (truncf ψ x h) := fun i => hx i

theorem allReal_extf {S : Shape} (ψ : FTy) (x : FVec Ideal S φ) (h : φ.bits < ψ.bits) (hx : AllReal x) :
    AllReal (extf ψ x h) := fun i => hx i

/-- A signed integer read as a number is real. -/
theorem allReal_sitofp {S : Shape} {w : Nat} (ψ : FTy) (x : IVec S w) : AllReal (sitofp (F := Ideal) ψ x) :=
  fun i => isReal_coe _

/-- An unsigned integer read as a number is real. -/
theorem allReal_uitofp {S : Shape} {w : Nat} (ψ : FTy) (x : IVec S w) : AllReal (uitofp (F := Ideal) ψ x) :=
  fun i => isReal_coe _

/-! ### Re-indexings: each output entry is an input entry -/

theorem allReal_broadcast (t : Shape) (x : EReal) (hx : IsReal x) : AllReal (broadcast t x) := fun _ => hx

theorem allReal_broadcastTo {s : Shape} (t : Shape) (x : s.Idx → EReal) (h : s.Broadcasts t) (hx : AllReal x) :
    AllReal (broadcastTo t x h) := fun _ => hx _

theorem allReal_broadcastInDim {s : Shape} (t : Shape) (dims : Fin s.rank → Fin t.rank) (h : s.BroadcastsInDim t dims)
    (x : s.Idx → EReal) (hx : AllReal x) : AllReal (broadcastInDim t dims h x) := fun _ => hx _

theorem allReal_shapeCast {s : Shape} (t : Shape) (x : s.Idx → EReal) (h : s.ShapeCasts t) (hx : AllReal x) :
    AllReal (shapeCast t x h) := fun _ => hx _

theorem allReal_extractStridedSlice {s : Shape} (t : Shape) (off : Fin s.rank → Nat) (x : s.Idx → EReal)
    (h : s.Slices off t) (hx : AllReal x) : AllReal (extractStridedSlice t off x h) := fun _ => hx _

theorem allReal_transpose {s : Shape} (t : Shape) (perm : List (Fin s.rank)) (x : s.Idx → EReal)
    (h : s.Transposes perm t) (hx : AllReal x) : AllReal (transpose t perm x h) := fun _ => hx _

/-- Each entry of a concatenation is an entry of one of the pieces. -/
theorem allReal_concatenate (t : Shape) (a : Fin t.rank) (xs : List ((s : Shape) × (s.Idx → EReal)))
    (h : Shape.Concatenates (xs.map (·.1)) t a) (hxs : ∀ p ∈ xs, ∀ i, IsReal (p.2 i)) :
    AllReal (concatenate t a xs h) := by
  intro j
  unfold concatenate
  exact hxs _ (List.getElem_mem _) _

end Cert.LibAllReal

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.RefRead.lean ====
/-
  The reference's five stages read at an index, at the ideal values.

  * a batch normalisation over the 10000 rows, at width 128 and at width 256: entry (p, c) of the result is the centred
    normalisation of column c — the deviation of the entry from the column's mean, times the inverse square root of the
    column's mean squared deviation plus ε, times γ c, plus β c. The variance's divisor is the constant 10000 − 0, which
    is positive, so its guard always takes the quotient; the column sums start from the real zero;
  * with the positive part taken first, the column is the column of maxima with zero;
  * every stage sends arrays of real numbers to arrays of real numbers: each is built from sums, products, differences,
    maxima, gathers, accumulations and contractions of real arrays; a node's factor is the inverse root of its degree
    where that is positive — a real — and the real zero elsewhere.
-/
import proofs.«135245_j16080357556243_1_alg».proof.Proof.RefSpec
import proofs.«135245_j16080357556243_1_alg».proof.Proof.LibBatchNormRaw
import proofs.«135245_j16080357556243_1_alg».proof.Proof.LibAllReal
import proofs.«135245_j16080357556243_1_alg».proof.Proof.LibAxis0Sum
import proofs.«135245_j16080357556243_1_alg».proof.Proof.LibAffine
import proofs.«135245_j16080357556243_1_alg».proof.Proof.LibPlainDot
import proofs.«135245_j16080357556243_1_alg».proof.Proof.LibColumnRow

noncomputable section

namespace Cert.ReferenceIdeal.Read'

open Idealize.ShloMosaic Idealize.ShloMosaic.ValueIdx Cert.ReferenceIdeal Cert.ReferenceIdeal.Spec
open Cert.LibBatchNorm Cert.LibBatchNormRaw Cert.LibAllReal
open Facts₀

variable [Facts]

/-! ## Scalars -/

/-- A scalar broadcast to any shape reads the scalar everywhere. -/
theorem bcast_scalar_apply {α : Type} {t : Shape} (dims : Fin S_.rank → Fin t.rank) (h : S_.BroadcastsInDim t dims)
    (v : S_.Idx → α) (j : t.Idx) : broadcastInDim t dims h v j = v ix0 :=
  congrArg v (eq_ix0 _)

theorem zero_ix0 : (zero : Vec Ideal S_ .f32) ix0 = 0 := Ideal.ofBits_zero_f32

theorem nRows_ix0 : (nRows : Vec Ideal S_ .f32) ix0 = ((10000 : ℝ) : EReal) := ofBits_10000

theorem eps_ix0 : (eps : Vec Ideal S_ .f32) ix0 = Ideal.ofBits .f32 0x3727C5AC#32 := rfl

/-- The variance's divisor is 10000 − 0 = 10000. -/
theorem divisor_apply (i : S_.Idx) : (divisor : Vec Ideal S_ .f32) i = ((10000 : ℝ) : EReal) := by
  show Ideal.ofBits .f32 0x461C4000#32 - (((0#32 : BitVec 32).toInt : ℝ) : EReal) = _
  rw [ofBits_10000]
  have h0 : (((0#32 : BitVec 32).toInt : ℝ) : EReal) = 0 := by simp
  rw [h0, sub_zero]

/-- The divisor is above zero, so the comparison bit is set. -/
theorem divisor_gt_zero : cmpf (F := Ideal) (s := S_) (φ := .f32) .ogt (divisor (F := Ideal)) (zero (F := Ideal)) ix0 = 1#1 := by
  show Ideal.cmp .ogt ((divisor : Vec Ideal S_ .f32) ix0) ((zero : Vec Ideal S_ .f32) ix0) = 1#1
  rw [divisor_apply, zero_ix0]
  show BitVec.ofBool (decide ((0 : EReal) < ((10000 : ℝ) : EReal))) = 1#1
  rw [decide_eq_true (EReal.coe_pos.mpr (by norm_num))]
  rfl

/-! ## Batch normalisation at width 128, read at an index -/

/-- A vector of length 128 repeated down the rows reads, at (p, c), the vector's entry c. -/
theorem tile128_apply (v : Vec Ideal S128 .f32) (p : Fin 10000) (c : Fin 128) : tile128 v (ix2 p c) = v (ix1 c) :=
  (LibAffine.broadcastInDim_1n_an_apply bcast_S1x128_S10000x128_0_1 (row128 v) p c).trans
    (LibColumnRow.broadcastInDim_n_1n_apply bcast_S128_S1x128_1 v 0 c)

/-- The column sum at c is the sum of the column's entries. -/
theorem colSum128_apply (x : Vec Ideal S10000x128 .f32) (c : Fin 128) :
    colSum128 x (ix1 c) = ∑ r : Fin 10000, x (ix2 r c) :=
  (LibAxis0Sum.hostFirstSum2_apply x _ reducesTo_S10000x128_S128_d0 h_S_ c).trans (by rw [zero_ix0, zero_add])

/-- The column mean at c is the column's sum over 10000. -/
theorem mean128_apply (x : Vec Ideal S10000x128 .f32) (c : Fin 128) :
    mean128 x (ix1 c) = Ideal.div (∑ r : Fin 10000, x (ix2 r c)) ((10000 : ℝ) : EReal) := by
  show Ideal.div (colSum128 x (ix1 c)) (broadcastInDim S128 ![] bcast_S_S128 (nRows : Vec Ideal S_ .f32) (ix1 c)) = _
  rw [bcast_scalar_apply, nRows_ix0, colSum128_apply]

/-- The row of column means at (u, c) is the same quotient. -/
theorem meanRow128_apply (x : Vec Ideal S10000x128 .f32) (u : Fin 1) (c : Fin 128) :
    meanRow128 x (ix2 u c) = Ideal.div (∑ r : Fin 10000, x (ix2 r c)) ((10000 : ℝ) : EReal) := by
  show Ideal.div (row128 (colSum128 x) (ix2 u c)) (broadcastInDim S1x128 ![] bcast_S_S1x128 (nRows : Vec Ideal S_ .f32) (ix2 u c)) = _
  rw [bcast_scalar_apply, nRows_ix0]
  show Ideal.div (broadcastInDim S1x128 ![1] bcast_S128_S1x128_1 (colSum128 x) (ix2 u c)) _ = _
  rw [LibColumnRow.broadcastInDim_n_1n_apply, colSum128_apply]

/-- The deviation at (p, c). -/
theorem centred128_apply (x : Vec Ideal S10000x128 .f32) (p : Fin 10000) (c : Fin 128) :
    centred128 x (ix2 p c) = x (ix2 p c) - Ideal.div (∑ r : Fin 10000, x (ix2 r c)) ((10000 : ℝ) : EReal) := by
  show x (ix2 p c) - broadcastInDim S10000x128 ![0, 1] bcast_S1x128_S10000x128_0_1 (meanRow128 x) (ix2 p c) = _
  rw [LibAffine.broadcastInDim_1n_an_apply, meanRow128_apply]

/-- The column sum of the squared deviations at c. -/
theorem sqSum128_apply (x : Vec Ideal S10000x128 .f32) (c : Fin 128) :
    sqSum128 x (ix1 c) = ∑ r : Fin 10000,
      (x (ix2 r c) - Ideal.div (∑ r : Fin 10000, x (ix2 r c)) ((10000 : ℝ) : EReal))
        * (x (ix2 r c) - Ideal.div (∑ r : Fin 10000, x (ix2 r c)) ((10000 : ℝ) : EReal)) := by
  refine (LibAxis0Sum.hostFirstSum2_apply (mulf (centred128 x) (centred128 x)) _ reducesTo_S10000x128_S128_d0 h_S_ c).trans ?_
  rw [zero_ix0, zero_add]
  exact Finset.sum_congr rfl fun r _ => by rw [mulf_apply, centred128_apply]

/-- The column variance at c: the divisor is the positive number 10000, so the guarded quotient is the quotient. -/
theorem var128_apply (x : Vec Ideal S10000x128 .f32) (c : Fin 128) :
    var128 x (ix1 c) = Ideal.div (sqSum128 x (ix1 c)) ((10000 : ℝ) : EReal) := by
  show Scalar.select (broadcastInDim S128 ![] bcast_S_S128 (cmpf (F := Ideal) (s := S_) (φ := .f32) .ogt (divisor (F := Ideal)) (zero (F := Ideal))) (ix1 c))
      (Ideal.div (sqSum128 x (ix1 c)) (broadcastInDim S128 ![] bcast_S_S128 (divisor : Vec Ideal S_ .f32) (ix1 c)))
      (broadcastInDim S128 ![] bcast_S_S128 (undef : Vec Ideal S_ .f32) (ix1 c)) = _
  rw [bcast_scalar_apply, bcast_scalar_apply, bcast_scalar_apply, divisor_gt_zero, select_one, divisor_apply]

/-- The inverse standard deviation at c. -/
theorem invStd128_apply (x : Vec Ideal S10000x128 .f32) (c : Fin 128) :
    invStd128 x (ix1 c) = Ideal.rsqrt (Ideal.div (sqSum128 x (ix1 c)) ((10000 : ℝ) : EReal) + Ideal.ofBits .f32 0x3727C5AC#32) := by
  show Ideal.rsqrt (var128 x (ix1 c) + broadcastInDim S128 ![] bcast_S_S128 (eps : Vec Ideal S_ .f32) (ix1 c)) = _
  rw [bcast_scalar_apply, var128_apply, eps_ix0]

/-- The batch normalisation at (p, c) is the centred normalisation of column c, read at row p. -/
theorem refNorm128_apply (x : Vec Ideal S10000x128 .f32) (γ β : Vec Ideal S128 .f32) (p : Fin 10000) (c : Fin 128) :
    refNorm128 x γ β (ix2 p c)
      = centredNorm' (fun r : Fin 10000 => x (ix2 r c)) ((10000 : ℝ) : EReal) (γ (ix1 c)) (β (ix1 c))
          (Ideal.ofBits .f32 0x3727C5AC#32) p := by
  show (x (ix2 p c) - tile128 (mean128 x) (ix2 p c)) * tile128 (invStd128 x) (ix2 p c) * tile128 γ (ix2 p c)
      + tile128 β (ix2 p c) = _
  rw [tile128_apply, tile128_apply, tile128_apply, tile128_apply, mean128_apply, invStd128_apply, sqSum128_apply]
  rfl

/-- On real data the batch normalisation is real. -/
theorem allReal_refNorm128 (x : Vec Ideal S10000x128 .f32) (γ β : Vec Ideal S128 .f32) (hx : AllReal x) (hγ : AllReal γ)
    (hβ : AllReal β) : AllReal (refNorm128 x γ β) := by
  intro i
  obtain ⟨p, c, rfl⟩ : ∃ (p : Fin 10000) (c : Fin 128), i = ix2 p c := ⟨i 0, i 1, eq_ix2 i⟩
  rw [refNorm128_apply]
  exact isReal_centredNorm' _ (fun r => hx _) 10000 (by norm_num) (hγ _) (hβ _) _ ofBits_eps (by positivity) _

/-! ## Batch normalisation at width 256, read at an index -/

/-- A vector of length 256 repeated down the rows reads, at (p, c), the vector's entry c. -/
theorem tile256_apply (v : Vec Ideal S256 .f32) (p : Fin 10000) (c : Fin 256) : tile256 v (ix2 p c) = v (ix1 c) :=
  (LibAffine.broadcastInDim_1n_an_apply bcast_S1x256_S10000x256_0_1 (row256 v) p c).trans
    (LibColumnRow.broadcastInDim_n_1n_apply bcast_S256_S1x256_1 v 0 c)

/-- The column sum at c is the sum of the column's entries. -/
theorem colSum256_apply (x : Vec Ideal S10000x256 .f32) (c : Fin 256) :
    colSum256 x (ix1 c) = ∑ r : Fin 10000, x (ix2 r c) :=
  (LibAxis0Sum.hostFirstSum2_apply x _ reducesTo_S10000x256_S256_d0 h_S_ c).trans (by rw [zero_ix0, zero_add])

/-- The column mean at c is the column's sum over 10000. -/
theorem mean256_apply (x : Vec Ideal S10000x256 .f32) (c : Fin 256) :
    mean256 x (ix1 c) = Ideal.div (∑ r : Fin 10000, x (ix2 r c)) ((10000 : ℝ) : EReal) := by
  show Ideal.div (colSum256 x (ix1 c)) (broadcastInDim S256 ![] bcast_S_S256 (nRows : Vec Ideal S_ .f32) (ix1 c)) = _
  rw [bcast_scalar_apply, nRows_ix0, colSum256_apply]

/-- The row of column means at (u, c) is the same quotient. -/
theorem meanRow256_apply (x : Vec Ideal S10000x256 .f32) (u : Fin 1) (c : Fin 256) :
    meanRow256 x (ix2 u c) = Ideal.div (∑ r : Fin 10000, x (ix2 r c)) ((10000 : ℝ) : EReal) := by
  show Ideal.div (row256 (colSum256 x) (ix2 u c)) (broadcastInDim S1x256 ![] bcast_S_S1x256 (nRows : Vec Ideal S_ .f32) (ix2 u c)) = _
  rw [bcast_scalar_apply, nRows_ix0]
  show Ideal.div (broadcastInDim S1x256 ![1] bcast_S256_S1x256_1 (colSum256 x) (ix2 u c)) _ = _
  rw [LibColumnRow.broadcastInDim_n_1n_apply, colSum256_apply]

/-- The deviation at (p, c). -/
theorem centred256_apply (x : Vec Ideal S10000x256 .f32) (p : Fin 10000) (c : Fin 256) :
    centred256 x (ix2 p c) = x (ix2 p c) - Ideal.div (∑ r : Fin 10000, x (ix2 r c)) ((10000 : ℝ) : EReal) := by
  show x (ix2 p c) - broadcastInDim S10000x256 ![0, 1] bcast_S1x256_S10000x256_0_1 (meanRow256 x) (ix2 p c) = _
  rw [LibAffine.broadcastInDim_1n_an_apply, meanRow256_apply]

/-- The column sum of the squared deviations at c. -/
theorem sqSum256_apply (x : Vec Ideal S10000x256 .f32) (c : Fin 256) :
    sqSum256 x (ix1 c) = ∑ r : Fin 10000,
      (x (ix2 r c) - Ideal.div (∑ r : Fin 10000, x (ix2 r c)) ((10000 : ℝ) : EReal))
        * (x (ix2 r c) - Ideal.div (∑ r : Fin 10000, x (ix2 r c)) ((10000 : ℝ) : EReal)) := by
  refine (LibAxis0Sum.hostFirstSum2_apply (mulf (centred256 x) (centred256 x)) _ reducesTo_S10000x256_S256_d0 h_S_ c).trans ?_
  rw [zero_ix0, zero_add]
  exact Finset.sum_congr rfl fun r _ => by rw [mulf_apply, centred256_apply]

/-- The column variance at c: the divisor is the positive number 10000, so the guarded quotient is the quotient. -/
theorem var256_apply (x : Vec Ideal S10000x256 .f32) (c : Fin 256) :
    var256 x (ix1 c) = Ideal.div (sqSum256 x (ix1 c)) ((10000 : ℝ) : EReal) := by
  show Scalar.select (broadcastInDim S256 ![] bcast_S_S256 (cmpf (F := Ideal) (s := S_) (φ := .f32) .ogt (divisor (F := Ideal)) (zero (F := Ideal))) (ix1 c))
      (Ideal.div (sqSum256 x (ix1 c)) (broadcastInDim S256 ![] bcast_S_S256 (divisor : Vec Ideal S_ .f32) (ix1 c)))
      (broadcastInDim S256 ![] bcast_S_S256 (undef : Vec Ideal S_ .f32) (ix1 c)) = _
  rw [bcast_scalar_apply, bcast_scalar_apply, bcast_scalar_apply, divisor_gt_zero, select_one, divisor_apply]

/-- The inverse standard deviation at c. -/
theorem invStd256_apply (x : Vec Ideal S10000x256 .f32) (c : Fin 256) :
    invStd256 x (ix1 c) = Ideal.rsqrt (Ideal.div (sqSum256 x (ix1 c)) ((10000 : ℝ) : EReal) + Ideal.ofBits .f32 0x3727C5AC#32) := by
  show Ideal.rsqrt (var256 x (ix1 c) + broadcastInDim S256 ![] bcast_S_S256 (eps : Vec Ideal S_ .f32) (ix1 c)) = _
  rw [bcast_scalar_apply, var256_apply, eps_ix0]

/-- The batch normalisation at (p, c) is the centred normalisation of column c, read at row p. -/
theorem norm256_apply (x : Vec Ideal S10000x256 .f32) (γ β : Vec Ideal S256 .f32) (p : Fin 10000) (c : Fin 256) :
    norm256 x γ β (ix2 p c)
      = centredNorm' (fun r : Fin 10000 => x (ix2 r c)) ((10000 : ℝ) : EReal) (γ (ix1 c)) (β (ix1 c))
          (Ideal.ofBits .f32 0x3727C5AC#32) p := by
  show (x (ix2 p c) - tile256 (mean256 x) (ix2 p c)) * tile256 (invStd256 x) (ix2 p c) * tile256 γ (ix2 p c)
      + tile256 β (ix2 p c) = _
  rw [tile256_apply, tile256_apply, tile256_apply, tile256_apply, mean256_apply, invStd256_apply, sqSum256_apply]
  rfl

/-- On real data the batch normalisation is real. -/
theorem allReal_norm256 (x : Vec Ideal S10000x256 .f32) (γ β : Vec Ideal S256 .f32) (hx : AllReal x) (hγ : AllReal γ)
    (hβ : AllReal β) : AllReal (norm256 x γ β) := by
  intro i
  obtain ⟨p, c, rfl⟩ : ∃ (p : Fin 10000) (c : Fin 256), i = ix2 p c := ⟨i 0, i 1, eq_ix2 i⟩
  rw [norm256_apply]
  exact isReal_centredNorm' _ (fun r => hx _) 10000 (by norm_num) (hγ _) (hβ _) _ ofBits_eps (by positivity) _

/-! ## The positive part followed by batch normalisation -/

/-- The positive part at (p, c) is the maximum of the entry and zero. -/
theorem relu_apply (z : Vec Ideal S10000x256 .f32) (p : Fin 10000) (c : Fin 256) : relu z (ix2 p c) = max (z (ix2 p c)) 0 := by
  show max (z (ix2 p c)) (broadcastInDim S10000x256 ![] bcast_S_S10000x256 (zero : Vec Ideal S_ .f32) (ix2 p c)) = _
  rw [bcast_scalar_apply, zero_ix0]

/-- The positive part followed by batch normalisation, at (p, c): the centred normalisation of the column of maxima
    with zero. -/
theorem refReluNorm256_apply (z : Vec Ideal S10000x256 .f32) (γ β : Vec Ideal S256 .f32) (p : Fin 10000) (c : Fin 256) :
    refReluNorm256 z γ β (ix2 p c)
      = centredNorm' (fun r : Fin 10000 => max (z (ix2 r c)) 0) ((10000 : ℝ) : EReal) (γ (ix1 c)) (β (ix1 c))
          (Ideal.ofBits .f32 0x3727C5AC#32) p := by
  show norm256 (relu z) γ β (ix2 p c) = _
  rw [norm256_apply]
  simp only [relu_apply]

/-- The positive part of a real array is real. -/
theorem allReal_relu (z : Vec Ideal S10000x256 .f32) (hz : AllReal z) : AllReal (relu z) := by
  intro i
  obtain ⟨p, c, rfl⟩ : ∃ (p : Fin 10000) (c : Fin 256), i = ix2 p c := ⟨i 0, i 1, eq_ix2 i⟩
  rw [relu_apply]; exact isReal_max_zero (hz _)

/-- On real data the positive part followed by batch normalisation is real. -/
theorem allReal_refReluNorm256 (z : Vec Ideal S10000x256 .f32) (γ β : Vec Ideal S256 .f32) (hz : AllReal z) (hγ : AllReal γ)
    (hβ : AllReal β) : AllReal (refReluNorm256 z γ β) :=
  allReal_norm256 (relu z) γ β (allReal_relu z hz) hγ hβ

/-! ## The convolutions send real arrays to real arrays -/

theorem allReal_zero : AllReal (zero : Vec Ideal S_ .f32) := allReal_constant_zero S_

theorem allReal_one : AllReal (one : Vec Ideal S_ .f32) :=
  allReal_constant S_ _ (by rw [ofBits_one]; exact isReal_coe _)

theorem allReal_tile256 (v : Vec Ideal S256 .f32) (hv : AllReal v) : AllReal (tile256 v) := by
  unfold tile256 down256 row256
  exact allReal_broadcastInDim _ _ _ _ (allReal_broadcastInDim _ _ _ _ hv)

theorem allReal_tile128 (v : Vec Ideal S128 .f32) (hv : AllReal v) : AllReal (tile128 v) := by
  unfold tile128 down128 row128
  exact allReal_broadcastInDim _ _ _ _ (allReal_broadcastInDim _ _ _ _ hv)

/-- Every node's degree is a real number: ones accumulated into zeros. -/
theorem allReal_degree (e : Vec Ideal S2x320000 .i32) : AllReal (degree (F := Ideal) e) := by
  unfold degree
  apply allReal_scatterAdd
  · exact allReal_broadcastInDim _ _ _ _ allReal_zero
  · exact allReal_broadcastInDim _ _ _ _ allReal_one

/-- The inverse square root of an array, read at an index. -/
theorem hostRsqrt_apply {s : Shape} {φ : FTy} (a : FVec Ideal s φ) (i : s.Idx) : Host.rsqrt a i = Ideal.rsqrt (a i) := rfl

/-- For a real x, the inverse root of x where x is above zero and zero elsewhere is a real number. -/
theorem isReal_select_rsqrt {x : EReal} (hx : IsReal x) :
    IsReal (Scalar.select (Ideal.cmp .ogt x 0) (Ideal.rsqrt x) (0 : EReal)) := by
  by_cases h : (0 : EReal) < x
  · have hb : Ideal.cmp .ogt x 0 = 1#1 := by
      show BitVec.ofBool (decide ((0 : EReal) < x)) = 1#1
      rw [decide_eq_true h]; rfl
    rw [hb, select_one]
    exact isReal_rsqrt_pos hx h
  · have hb : Ideal.cmp .ogt x 0 = 0#1 := by
      show BitVec.ofBool (decide ((0 : EReal) < x)) = 0#1
      rw [decide_eq_false h]; rfl
    rw [hb, select_zero]
    exact isReal_zero

/-- Every node's factor is a real number: the inverse root of a positive real degree, or the real zero. -/
theorem allReal_invSqrtDeg (e : Vec Ideal S2x320000 .i32) : AllReal (invSqrtDeg (F := Ideal) e) := by
  intro i
  unfold invSqrtDeg
  rw [select_apply, cmpf_apply, hostRsqrt_apply, bcast_scalar_apply, zero_ix0, Ideal.cmpf_def]
  exact isReal_select_rsqrt (allReal_degree e i)

theorem allReal_atNodes (d : Vec Ideal S10000 .f32) (i : Vec Ideal S330000 .i32) (hd : AllReal d) : AllReal (atNodes d i) := by
  unfold atNodes
  exact allReal_gather _ _ _ hd

theorem allReal_edgeWeight (e : Vec Ideal S2x320000 .i32) : AllReal (edgeWeight (F := Ideal) e) := by
  unfold edgeWeight
  exact allReal_mulf _ _ (allReal_atNodes _ _ (allReal_invSqrtDeg e)) (allReal_atNodes _ _ (allReal_invSqrtDeg e))

theorem allReal_weightRows (e : Vec Ideal S2x320000 .i32) : AllReal (weightRows (F := Ideal) e) := by
  unfold weightRows
  exact allReal_broadcastInDim _ _ _ _ (allReal_broadcastInDim _ _ _ _ (allReal_edgeWeight e))

theorem allReal_lin1 (xn : Vec Ideal S10000x128 .f32) (W : Vec Ideal S128x256 .f32) (hx : AllReal xn) (hW : AllReal W) :
    AllReal (lin1 xn W) := by
  unfold lin1
  exact allReal_dotGeneral _ _ _ _ hx hW

theorem allReal_lin2 (h : Vec Ideal S10000x256 .f32) (W : Vec Ideal S256x256 .f32) (hh : AllReal h) (hW : AllReal W) :
    AllReal (lin2 h W) := by
  unfold lin2
  exact allReal_dotGeneral _ _ _ _ hh hW

theorem allReal_aggregate1 (y : Vec Ideal S10000x256 .f32) (e : Vec Ideal S2x320000 .i32) (hy : AllReal y) :
    AllReal (aggregate1 y e) := by
  unfold aggregate1
  apply allReal_scatterAdd
  · exact allReal_broadcastInDim _ _ _ _ allReal_zero
  · apply allReal_mulf
    · exact allReal_weightRows e
    · unfold srcRows330
      exact allReal_gather _ _ _ hy

theorem allReal_aggregate2 (h : Vec Ideal S10000x256 .f32) (e : Vec Ideal S2x320000 .i32) (hh : AllReal h) :
    AllReal (aggregate2 h e) := by
  unfold aggregate2
  apply allReal_scatterAdd
  · exact allReal_broadcastInDim _ _ _ _ allReal_zero
  · unfold srcRows320
    exact allReal_gather _ _ _ hh

/-- The first convolution sends real arrays to a real array, whatever the edge table. -/
theorem allReal_refConv1 (xn : Vec Ideal S10000x128 .f32) (e : Vec Ideal S2x320000 .i32) (W : Vec Ideal S128x256 .f32)
    (b : Vec Ideal S256 .f32) (hx : AllReal xn) (hW : AllReal W) (hb : AllReal b) : AllReal (refConv1 xn e W b) := by
  unfold refConv1
  exact allReal_addf _ _ (allReal_aggregate1 _ e (allReal_lin1 xn W hx hW)) (allReal_tile256 b hb)

/-- The second convolution sends real arrays to a real array, whatever the edge table. -/
theorem allReal_refConv2 (h : Vec Ideal S10000x256 .f32) (e : Vec Ideal S2x320000 .i32) (Wrel : Vec Ideal S256x256 .f32)
    (brel : Vec Ideal S256 .f32) (Wroot : Vec Ideal S256x256 .f32) (hh : AllReal h) (hWrel : AllReal Wrel)
    (hbrel : AllReal brel) (hWroot : AllReal Wroot) : AllReal (refConv2 h e Wrel brel Wroot) := by
  unfold refConv2
  exact allReal_addf _ _
    (allReal_addf _ _ (allReal_lin2 _ Wrel (allReal_aggregate2 h e hh) hWrel) (allReal_tile256 brel hbrel))
    (allReal_lin2 h Wroot hh hWroot)

/-- The whole reference sends real arguments to a real result, whatever the edge table. -/
theorem allReal_refOut (x : Vec Ideal S10000x128 .f32) (e : Vec Ideal S2x320000 .i32) (γ₀ β₀ : Vec Ideal S128 .f32)
    (W₁ : Vec Ideal S128x256 .f32) (b₁ γ₁ β₁ : Vec Ideal S256 .f32)
    (Wrel : Vec Ideal S256x256 .f32) (brel : Vec Ideal S256 .f32) (Wroot : Vec Ideal S256x256 .f32)
    (γ₂ β₂ : Vec Ideal S256 .f32) (hx : AllReal x) (hγ₀ : AllReal γ₀) (hβ₀ : AllReal β₀) (hW₁ : AllReal W₁)
    (hb₁ : AllReal b₁) (hγ₁ : AllReal γ₁) (hβ₁ : AllReal β₁) (hWrel : AllReal Wrel) (hbrel : AllReal brel)
    (hWroot : AllReal Wroot) (hγ₂ : AllReal γ₂) (hβ₂ : AllReal β₂) :
    AllReal (refOut x e γ₀ β₀ W₁ b₁ γ₁ β₁ Wrel brel Wroot γ₂ β₂) := by
  unfold refOut
  exact allReal_refReluNorm256 _ γ₂ β₂
    (allReal_refConv2 _ e Wrel brel Wroot
      (allReal_refReluNorm256 _ γ₁ β₁
        (allReal_refConv1 _ e W₁ b₁ (allReal_refNorm128 x γ₀ β₀ hx hγ₀ hβ₀) hW₁ hb₁) hγ₁ hβ₁)
      hWrel hbrel hWroot)
    hγ₂ hβ₂

/-! ## The products read at an index, and the second convolution as a two-product layer -/

/-- The first product at (p, j): the sum over q of xn (p, q) · W (q, j). -/
theorem lin1_apply (xn : Vec Ideal S10000x128 .f32) (W : Vec Ideal S128x256 .f32) (p : Fin 10000) (j : Fin 256) :
    lin1 xn W (ix2 p j) = ∑ q : Fin 128, xn (ix2 p q) * W (ix2 q j) :=
  LibAffine.hostDot_ix2 dot_S10000x128_S128x256_S10000x256_1_0_0_1_n_n
    (LibPlainDot.contr_rank _ rfl) (LibPlainDot.contr_size _ rfl) (LibPlainDot.lhs_row _ rfl rfl) (LibPlainDot.lhs_col _ rfl)
    (LibPlainDot.rhs_row _ rfl rfl) (LibPlainDot.rhs_col _ rfl rfl rfl rfl) none xn W p j

/-- The second product at (p, j): the sum over q of h (p, q) · W (q, j). -/
theorem lin2_apply (h : Vec Ideal S10000x256 .f32) (W : Vec Ideal S256x256 .f32) (p : Fin 10000) (j : Fin 256) :
    lin2 h W (ix2 p j) = ∑ q : Fin 256, h (ix2 p q) * W (ix2 q j) :=
  LibAffine.hostDot_ix2 dot_S10000x256_S256x256_S10000x256_1_0_0_1_n_n
    (LibPlainDot.contr_rank _ rfl) (LibPlainDot.contr_size _ rfl) (LibPlainDot.lhs_row _ rfl rfl) (LibPlainDot.lhs_col _ rfl)
    (LibPlainDot.rhs_row _ rfl rfl) (LibPlainDot.rhs_col _ rfl rfl rfl rfl) none h W p j

/-- The second convolution is the two-product layer on the neighbourhood sums and the input, its bias the row of brel. -/
theorem refConv2_eq_affine2 (h : Vec Ideal S10000x256 .f32) (e : Vec Ideal S2x320000 .i32) (Wrel : Vec Ideal S256x256 .f32)
    (brel : Vec Ideal S256 .f32) (Wroot : Vec Ideal S256x256 .f32) :
    refConv2 h e Wrel brel Wroot = LibAffine.affine2 (aggregate2 h e) h Wrel (row256 brel) Wroot :=
  LibAffine.hostAffine2_eq dot_S10000x256_S256x256_S10000x256_1_0_0_1_n_n
    (LibPlainDot.contr_rank _ rfl) (LibPlainDot.contr_size _ rfl) (LibPlainDot.lhs_row _ rfl rfl) (LibPlainDot.lhs_col _ rfl)
    (LibPlainDot.rhs_row _ rfl rfl) (LibPlainDot.rhs_col _ rfl rfl rfl rfl) bcast_S1x256_S10000x256_0_1 none
    (aggregate2 h e) h Wrel (row256 brel) Wroot

/-- The row of a vector of length 256 at (u, j) is the vector's entry j. -/
theorem row256_apply (v : Vec Ideal S256 .f32) (u : Fin 1) (j : Fin 256) : row256 v (ix2 u j) = v (ix1 j) :=
  LibColumnRow.broadcastInDim_n_1n_apply bcast_S256_S1x256_1 v u j

end Cert.ReferenceIdeal.Read'

end
-- ==== Proof.Bridge.lean ====
/-
  The kernel's stage functions and the reference's stage functions are the same functions on real data.

  * A per-column normalisation computed from the raw moments of a column (the column's sum and sum of squares over its
    10000 rows) agrees, on real data, with the one computed by centring first: over the reals the mean of squares less
    the squared mean is the mean squared deviation. With a bias row added first and a clip at zero, the column is the
    column of clipped shifted entries on both sides.
  * The two matrix products read at an index are the same sums of products; the two-product layer is the same up to the
    order of its three summands.
  * The neighbourhood sums are the same compositions of the same gathers and accumulations over the same edge list.
  * Every stage sends real arrays to real arrays, so the thirteen-argument compositions agree on real arguments.
-/
import proofs.«135245_j16080357556243_1_alg».proof.Proof.KDefs
import proofs.«135245_j16080357556243_1_alg».proof.Proof.RefRead
import proofs.«135245_j16080357556243_1_alg».proof.Proof.Gen.ReferenceIdeal

set_option maxRecDepth 16384

noncomputable section

namespace Cert.Bridge

open Idealize.ShloMosaic Idealize.ShloMosaic.ValueIdx
open Cert.LibBatchNorm Cert.LibBatchNormRaw Cert.LibAllReal Cert.LibNormStage
open Cert.ReferenceIdeal

/-! ## The raw-moment normalisation of an entry is the centred one -/

/-- An entry shifted by a bias, scaled and shifted with the mean and variance taken from the raw moments of its
    column of shifted entries, is the centred normalisation of that column. -/
theorem normAt_eq_centredNorm' {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ)
    (hε : ε = (ε' : EReal)) (hε' : 0 < ε') (e : ι) (z b : EReal) (hz : z + b = h e) :
    normAt z b γ β (Ideal.div (∑ i, h i) (n : EReal))
        (Ideal.div (∑ i, h i * h i) (n : EReal) - Ideal.div (∑ i, h i) (n : EReal) * Ideal.div (∑ i, h i) (n : EReal)) ε
      = centredNorm' h (n : EReal) γ β ε e := by
  unfold normAt
  rw [hz]
  exact rawNorm_eq_centredNorm' h hh n hn hpos hγ hβ ε' hε hε' e

/-- The same with the shifted entry clipped below at zero. -/
theorem reluNormAt_eq_centredNorm' {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ)
    (hε : ε = (ε' : EReal)) (hε' : 0 < ε') (e : ι) (z b : EReal) (hz : max (z + b) 0 = h e) :
    reluNormAt z b γ β (Ideal.div (∑ i, h i) (n : EReal))
        (Ideal.div (∑ i, h i * h i) (n : EReal) - Ideal.div (∑ i, h i) (n : EReal) * Ideal.div (∑ i, h i) (n : EReal)) ε
      = centredNorm' h (n : EReal) γ β ε e := by
  unfold reluNormAt
  rw [hz]
  exact rawNorm_eq_centredNorm' h hh n hn hpos hγ hβ ε' hε hε' e

theorem card_rows : ((10000 : ℝ)) = (Fintype.card (Fin 10000) : ℝ) := by
  rw [Fintype.card_fin]; norm_num

/-! ## The kernel's one-row arrays, column means and column variances read at an index -/

theorem kRow128_apply (v : Vec Ideal S128 .f32) (u : Fin 1) (c : Fin 128) : Cert.KernelIdeal.KVal.row128 v (ix2 u c) = v (ix1 c) :=
  rowCast_apply v _ u c

theorem kZeros128_apply (j : S128.Idx) : Cert.KernelIdeal.KVal.zeros128 j = 0 := Ideal.ofBits_zero_f32

theorem kMean128_apply (s : Vec Ideal S1x128 .f32) (i : S1x128.Idx) :
    Cert.KernelIdeal.KVal.mean128 s i = Ideal.div (s i) ((10000 : ℝ) : EReal) := by
  show Ideal.div (s i) (Ideal.ofBits .f32 0x461C4000#32) = _
  rw [ofBits_10000]

theorem kVar128_apply (s q : Vec Ideal S1x128 .f32) (i : S1x128.Idx) :
    Cert.KernelIdeal.KVal.var128 s q i = Ideal.div (q i) ((10000 : ℝ) : EReal)
      - Ideal.div (s i) ((10000 : ℝ) : EReal) * Ideal.div (s i) ((10000 : ℝ) : EReal) := by
  show Ideal.div (q i) (Ideal.ofBits .f32 0x461C4000#32) - Cert.KernelIdeal.KVal.mean128 s i * Cert.KernelIdeal.KVal.mean128 s i = _
  rw [ofBits_10000, kMean128_apply]

theorem kRow256_apply (v : Vec Ideal S256 .f32) (u : Fin 1) (c : Fin 256) : Cert.KernelIdeal.KVal.row256 v (ix2 u c) = v (ix1 c) :=
  rowCast_apply v _ u c

theorem kZeros256_apply (j : S256.Idx) : Cert.KernelIdeal.KVal.zeros256 j = 0 := Ideal.ofBits_zero_f32

theorem kMean256_apply (s : Vec Ideal S1x256 .f32) (i : S1x256.Idx) :
    Cert.KernelIdeal.KVal.mean256 s i = Ideal.div (s i) ((10000 : ℝ) : EReal) := by
  show Ideal.div (s i) (Ideal.ofBits .f32 0x461C4000#32) = _
  rw [ofBits_10000]

theorem kVar256_apply (s q : Vec Ideal S1x256 .f32) (i : S1x256.Idx) :
    Cert.KernelIdeal.KVal.var256 s q i = Ideal.div (q i) ((10000 : ℝ) : EReal)
      - Ideal.div (s i) ((10000 : ℝ) : EReal) * Ideal.div (s i) ((10000 : ℝ) : EReal) := by
  show Ideal.div (q i) (Ideal.ofBits .f32 0x461C4000#32) - Cert.KernelIdeal.KVal.mean256 s i * Cert.KernelIdeal.KVal.mean256 s i = _
  rw [ofBits_10000, kMean256_apply]

/-! ## The neighbourhood sums are the same on both sides -/

theorem aggregate1_eq (y : Vec Ideal S10000x256 .f32) (e : Vec Ideal S2x320000 .i32) :
    Cert.KernelIdeal.KSpec.aggregate1 (F := Ideal) y e = Spec.aggregate1 y e := rfl

theorem aggregate2_eq (h : Vec Ideal S10000x256 .f32) (e : Vec Ideal S2x320000 .i32) :
    Cert.KernelIdeal.KSpec.aggregate2 (F := Ideal) h e = Spec.aggregate2 h e := rfl

/-! ## Stage by stage -/

/-- The first normalisation. -/
theorem norm0_eq (x : Vec Ideal S10000x128 .f32) (g b : Vec Ideal S128 .f32) (hx : AllReal x) (hg : AllReal g)
    (hb : AllReal b) : Cert.KernelIdeal.KVal.norm0 x g b = Spec.refNorm128 x g b := by
  funext i
  obtain ⟨p, c, rfl⟩ : ∃ (p : Fin 10000) (c : Fin 128), i = ix2 p c := ⟨i 0, i 1, eq_ix2 i⟩
  rw [Read'.refNorm128_apply]
  show normAt (x (ix2 p c)) (Cert.KernelIdeal.KVal.row128 Cert.KernelIdeal.KVal.zeros128 (ix2 0 c)) (Cert.KernelIdeal.KVal.row128 g (ix2 0 c)) (Cert.KernelIdeal.KVal.row128 b (ix2 0 c))
      (Cert.KernelIdeal.KVal.mean128 (Cert.KernelIdeal.Gen.k0_pay2 x (Cert.KernelIdeal.KVal.row128 Cert.KernelIdeal.KVal.zeros128)) (ix2 0 c))
      (Cert.KernelIdeal.KVal.var128 (Cert.KernelIdeal.Gen.k0_pay2 x (Cert.KernelIdeal.KVal.row128 Cert.KernelIdeal.KVal.zeros128)) (Cert.KernelIdeal.Gen.k0_pay3 x (Cert.KernelIdeal.KVal.row128 Cert.KernelIdeal.KVal.zeros128)) (ix2 0 c))
      (Ideal.ofBits .f32 0x3727C5AC#32) = _
  rw [kMean128_apply, kVar128_apply, Cert.KernelIdeal.KReg0.sum_apply, Cert.KernelIdeal.KReg0.sumsq_apply, kRow128_apply, kRow128_apply,
    kRow128_apply, kZeros128_apply]
  simp only [add_zero]
  exact normAt_eq_centredNorm' (fun r : Fin 10000 => x (ix2 r c)) (fun r => hx _) 10000 card_rows (by norm_num)
    (hg _) (hb _) _ ofBits_eps (by positivity) p (x (ix2 p c)) 0 (add_zero _)

/-- The first product. -/
theorem lin1_eq (xn : Vec Ideal S10000x128 .f32) (W : Vec Ideal S128x256 .f32) : Cert.KernelIdeal.KVal.lin1 xn W = Spec.lin1 xn W := by
  funext i
  obtain ⟨p, j, rfl⟩ : ∃ (p : Fin 10000) (j : Fin 256), i = ix2 p j := ⟨i 0, i 1, eq_ix2 i⟩
  rw [Read'.lin1_apply]
  rfl

/-- The weighted neighbourhood sums of the first product. -/
theorem conv1_eq (xn : Vec Ideal S10000x128 .f32) (e : Vec Ideal S2x320000 .i32) (W : Vec Ideal S128x256 .f32) :
    Cert.KernelIdeal.KVal.conv1 xn e W = Spec.aggregate1 (Spec.lin1 xn W) e := by
  unfold Cert.KernelIdeal.KVal.conv1
  rw [lin1_eq, aggregate1_eq]

/-- The second normalisation: the bias, the clip and the normalisation are the reference's positive part and
    normalisation of the array with the bias laid along its rows. -/
theorem norm1_eq (z : Vec Ideal S10000x256 .f32) (bias g b : Vec Ideal S256 .f32) (hz : AllReal z) (hbias : AllReal bias)
    (hg : AllReal g) (hb : AllReal b) :
    Cert.KernelIdeal.KVal.norm1 z bias g b = Spec.refReluNorm256 (addf z (Spec.tile256 bias)) g b := by
  funext i
  obtain ⟨p, c, rfl⟩ : ∃ (p : Fin 10000) (c : Fin 256), i = ix2 p c := ⟨i 0, i 1, eq_ix2 i⟩
  rw [Read'.refReluNorm256_apply]
  show reluNormAt (z (ix2 p c)) (Cert.KernelIdeal.KVal.row256 bias (ix2 0 c)) (Cert.KernelIdeal.KVal.row256 g (ix2 0 c)) (Cert.KernelIdeal.KVal.row256 b (ix2 0 c))
      (Cert.KernelIdeal.KVal.mean256 (Cert.KernelIdeal.Gen.k3_pay2 z (Cert.KernelIdeal.KVal.row256 bias)) (ix2 0 c))
      (Cert.KernelIdeal.KVal.var256 (Cert.KernelIdeal.Gen.k3_pay2 z (Cert.KernelIdeal.KVal.row256 bias)) (Cert.KernelIdeal.Gen.k3_pay3 z (Cert.KernelIdeal.KVal.row256 bias)) (ix2 0 c))
      (Ideal.ofBits .f32 0x3727C5AC#32) = _
  rw [kMean256_apply, kVar256_apply, Cert.KernelIdeal.KReg3.sum_apply, Cert.KernelIdeal.KReg3.sumsq_apply, kRow256_apply, kRow256_apply,
    kRow256_apply]
  have hfam : (fun r : Fin 10000 => max ((addf z (Spec.tile256 bias)) (ix2 r c)) 0)
      = fun r : Fin 10000 => max (z (ix2 r c) + bias (ix1 c)) 0 :=
    funext fun r => by rw [addf_apply, Read'.tile256_apply]
  rw [hfam]
  exact reluNormAt_eq_centredNorm' (fun r : Fin 10000 => max (z (ix2 r c) + bias (ix1 c)) 0)
    (fun r => isReal_max_zero (isReal_add (hz _) (hbias _))) 10000 card_rows (by norm_num)
    (hg _) (hb _) _ ofBits_eps (by positivity) p (z (ix2 p c)) (bias (ix1 c)) rfl

/-- The third normalisation: a zero bias. -/
theorem norm2_eq (z : Vec Ideal S10000x256 .f32) (g b : Vec Ideal S256 .f32) (hz : AllReal z)
    (hg : AllReal g) (hb : AllReal b) : Cert.KernelIdeal.KVal.norm2 z g b = Spec.refReluNorm256 z g b := by
  funext i
  obtain ⟨p, c, rfl⟩ : ∃ (p : Fin 10000) (c : Fin 256), i = ix2 p c := ⟨i 0, i 1, eq_ix2 i⟩
  rw [Read'.refReluNorm256_apply]
  show reluNormAt (z (ix2 p c)) (Cert.KernelIdeal.KVal.row256 Cert.KernelIdeal.KVal.zeros256 (ix2 0 c)) (Cert.KernelIdeal.KVal.row256 g (ix2 0 c)) (Cert.KernelIdeal.KVal.row256 b (ix2 0 c))
      (Cert.KernelIdeal.KVal.mean256 (Cert.KernelIdeal.Gen.k6_pay2 z (Cert.KernelIdeal.KVal.row256 Cert.KernelIdeal.KVal.zeros256)) (ix2 0 c))
      (Cert.KernelIdeal.KVal.var256 (Cert.KernelIdeal.Gen.k6_pay2 z (Cert.KernelIdeal.KVal.row256 Cert.KernelIdeal.KVal.zeros256)) (Cert.KernelIdeal.Gen.k6_pay3 z (Cert.KernelIdeal.KVal.row256 Cert.KernelIdeal.KVal.zeros256)) (ix2 0 c))
      (Ideal.ofBits .f32 0x3727C5AC#32) = _
  rw [kMean256_apply, kVar256_apply, Cert.KernelIdeal.KReg6.sum_apply, Cert.KernelIdeal.KReg6.sumsq_apply, kRow256_apply, kRow256_apply,
    kRow256_apply, kZeros256_apply]
  simp only [add_zero]
  exact reluNormAt_eq_centredNorm' (fun r : Fin 10000 => max (z (ix2 r c)) 0)
    (fun r => isReal_max_zero (hz _)) 10000 card_rows (by norm_num)
    (hg _) (hb _) _ ofBits_eps (by positivity) p (z (ix2 p c)) 0 (by rw [add_zero])

/-- The second convolution. -/
theorem conv2_eq (h : Vec Ideal S10000x256 .f32) (e : Vec Ideal S2x320000 .i32) (Wrel : Vec Ideal S256x256 .f32)
    (brel : Vec Ideal S256 .f32) (Wroot : Vec Ideal S256x256 .f32) :
    Cert.KernelIdeal.KVal.conv2 h e Wrel brel Wroot = Spec.refConv2 h e Wrel brel Wroot := by
  rw [Read'.refConv2_eq_affine2]
  funext i
  obtain ⟨p, j, rfl⟩ : ∃ (p : Fin 10000) (j : Fin 256), i = ix2 p j := ⟨i 0, i 1, eq_ix2 i⟩
  rw [LibAffine.affine2_ix2]
  show (∑ q : Fin 256, Cert.KernelIdeal.KSpec.aggregate2 (F := Ideal) h e (ix2 p q) * Wrel (ix2 q j)) + (∑ q : Fin 256, h (ix2 p q) * Wroot (ix2 q j))
      + Cert.KernelIdeal.KVal.row256 brel (ix2 0 j) = _
  unfold LibAffine.affine2At
  rw [aggregate2_eq, kRow256_apply, Read'.row256_apply, add_right_comm]

/-- The whole program: on real arguments the kernel's composition is the reference's. -/
theorem kerOut_eq (x : Vec Ideal S10000x128 .f32) (e : Vec Ideal S2x320000 .i32) (g0 b0 : Vec Ideal S128 .f32)
    (W1 : Vec Ideal S128x256 .f32) (b1 g1 be1 : Vec Ideal S256 .f32)
    (Wrel : Vec Ideal S256x256 .f32) (brel : Vec Ideal S256 .f32) (Wroot : Vec Ideal S256x256 .f32)
    (g2 b2 : Vec Ideal S256 .f32) (hx : AllReal x) (hg0 : AllReal g0) (hb0 : AllReal b0) (hW1 : AllReal W1)
    (hb1 : AllReal b1) (hg1 : AllReal g1) (hbe1 : AllReal be1) (hWrel : AllReal Wrel) (hbrel : AllReal brel)
    (hWroot : AllReal Wroot) (hg2 : AllReal g2) (hb2 : AllReal b2) :
    Cert.KernelIdeal.KVal.kerOut x e g0 b0 W1 b1 g1 be1 Wrel brel Wroot g2 b2
      = Spec.refOut x e g0 b0 W1 b1 g1 be1 Wrel brel Wroot g2 b2 := by
  have h0 : AllReal (Spec.refNorm128 x g0 b0) := Read'.allReal_refNorm128 x g0 b0 hx hg0 hb0
  have hagg : AllReal (Spec.aggregate1 (Spec.lin1 (Spec.refNorm128 x g0 b0) W1) e) :=
    Read'.allReal_aggregate1 _ e (Read'.allReal_lin1 _ W1 h0 hW1)
  have h1 : AllReal (Spec.refConv1 (Spec.refNorm128 x g0 b0) e W1 b1) := Read'.allReal_refConv1 _ e W1 b1 h0 hW1 hb1
  have h2 : AllReal (Spec.refReluNorm256 (Spec.refConv1 (Spec.refNorm128 x g0 b0) e W1 b1) g1 be1) :=
    Read'.allReal_refReluNorm256 _ g1 be1 h1 hg1 hbe1
  have h3 : AllReal (Spec.refConv2 (Spec.refReluNorm256 (Spec.refConv1 (Spec.refNorm128 x g0 b0) e W1 b1) g1 be1) e Wrel brel Wroot) :=
    Read'.allReal_refConv2 _ e Wrel brel Wroot h2 hWrel hbrel hWroot
  unfold Cert.KernelIdeal.KVal.kerOut Spec.refOut
  rw [norm0_eq x g0 b0 hx hg0 hb0, conv1_eq, norm1_eq _ b1 g1 be1 hagg hb1 hg1 hbe1]
  show Cert.KernelIdeal.KVal.norm2 (Cert.KernelIdeal.KVal.conv2 (Spec.refReluNorm256 (Spec.refConv1 (Spec.refNorm128 x g0 b0) e W1 b1) g1 be1) e Wrel brel Wroot) g2 b2 = _
  rw [conv2_eq, norm2_eq _ g2 b2 h3 hg2 hb2]

end Cert.Bridge

end
-- ==== Proof.PreReal.lean ====
/-
  From the precondition to real numbers: when the conjunction, over the twelve float arguments, of "every entry has
  absolute value below +∞" holds, every entry of every float argument is a real number. The conjunction is a nest of
  bitwise ands of one-bit words, each the and-reduction over a whole array of the entrywise comparison of the absolute
  value with the float word of +∞; a one-bit and is one exactly when both sides are; an and-reduction into a single
  result is one exactly when every entry is; and an extended real whose absolute value is below +∞ is a real number.
-/
import proofs.«135245_j16080357556243_1_alg».proof.Defs
import proofs.«135245_j16080357556243_1_alg».proof.Proof.LibAllReal
import Idealize.ShloMosaic.Lib.ReduceAll
import Idealize.ShloMosaic.Lib.ValueIdx

set_option maxRecDepth 16384

noncomputable section

namespace Cert.PreReal

open Idealize.ShloMosaic Idealize.ShloMosaic.ValueIdx Idealize.SL.Sem
open Cert.LibBatchNorm Cert.LibBatchNormRaw Cert.LibAllReal

instance : Subsingleton (⟨0, ![]⟩ : Shape).Idx := ⟨fun a b => funext fun d => d.elim0⟩

/-- The float word 0x7F800000 denotes +∞. -/
theorem ofBits_inf : Ideal.ofBits .f32 0x7F800000#32 = ⊤ := by simp [Ideal.ofBits, Ideal.ieee]

/-- An extended real whose absolute value compares below the float word of +∞ is a real number. -/
theorem isReal_of_cmp_abs {x : EReal} (h : Ideal.cmp .olt (max x (-x)) (Ideal.ofBits .f32 0x7F800000#32) = 1#1) :
    IsReal x := by
  rw [ofBits_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  exact isReal_of_abs_lt_top hlt

/-- An array whose entrywise test "absolute value below +∞", and-reduced to a single bit, is one has only real entries. -/
theorem allReal_of_all {s : Shape} {axes : List (Fin s.rank)} (x : FVec Ideal s .f32)
    (hb : (⟨0, ![]⟩ : Shape).BroadcastsInDim s ![]) (h : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) h hu ix0 = 1#1) : AllReal x := by
  intro i
  have hi := Host.reduce_andi_all _ _ h hu ix0 e i
  exact isReal_of_cmp_abs hi

variable [Cert.Pre_finite_inputs.Facts]

/-- Under the precondition every entry of every float argument is a real number. -/
theorem reals_of_pre (m : (ℓ : Loc Cert.KernelIdeal.nD Cert.KernelIdeal.τ Cert.KernelIdeal.sig) → Buf (Elt Ideal) ℓ) (hPre : Cert.Pre_KernelIdeal m)
    (c : Dev Cert.KernelIdeal.nD) :
    AllReal (m ((c.tc : Thread Cert.KernelIdeal.nD Cert.KernelIdeal.τ).loc Cert.KernelIdeal.main_arg0) : Vec Ideal Cert.KernelIdeal.S10000x128 .f32)
    ∧ AllReal (m ((c.tc : Thread Cert.KernelIdeal.nD Cert.KernelIdeal.τ).loc Cert.KernelIdeal.main_arg2) : Vec Ideal Cert.KernelIdeal.S128 .f32)
    ∧ AllReal (m ((c.tc : Thread Cert.KernelIdeal.nD Cert.KernelIdeal.τ).loc Cert.KernelIdeal.main_arg3) : Vec Ideal Cert.KernelIdeal.S128 .f32)
    ∧ AllReal (m ((c.tc : Thread Cert.KernelIdeal.nD Cert.KernelIdeal.τ).loc Cert.KernelIdeal.main_arg4) : Vec Ideal Cert.KernelIdeal.S128x256 .f32)
    ∧ AllReal (m ((c.tc : Thread Cert.KernelIdeal.nD Cert.KernelIdeal.τ).loc Cert.KernelIdeal.main_arg5) : Vec Ideal Cert.KernelIdeal.S256 .f32)
    ∧ AllReal (m ((c.tc : Thread Cert.KernelIdeal.nD Cert.KernelIdeal.τ).loc Cert.KernelIdeal.main_arg6) : Vec Ideal Cert.KernelIdeal.S256 .f32)
    ∧ AllReal (m ((c.tc : Thread Cert.KernelIdeal.nD Cert.KernelIdeal.τ).loc Cert.KernelIdeal.main_arg7) : Vec Ideal Cert.KernelIdeal.S256 .f32)
    ∧ AllReal (m ((c.tc : Thread Cert.KernelIdeal.nD Cert.KernelIdeal.τ).loc Cert.KernelIdeal.main_arg8) : Vec Ideal Cert.KernelIdeal.S256x256 .f32)
    ∧ AllReal (m ((c.tc : Thread Cert.KernelIdeal.nD Cert.KernelIdeal.τ).loc Cert.KernelIdeal.main_arg9) : Vec Ideal Cert.KernelIdeal.S256 .f32)
    ∧ AllReal (m ((c.tc : Thread Cert.KernelIdeal.nD Cert.KernelIdeal.τ).loc Cert.KernelIdeal.main_arg10) : Vec Ideal Cert.KernelIdeal.S256x256 .f32)
    ∧ AllReal (m ((c.tc : Thread Cert.KernelIdeal.nD Cert.KernelIdeal.τ).loc Cert.KernelIdeal.main_arg11) : Vec Ideal Cert.KernelIdeal.S256 .f32)
    ∧ AllReal (m ((c.tc : Thread Cert.KernelIdeal.nD Cert.KernelIdeal.τ).loc Cert.KernelIdeal.main_arg12) : Vec Ideal Cert.KernelIdeal.S256 .f32) := by
  have h := congrFun (hPre c) ix0
  dsimp only [Cert.Pre_finite_inputs.fn, Cert.Pre_finite_inputs.fn_part1, Cert.Pre_finite_inputs.fn_part2,
    Cert.Pre_finite_inputs.fn_part3, andi] at h
  simp only [IntOp.andi_eq_one] at h
  obtain ⟨⟨⟨⟨⟨⟨⟨⟨⟨⟨⟨h0, h2⟩, h3⟩, h4⟩, h5⟩, h6⟩, h7⟩, h8⟩, h9⟩, h10⟩, h11⟩, h12⟩ := h
  exact ⟨allReal_of_all _ _ _ _ h0, allReal_of_all _ _ _ _ h2, allReal_of_all _ _ _ _ h3, allReal_of_all _ _ _ _ h4, allReal_of_all _ _ _ _ h5, allReal_of_all _ _ _ _ h6, allReal_of_all _ _ _ _ h7, allReal_of_all _ _ _ _ h8, allReal_of_all _ _ _ _ h9, allReal_of_all _ _ _ _ h10, allReal_of_all _ _ _ _ h11, allReal_of_all _ _ _ _ h12⟩

end Cert.PreReal

end
-- ==== Proof.BridgePre.lean ====
/-
  Under the precondition the kernel's composition of its stages and the reference's composition of its stages agree on
  the thirteen argument arrays: the precondition makes every float argument an array of real numbers, and on real
  arguments the two compositions are the same function.
-/
import proofs.«135245_j16080357556243_1_alg».proof.Proof.Bridge
import proofs.«135245_j16080357556243_1_alg».proof.Proof.PreReal

set_option maxRecDepth 16384

noncomputable section

namespace Cert.Bridge

open Idealize.ShloMosaic Idealize.ShloMosaic.ValueIdx Idealize.SL.Sem
open Cert.LibAllReal

variable [Cert.Pre_finite_inputs.Facts]

/-- Under the precondition, on every device, the kernel's stages composed on the argument arrays are the reference's. -/
theorem kerOut_eq_of_pre (m : (ℓ : Loc Cert.KernelIdeal.nD Cert.KernelIdeal.τ Cert.KernelIdeal.sig) → Buf (Elt Ideal) ℓ) (hPre : Cert.Pre_KernelIdeal m)
    (c : Dev Cert.KernelIdeal.nD) :
    Cert.KernelIdeal.KVal.kerOut
        (m ((c.tc : Thread Cert.KernelIdeal.nD Cert.KernelIdeal.τ).loc Cert.KernelIdeal.main_arg0) : Vec Ideal Cert.KernelIdeal.S10000x128 .f32)
        (m ((c.tc : Thread Cert.KernelIdeal.nD Cert.KernelIdeal.τ).loc Cert.KernelIdeal.main_arg1) : Vec Ideal Cert.KernelIdeal.S2x320000 .i32)
        (m ((c.tc : Thread Cert.KernelIdeal.nD Cert.KernelIdeal.τ).loc Cert.KernelIdeal.main_arg2) : Vec Ideal Cert.KernelIdeal.S128 .f32)
        (m ((c.tc : Thread Cert.KernelIdeal.nD Cert.KernelIdeal.τ).loc Cert.KernelIdeal.main_arg3) : Vec Ideal Cert.KernelIdeal.S128 .f32)
        (m ((c.tc : Thread Cert.KernelIdeal.nD Cert.KernelIdeal.τ).loc Cert.KernelIdeal.main_arg4) : Vec Ideal Cert.KernelIdeal.S128x256 .f32)
        (m ((c.tc : Thread Cert.KernelIdeal.nD Cert.KernelIdeal.τ).loc Cert.KernelIdeal.main_arg5) : Vec Ideal Cert.KernelIdeal.S256 .f32)
        (m ((c.tc : Thread Cert.KernelIdeal.nD Cert.KernelIdeal.τ).loc Cert.KernelIdeal.main_arg6) : Vec Ideal Cert.KernelIdeal.S256 .f32)
        (m ((c.tc : Thread Cert.KernelIdeal.nD Cert.KernelIdeal.τ).loc Cert.KernelIdeal.main_arg7) : Vec Ideal Cert.KernelIdeal.S256 .f32)
        (m ((c.tc : Thread Cert.KernelIdeal.nD Cert.KernelIdeal.τ).loc Cert.KernelIdeal.main_arg8) : Vec Ideal Cert.KernelIdeal.S256x256 .f32)
        (m ((c.tc : Thread Cert.KernelIdeal.nD Cert.KernelIdeal.τ).loc Cert.KernelIdeal.main_arg9) : Vec Ideal Cert.KernelIdeal.S256 .f32)
        (m ((c.tc : Thread Cert.KernelIdeal.nD Cert.KernelIdeal.τ).loc Cert.KernelIdeal.main_arg10) : Vec Ideal Cert.KernelIdeal.S256x256 .f32)
        (m ((c.tc : Thread Cert.KernelIdeal.nD Cert.KernelIdeal.τ).loc Cert.KernelIdeal.main_arg11) : Vec Ideal Cert.KernelIdeal.S256 .f32)
        (m ((c.tc : Thread Cert.KernelIdeal.nD Cert.KernelIdeal.τ).loc Cert.KernelIdeal.main_arg12) : Vec Ideal Cert.KernelIdeal.S256 .f32)
      = Cert.ReferenceIdeal.Spec.refOut
        (m ((c.tc : Thread Cert.KernelIdeal.nD Cert.KernelIdeal.τ).loc Cert.KernelIdeal.main_arg0) : Vec Ideal Cert.KernelIdeal.S10000x128 .f32)
        (m ((c.tc : Thread Cert.KernelIdeal.nD Cert.KernelIdeal.τ).loc Cert.KernelIdeal.main_arg1) : Vec Ideal Cert.KernelIdeal.S2x320000 .i32)
        (m ((c.tc : Thread Cert.KernelIdeal.nD Cert.KernelIdeal.τ).loc Cert.KernelIdeal.main_arg2) : Vec Ideal Cert.KernelIdeal.S128 .f32)
        (m ((c.tc : Thread Cert.KernelIdeal.nD Cert.KernelIdeal.τ).loc Cert.KernelIdeal.main_arg3) : Vec Ideal Cert.KernelIdeal.S128 .f32)
        (m ((c.tc : Thread Cert.KernelIdeal.nD Cert.KernelIdeal.τ).loc Cert.KernelIdeal.main_arg4) : Vec Ideal Cert.KernelIdeal.S128x256 .f32)
        (m ((c.tc : Thread Cert.KernelIdeal.nD Cert.KernelIdeal.τ).loc Cert.KernelIdeal.main_arg5) : Vec Ideal Cert.KernelIdeal.S256 .f32)
        (m ((c.tc : Thread Cert.KernelIdeal.nD Cert.KernelIdeal.τ).loc Cert.KernelIdeal.main_arg6) : Vec Ideal Cert.KernelIdeal.S256 .f32)
        (m ((c.tc : Thread Cert.KernelIdeal.nD Cert.KernelIdeal.τ).loc Cert.KernelIdeal.main_arg7) : Vec Ideal Cert.KernelIdeal.S256 .f32)
        (m ((c.tc : Thread Cert.KernelIdeal.nD Cert.KernelIdeal.τ).loc Cert.KernelIdeal.main_arg8) : Vec Ideal Cert.KernelIdeal.S256x256 .f32)
        (m ((c.tc : Thread Cert.KernelIdeal.nD Cert.KernelIdeal.τ).loc Cert.KernelIdeal.main_arg9) : Vec Ideal Cert.KernelIdeal.S256 .f32)
        (m ((c.tc : Thread Cert.KernelIdeal.nD Cert.KernelIdeal.τ).loc Cert.KernelIdeal.main_arg10) : Vec Ideal Cert.KernelIdeal.S256x256 .f32)
        (m ((c.tc : Thread Cert.KernelIdeal.nD Cert.KernelIdeal.τ).loc Cert.KernelIdeal.main_arg11) : Vec Ideal Cert.KernelIdeal.S256 .f32)
        (m ((c.tc : Thread Cert.KernelIdeal.nD Cert.KernelIdeal.τ).loc Cert.KernelIdeal.main_arg12) : Vec Ideal Cert.KernelIdeal.S256 .f32) := by
  obtain ⟨h0, h2, h3, h4, h5, h6, h7, h8, h9, h10, h11, h12⟩ := Cert.PreReal.reals_of_pre m hPre c
  exact kerOut_eq _ _ _ _ _ _ _ _ _ _ _ _ _ h0 h2 h3 h4 h5 h6 h7 h8 h9 h10 h11 h12

end Cert.Bridge

end
-- ==== Proof.LibAllRealMore.lean ====
/-
  General lemmas: arrays of extended reals all of whose entries are positive reals, nonnegative reals, or reals other
  than zero, and the array operations that keep them so.

  Every operation whose output entry IS some input entry (a gather, a broadcast, a change of shape, a slice, a
  transposition, a choice between two arrays, a change of float format) keeps any property of entries. A sum of a
  nonnegative and a positive real is positive; a product of positive reals is positive; a product of reals other than
  zero is not zero; the maximum of a real and a nonnegative real is nonnegative. The constant arrays of the float words
  that denote 10000, 1 and 10995116 · 2⁻⁴⁰ are positive.
  Nothing here mentions a program; every lemma is for arbitrary shapes and arbitrary dimension records.
-/
import proofs.«135245_j16080357556243_1_alg».proof.Proof.LibAllReal

noncomputable section

namespace Cert.LibAllReal

open Idealize.ShloMosaic Cert.LibBatchNorm Cert.LibBatchNormRaw

variable {φ : FTy}

/-- Every entry of the array is a nonnegative real number. -/
def AllNonneg {S : Shape} (v : S.Idx → EReal) : Prop := ∀ i, IsReal (v i) ∧ 0 ≤ v i

theorem AllNonneg.allReal {S : Shape} {v : S.Idx → EReal} (h : AllNonneg v) : AllReal v := fun i => (h i).1

theorem AllPos.allNonneg {S : Shape} {v : S.Idx → EReal} (h : AllPos v) : AllNonneg v :=
  fun i => ⟨(h i).1, le_of_lt (h i).2⟩

/-! ### Scalar facts -/

theorem pos_add_of_nonneg_of_pos {x y : EReal} (hx : IsReal x) (hy : IsReal y) (h0 : 0 ≤ x) (h1 : 0 < y) : 0 < x + y := by
  obtain ⟨a, rfl⟩ := hx; obtain ⟨b, rfl⟩ := hy
  have ha : 0 ≤ a := EReal.coe_nonneg.mp h0
  have hb : 0 < b := EReal.coe_pos.mp h1
  rw [← EReal.coe_add]; exact EReal.coe_pos.mpr (by linarith)

theorem pos_mul_of_pos {x y : EReal} (hx : IsReal x) (hy : IsReal y) (h0 : 0 < x) (h1 : 0 < y) : 0 < x * y := by
  obtain ⟨a, rfl⟩ := hx; obtain ⟨b, rfl⟩ := hy
  have ha : 0 < a := EReal.coe_pos.mp h0
  have hb : 0 < b := EReal.coe_pos.mp h1
  rw [← EReal.coe_mul]; exact EReal.coe_pos.mpr (mul_pos ha hb)

theorem nonneg_mul_of_nonneg {x y : EReal} (hx : IsReal x) (hy : IsReal y) (h0 : 0 ≤ x) (h1 : 0 ≤ y) : 0 ≤ x * y := by
  obtain ⟨a, rfl⟩ := hx; obtain ⟨b, rfl⟩ := hy
  have ha : 0 ≤ a := EReal.coe_nonneg.mp h0
  have hb : 0 ≤ b := EReal.coe_nonneg.mp h1
  rw [← EReal.coe_mul]; exact EReal.coe_nonneg.mpr (mul_nonneg ha hb)

theorem mul_ne_zero_of_isReal {x y : EReal} (hx : IsReal x) (hy : IsReal y) (h0 : x ≠ 0) (h1 : y ≠ 0) : x * y ≠ 0 := by
  obtain ⟨a, rfl⟩ := hx; obtain ⟨b, rfl⟩ := hy
  have ha : a ≠ 0 := fun h => h0 (by rw [h, EReal.coe_zero])
  have hb : b ≠ 0 := fun h => h1 (by rw [h, EReal.coe_zero])
  rw [← EReal.coe_mul]
  intro h
  exact mul_ne_zero ha hb (by exact_mod_cast h)

/-- A real number times itself is a nonnegative real number. -/
theorem nonneg_mul_self {x : EReal} (hx : IsReal x) : 0 ≤ x * x := by
  obtain ⟨a, rfl⟩ := hx
  rw [← EReal.coe_mul]; exact EReal.coe_nonneg.mpr (mul_self_nonneg a)

/-! ### Constants -/

theorem allPos_constant (S : Shape) (w : BitVec φ.bits) (hw : IsReal (Ideal.ofBits φ w)) (hpos : 0 < Ideal.ofBits φ w) :
    AllPos (constant (F := Ideal) S φ w) := fun _ => ⟨hw, hpos⟩

theorem allNonzero_constant (S : Shape) (w : BitVec φ.bits) (hw : IsReal (Ideal.ofBits φ w)) (h0 : Ideal.ofBits φ w ≠ 0) :
    AllNonzero (constant (F := Ideal) S φ w) := fun _ => ⟨hw, h0⟩

/-- The constant array of the float word that denotes 10000 is positive. -/
theorem allPos_constant_10000 (S : Shape) : AllPos (constant (F := Ideal) S .f32 0x461C4000#32) :=
  allPos_constant S _ (by rw [ofBits_10000]; exact isReal_coe _)
    (by rw [ofBits_10000]; exact EReal.coe_pos.mpr (by norm_num))

/-- The constant array of the float word that denotes 1 is positive. -/
theorem allPos_constant_one (S : Shape) : AllPos (constant (F := Ideal) S .f32 0x3F800000#32) :=
  allPos_constant S _ (by rw [ofBits_one]; exact isReal_coe _)
    (by rw [ofBits_one]; exact EReal.coe_pos.mpr (by norm_num))

/-- The constant array of the float word 0x3727C5AC is positive. -/
theorem allPos_constant_eps (S : Shape) : AllPos (constant (F := Ideal) S .f32 0x3727C5AC#32) :=
  allPos_constant S _ (by rw [ofBits_eps]; exact isReal_coe _)
    (by rw [ofBits_eps]; exact EReal.coe_pos.mpr (by positivity))

/-- The zero array is nonnegative. -/
theorem allNonneg_constant_zero (S : Shape) : AllNonneg (constant (F := Ideal) S .f32 0x00000000#32) :=
  fun _ => ⟨by show IsReal (Ideal.ofBits .f32 0x00000000#32); rw [Ideal.ofBits_zero_f32]; exact isReal_zero,
    by show 0 ≤ Ideal.ofBits .f32 0x00000000#32; rw [Ideal.ofBits_zero_f32]⟩

/-! ### Pointwise operations -/

theorem allPos_addf {S : Shape} (x y : FVec Ideal S φ) (hx : AllNonneg x) (hy : AllPos y) : AllPos (addf x y) :=
  fun i => ⟨isReal_add (hx i).1 (hy i).1, pos_add_of_nonneg_of_pos (hx i).1 (hy i).1 (hx i).2 (hy i).2⟩

theorem allPos_mulf {S : Shape} (x y : FVec Ideal S φ) (hx : AllPos x) (hy : AllPos y) : AllPos (mulf x y) :=
  fun i => ⟨isReal_mul (hx i).1 (hy i).1, pos_mul_of_pos (hx i).1 (hy i).1 (hx i).2 (hy i).2⟩

theorem allNonneg_mulf {S : Shape} (x y : FVec Ideal S φ) (hx : AllNonneg x) (hy : AllNonneg y) : AllNonneg (mulf x y) :=
  fun i => ⟨isReal_mul (hx i).1 (hy i).1, nonneg_mul_of_nonneg (hx i).1 (hy i).1 (hx i).2 (hy i).2⟩

theorem allNonneg_mulf_self {S : Shape} (x : FVec Ideal S φ) (hx : AllReal x) : AllNonneg (mulf x x) :=
  fun i => ⟨isReal_mul (hx i) (hx i), nonneg_mul_self (hx i)⟩

theorem allNonzero_mulf {S : Shape} (x y : FVec Ideal S φ) (hx : AllNonzero x) (hy : AllNonzero y) :
    AllNonzero (mulf x y) :=
  fun i => ⟨isReal_mul (hx i).1 (hy i).1, mul_ne_zero_of_isReal (hx i).1 (hy i).1 (hx i).2 (hy i).2⟩

/-- The pointwise maximum of a real array and a nonnegative array is nonnegative. -/
theorem allNonneg_maximumf_right {S : Shape} (x y : FVec Ideal S φ) (hx : AllReal x) (hy : AllNonneg y) :
    AllNonneg (maximumf x y) :=
  fun i => ⟨isReal_max (hx i) (hy i).1, le_trans (hy i).2 (le_max_right _ _)⟩

theorem allNonneg_maximumf_left {S : Shape} (x y : FVec Ideal S φ) (hx : AllNonneg x) (hy : AllReal y) :
    AllNonneg (maximumf x y) :=
  fun i => ⟨isReal_max (hx i).1 (hy i), le_trans (hx i).2 (le_max_left _ _)⟩

/-! ### Re-indexings keep every property of entries -/

theorem allPos_broadcast (t : Shape) (x : EReal) (hx : IsReal x) (hpos : 0 < x) : AllPos (broadcast t x) :=
  fun _ => ⟨hx, hpos⟩

theorem allNonzero_broadcast (t : Shape) (x : EReal) (hx : IsReal x) (h0 : x ≠ 0) : AllNonzero (broadcast t x) :=
  fun _ => ⟨hx, h0⟩

theorem allPos_broadcastTo {s : Shape} (t : Shape) (x : s.Idx → EReal) (h : s.Broadcasts t) (hx : AllPos x) :
    AllPos (broadcastTo t x h) := fun _ => hx _

theorem allNonzero_broadcastTo {s : Shape} (t : Shape) (x : s.Idx → EReal) (h : s.Broadcasts t) (hx : AllNonzero x) :
    AllNonzero (broadcastTo t x h) := fun _ => hx _

theorem allNonneg_broadcastTo {s : Shape} (t : Shape) (x : s.Idx → EReal) (h : s.Broadcasts t) (hx : AllNonneg x) :
    AllNonneg (broadcastTo t x h) := fun _ => hx _

theorem allPos_broadcastInDim {s : Shape} (t : Shape) (dims : Fin s.rank → Fin t.rank) (h : s.BroadcastsInDim t dims)
    (x : s.Idx → EReal) (hx : AllPos x) : AllPos (broadcastInDim t dims h x) := fun _ => hx _

theorem allNonzero_broadcastInDim {s : Shape} (t : Shape) (dims : Fin s.rank → Fin t.rank) (h : s.BroadcastsInDim t dims)
    (x : s.Idx → EReal) (hx : AllNonzero x) : AllNonzero (broadcastInDim t dims h x) := fun _ => hx _

theorem allNonneg_broadcastInDim {s : Shape} (t : Shape) (dims : Fin s.rank → Fin t.rank) (h : s.BroadcastsInDim t dims)
    (x : s.Idx → EReal) (hx : AllNonneg x) : AllNonneg (broadcastInDim t dims h x) := fun _ => hx _

theorem allPos_shapeCast {s : Shape} (t : Shape) (x : s.Idx → EReal) (h : s.ShapeCasts t) (hx : AllPos x) :
    AllPos (shapeCast t x h) := fun _ => hx _

theorem allNonzero_shapeCast {s : Shape} (t : Shape) (x : s.Idx → EReal) (h : s.ShapeCasts t) (hx : AllNonzero x) :
    AllNonzero (shapeCast t x h) := fun _ => hx _

theorem allNonneg_shapeCast {s : Shape} (t : Shape) (x : s.Idx → EReal) (h : s.ShapeCasts t) (hx : AllNonneg x) :
    AllNonneg (shapeCast t x h) := fun _ => hx _

theorem allPos_gather {s si t : Shape} {w : Nat} (d : GatherDims s si t) (x : s.Idx → EReal) (idx : IVec si w)
    (hx : AllPos x) : AllPos (Host.gather d x idx) := fun j => hx (d.operandIdx j idx)

theorem allNonzero_gather {s si t : Shape} {w : Nat} (d : GatherDims s si t) (x : s.Idx → EReal) (idx : IVec si w)
    (hx : AllNonzero x) : AllNonzero (Host.gather d x idx) := fun j => hx (d.operandIdx j idx)

theorem allPos_truncf {S : Shape} (ψ : FTy) (x : FVec Ideal S φ) (h : ψ.bits < φ.bits) (hx : AllPos x) :
    AllPos (truncf ψ x h) := fun i => hx i

theorem allPos_extf {S : Shape} (ψ : FTy) (x : FVec Ideal S φ) (h : φ.bits < ψ.bits) (hx : AllPos x) :
    AllPos (extf ψ x h) := fun i => hx i

theorem allPos_select {S : Shape} (c : IVec S 1) (a b : S.Idx → EReal) (ha : AllPos a) (hb : AllPos b) :
    AllPos (select c a b) := by
  intro i
  show IsReal (if c i = 1 then a i else b i) ∧ 0 < (if c i = 1 then a i else b i)
  split
  · exact ha i
  · exact hb i

theorem allNonzero_select {S : Shape} (c : IVec S 1) (a b : S.Idx → EReal) (ha : AllNonzero a) (hb : AllNonzero b) :
    AllNonzero (select c a b) := by
  intro i
  show IsReal (if c i = 1 then a i else b i) ∧ (if c i = 1 then a i else b i) ≠ 0
  split
  · exact ha i
  · exact hb i

end Cert.LibAllReal

end
-- ==== Proof.lean ====
/-
  A three-layer graph network — a per-column normalisation of the 10000 × 128 node features, a graph convolution with
  self loops and symmetric degree weights, a second normalisation after a bias and a clip at zero, a convolution with
  two weight matrices, and a third normalisation — computed by a program of eight tiled regions against one computed
  by plain array operations. On the extended reals the two agree whenever the float arguments are real numbers:

  * each normalisation of the tiled program takes the column variance from the raw moments (the mean of the squares less
    the squared mean) and folds the gain into one scale and the mean into one shift, where the plain program centres
    first and takes the mean of the squared deviations; for real data the two variances are one nonnegative number, its
    sum with the positive ε has a real inverse root, and the rest is ring arithmetic (it fails at the infinities, which
    is where the precondition is used);
  * a matrix-unit product into a zero accumulator and the host's product are the same sum over the contracted axis, the
    changes of float format being the identity;
  * the edge list, the degrees, the edge weights and the two neighbourhood sums are the same operations in both programs;
  * the last convolution adds its three terms in another order, which the extended reals allow;
  * realness is carried from stage to stage: sums, products, gathers and accumulating scatters of reals are real, and
    the guarded inverse root of a degree is real.

  The frames of the two tiled programs are the generated ones; the plain program's run is written by hand, stage by
  stage; the tiled program's result is read off its frame run region by region.
-/
import proofs.«135245_j16080357556243_1_alg».proof.Defs
import proofs.«135245_j16080357556243_1_alg».proof.Proof.Gen.Kernel
import proofs.«135245_j16080357556243_1_alg».proof.Proof.Gen.Kernel.Frame
import proofs.«135245_j16080357556243_1_alg».proof.Proof.Gen.KernelIdeal
import proofs.«135245_j16080357556243_1_alg».proof.Proof.Gen.KernelIdeal.Frame
import proofs.«135245_j16080357556243_1_alg».proof.Proof.Gen.ReferenceIdeal
import proofs.«135245_j16080357556243_1_alg».proof.Proof.Gen.Pre_finite_inputs
import proofs.«135245_j16080357556243_1_alg».proof.Proof.KRun
import proofs.«135245_j16080357556243_1_alg».proof.Proof.KVal
import proofs.«135245_j16080357556243_1_alg».proof.Proof.RefRun
import proofs.«135245_j16080357556243_1_alg».proof.Proof.BridgePre
import proofs.«135245_j16080357556243_1_alg».proof.Proof.LibAllRealMore
import Idealize.ShloMosaic.Adequacy
import Idealize.ShloMosaic.Init

set_option maxRecDepth 16384

noncomputable section

namespace Cert.Proof

open Idealize.ShloMosaic Idealize.SL.Sem

instance instK : Cert.Kernel.Facts := Cert.Kernel.Gen.facts
instance instKI : Cert.KernelIdeal.Facts := Cert.KernelIdeal.Gen.facts
instance instRI : Cert.ReferenceIdeal.Facts := Cert.ReferenceIdeal.Gen.facts
instance instPre : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run_value (F := Ideal) m ρ)

/-- Both programs run, and from agreeing real arguments they end with one result: the tiled program's composition of
    its seven stages is the plain program's composition of its five. -/
theorem algebraic : Cert.algebraic_KernelIdeal_ReferenceIdeal := by
  intro m ρ m' ρ' hpre hagree
  refine ⟨fun c => Cert.KernelIdeal.KVal.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KVal.result_eq m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.RefRun.run_value (F := Ideal) m' ρ')
    obtain ⟨a0, a1, a2, a3, a4, a5, a6, a7, a8, a9, a10, a11, a12⟩ := hagree c
    rw [a0, a1, a2, a3, a4, a5, a6, a7, a8, a9, a10, a11, a12]
    exact (Cert.Bridge.kerOut_eq_of_pre m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
